-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768 : Shape := ⟨1, ![32768]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x256 .f32) (main_arg1 : IVec S32768 32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  main_v3
-- ==== Kernel.lean ====
abbrev S32768x256 : Shape := ⟨2, ![32768, 256]⟩
abbrev S32768 : Shape := ⟨1, ![32768]⟩
abbrev S_ : Shape := ⟨0, ![]⟩
abbrev S4096 : Shape := ⟨1, ![4096]⟩
abbrev S32768x1 : Shape := ⟨2, ![32768, 1]⟩
abbrev S4096x256 : Shape := ⟨2, ![4096, 256]⟩
abbrev S4096x1 : Shape := ⟨2, ![4096, 1]⟩
abbrev S1x32768 : Shape := ⟨2, ![1, 32768]⟩
abbrev S512x256 : Shape := ⟨2, ![512, 256]⟩
abbrev S1024x256 : Shape := ⟨2, ![1024, 256]⟩
abbrev S512x1 : Shape := ⟨2, ![512, 1]⟩
abbrev S1x1024 : Shape := ⟨2, ![1, 1024]⟩
abbrev S256x1024 : Shape := ⟨2, ![256, 1024]⟩
abbrev S512x1024 : Shape := ⟨2, ![512, 1024]⟩
abbrev S512 : Shape := ⟨1, ![512]⟩
abbrev S1024 : Shape := ⟨1, ![1024]⟩
abbrev S1024x1 : Shape := ⟨2, ![1024, 1]⟩

abbrev nBuf : Space → Nat
  | .hbm => 48
  | .vmem => 30
  | .smem => 0
  | _ => 0

abbrev bufTy : (tb : Table) → Fin (tcTables nBuf tb) → BufTy
  | .hbm, ⟨0, _⟩ => ⟨S32768x256, .f32⟩
  | .hbm, ⟨1, _⟩ => ⟨S32768, .i32⟩
  | .hbm, ⟨2, _⟩ => ⟨S_, .f32⟩
  | .hbm, ⟨3, _⟩ => ⟨S32768, .f32⟩
  | .hbm, ⟨4, _⟩ => ⟨S_, .f32⟩
  | .hbm, ⟨5, _⟩ => ⟨S4096, .f32⟩
  | .hbm, ⟨6, _⟩ => ⟨S32768x1, .i32⟩
  | .hbm, ⟨7, _⟩ => ⟨S4096, .f32⟩
  | .hbm, ⟨8, _⟩ => ⟨S_, .f32⟩
  | .hbm, ⟨9, _⟩ => ⟨S4096x256, .f32⟩
  | .hbm, ⟨10, _⟩ => ⟨S32768x1, .i32⟩
  | .hbm, ⟨11, _⟩ => ⟨S4096x256, .f32⟩
  | .hbm, ⟨12, _⟩ => ⟨S4096x1, .f32⟩
  | .hbm, ⟨13, _⟩ => ⟨S4096x256, .f32⟩
  | .hbm, ⟨14, _⟩ => ⟨S4096x256, .f32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096, .i32⟩
  | .hbm, ⟨28, _⟩ => ⟨S4096x1, .i32⟩
  | .hbm, ⟨29, _⟩ => ⟨S1x32768, .i32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1024x256, .f32⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x256, .f32⟩
  | .local _ .vmem, ⟨17, _⟩ => ⟨S512x256, .f32⟩
  | .local _ .vmem, ⟨18, _⟩ => ⟨S1024x256, .f32⟩
  | .local _ .vmem, ⟨19, _⟩ => ⟨S1024x256, .f32⟩
  | .local _ .vmem, ⟨20, _⟩ => ⟨S512x1, .i32⟩
  | .local _ .vmem, ⟨21, _⟩ => ⟨S512x1, .i32⟩
  | .local _ .vmem, ⟨22, _⟩ => ⟨S1x1024, .i32⟩
  | .local _ .vmem, ⟨23, _⟩ => ⟨S1x1024, .i32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bcast_S_S32768 : S_.BroadcastsInDim S32768 (![] : Fin 0 → Fin S32768.rank)
  bcast_S_S4096 : S_.BroadcastsInDim S4096 (![] : Fin 0 → Fin S4096.rank)
  bcast_S32768_S32768x1_0 : S32768.BroadcastsInDim S32768x1 (![0] : Fin 1 → Fin S32768x1.rank)
  bcast_S_S4096x256 : S_.BroadcastsInDim S4096x256 (![] : Fin 0 → Fin S4096x256.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  shapeCasts_S4096_S4096x1 : S4096.ShapeCasts S4096x1
  shapeCasts_S32768_S1x32768 : S32768.ShapeCasts S1x32768
  inb_S512x1_S512x1_0_0 : ∀ a, (![0, 0] : Fin 2 → Nat) a + S512x1.size a ≤ S512x1.size a
  h_S512x1 : 0 < S512x1.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  transposes_S1024x256_p1_0_S256x1024 : S1024x256.Transposes [1, 0] S256x1024
  reduces_S512x256_S512 : S512x256.Reduces [1] S512
  shapeCasts_S512_S512x1 : S512.ShapeCasts S512x1
  reduces_S1024x256_S1024 : S1024x256.Reduces [1] S1024
  shapeCasts_S1024_S1024x1 : S1024.ShapeCasts S1024x1
  transposes_S1024x1_p1_0_S1x1024 : S1024x1.Transposes [1, 0] S1x1024
  broadcasts_S512x1_S512x1024 : S512x1.Broadcasts S512x1024
  broadcasts_S1x1024_S512x1024 : S1x1024.Broadcasts S512x1024
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S512x1024_S512 : S512x1024.Reduces [1] S512
  natLt_1_32 : 1 < 32
  reducesTo_S4096x1_S_d0_1 : S4096x1.ReducesTo [0, 1] S_
  h_S_ : 0 < S_.numel
  scatter_S4096_S32768x1_S32768_n_0_0_1_wf : ScatterDims.WF S4096 S32768x1 S32768 [] [0] [0] 1
  scatter_S4096x256_S32768x1_S32768x256_1_0_0_1_wf : ScatterDims.WF S4096x256 S32768x1 S32768x256 [1] [0] [0] 1
  gather_S32768_S4096x1_S4096_n_0_n_n_0_1_1_wf : GatherDims.WF S32768 S4096x1 S4096 [] [0] [] [0] [] 1 ![1]
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x32768.size a
  hwx0_3 : ∀ i : grid0.Coords, EltTy.bits .i32 = 32 ∨ (Rect.block (s := S1x32768) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .f32 = 32 ∨ (Rect.block (s := S4096x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S32768x256.size a
  hwx1_1 : ∀ i : grid1.Coords, EltTy.bits .f32 = 32 ∨ (Rect.block (s := S32768x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .i32 = 32 ∨ (Rect.block (s := S4096x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x32768.size a
  hwx1_3 : ∀ i : grid1.Coords, EltTy.bits .i32 = 32 ∨ (Rect.block (s := S1x32768) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S4096x1.size a
  hwx1_6 : ∀ i : grid1.Coords, EltTy.bits .f32 = 32 ∨ (Rect.block (s := S4096x1) S512x1.size (cc1_transform_6 i) (hinb1_6 i)).WholeWords (EltTy.packing .f32)

variable [Facts₀]

def scatter_S4096_S32768x1_S32768_n_0_0_1 : ScatterDims S4096 S32768x1 S32768 where
  updateWindowDims := []
  insertedWindowDims := [0]
  scatterDimsToOperandDims := [0]
  indexVectorDim := 1
  wf := scatter_S4096_S32768x1_S32768_n_0_0_1_wf
def scatter_S4096x256_S32768x1_S32768x256_1_0_0_1 : ScatterDims S4096x256 S32768x1 S32768x256 where
  updateWindowDims := [1]
  insertedWindowDims := [0]
  scatterDimsToOperandDims := [0]
  indexVectorDim := 1
  wf := scatter_S4096x256_S32768x1_S32768x256_1_0_0_1_wf
def gather_S32768_S4096x1_S4096_n_0_n_n_0_1_1 : GatherDims S32768 S4096x1 S4096 where
  offsetDims := []
  collapsedSliceDims := [0]
  operandBatchingDims := []
  startIndicesBatchingDims := []
  startIndexMap := [0]
  indexVectorDim := 1
  sliceSizes := ![1]
  wf := gather_S32768_S4096x1_S4096_n_0_n_n_0_1_1_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v9) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_2) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_3) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v9) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S512x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S512x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32768x256 : Shape := ⟨2, ![32768, 256]⟩
abbrev S32768 : Shape := ⟨1, ![32768]⟩
abbrev S_ : Shape := ⟨0, ![]⟩
abbrev S4096 : Shape := ⟨1, ![4096]⟩
abbrev S32768x1 : Shape := ⟨2, ![32768, 1]⟩
abbrev S4096x256 : Shape := ⟨2, ![4096, 256]⟩
abbrev S4096x1 : Shape := ⟨2, ![4096, 1]⟩
abbrev S1x32768 : Shape := ⟨2, ![1, 32768]⟩
abbrev S4096x32768 : Shape := ⟨2, ![4096, 32768]⟩
abbrev S256x32768 : Shape := ⟨2, ![256, 32768]⟩

abbrev nBuf : Space → Nat
  | .hbm => 111
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768, .i32⟩
  | .hbm, ⟨2, _⟩ => ⟨S_, .f32⟩
  | .hbm, ⟨3, _⟩ => ⟨S32768, .f32⟩
  | .hbm, ⟨4, _⟩ => ⟨S_, .f32⟩
  | .hbm, ⟨5, _⟩ => ⟨S4096, .f32⟩
  | .hbm, ⟨6, _⟩ => ⟨S32768x1, .i32⟩
  | .hbm, ⟨7, _⟩ => ⟨S4096, .f32⟩
  | .hbm, ⟨8, _⟩ => ⟨S_, .f32⟩
  | .hbm, ⟨9, _⟩ => ⟨S4096x256, .f32⟩
  | .hbm, ⟨10, _⟩ => ⟨S32768x1, .i32⟩
  | .hbm, ⟨11, _⟩ => ⟨S4096x256, .f32⟩
  | .hbm, ⟨12, _⟩ => ⟨S4096x1, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S32768x256, .f32⟩
  | .hbm, ⟨20, _⟩ => ⟨S_, .f32⟩
  | .hbm, ⟨21, _⟩ => ⟨S32768, .f32⟩
  | .hbm, ⟨22, _⟩ => ⟨S1x32768, .f32⟩
  | .hbm, ⟨23, _⟩ => ⟨S4096x32768, .f32⟩
  | .hbm, ⟨24, _⟩ => ⟨S4096x32768, .f32⟩
  | .hbm, ⟨25, _⟩ => ⟨S4096x32768, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S256x32768, .f32⟩
  | .hbm, ⟨30, _⟩ => ⟨S4096x32768, .f32⟩
  | .hbm, ⟨31, _⟩ => ⟨S4096x32768, .f32⟩
  | .hbm, ⟨32, _⟩ => ⟨S_, .f32⟩
  | .hbm, ⟨33, _⟩ => ⟨S_, .f32⟩
  | .hbm, ⟨34, _⟩ => ⟨S4096x32768, .f32⟩
  | .hbm, ⟨35, _⟩ => ⟨S4096x32768, .f32⟩
  | .hbm, ⟨36, _⟩ => ⟨S4096x32768, .f32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096, .i32⟩
  | .hbm, ⟨50, _⟩ => ⟨S4096x1, .i32⟩
  | .hbm, ⟨51, _⟩ => ⟨S1x32768, .i32⟩
  | .hbm, ⟨52, _⟩ => ⟨S4096x32768, .i32⟩
  | .hbm, ⟨53, _⟩ => ⟨S4096x32768, .i32⟩
  | .hbm, ⟨54, _⟩ => ⟨S4096x32768, .i1⟩
  | .hbm, ⟨55, _⟩ => ⟨S_, .f32⟩
  | .hbm, ⟨56, _⟩ => ⟨S_, .f32⟩
  | .hbm, ⟨57, _⟩ => ⟨S4096x32768, .f32⟩
  | .hbm, ⟨58, _⟩ => ⟨S4096x32768, .f32⟩
  | .hbm, ⟨59, _⟩ => ⟨S_, .f32⟩
  | .hbm, ⟨60, _⟩ => ⟨S4096x32768, .f32⟩
  | .hbm, ⟨61, _⟩ => ⟨S4096x32768, .i1⟩
  | .hbm, ⟨62, _⟩ => ⟨S4096x32768, .i32⟩
  | .hbm, ⟨63, _⟩ => ⟨S_, .i32⟩
  | .hbm, ⟨64, _⟩ => ⟨S4096, .i32⟩
  | .hbm, ⟨65, _⟩ => ⟨S4096, .f32⟩
  | .hbm, ⟨66, _⟩ => ⟨S_, .f32⟩
  | .hbm, ⟨67, _⟩ => ⟨S_, .f32⟩
  | .hbm, ⟨68, _⟩ => ⟨S4096x32768, .f32⟩
  | .hbm, ⟨69, _⟩ => ⟨S4096x32768, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096x1, .f32⟩
  | .hbm, ⟨74, _⟩ => ⟨S4096x32768, .f32⟩
  | .hbm, ⟨75, _⟩ => ⟨S4096x32768, .i1⟩
  | .hbm, ⟨76, _⟩ => ⟨S4096x32768, .i1⟩
  | .hbm, ⟨77, _⟩ => ⟨S4096x32768, .i32⟩
  | .hbm, ⟨78, _⟩ => ⟨S_, .i32⟩
  | .hbm, ⟨79, _⟩ => ⟨S4096, .i32⟩
  | .hbm, ⟨80, _⟩ => ⟨S4096, .f32⟩
  | .hbm, ⟨81, _⟩ => ⟨S_, .f32⟩
  | .hbm, ⟨82, _⟩ => ⟨S_, .f32⟩
  | .hbm, ⟨83, _⟩ => ⟨S4096x32768, .f32⟩
  | .hbm, ⟨84, _⟩ => ⟨S4096x32768, .f32⟩
  | .hbm, ⟨85, _⟩ => ⟨S_, .f32⟩
  | .hbm, ⟨86, _⟩ => ⟨S4096, .f32⟩
  | .hbm, ⟨87, _⟩ => ⟨S4096, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S4096x32768, .f32⟩
  | .hbm, ⟨95, _⟩ => ⟨S4096x32768, .f32⟩
  | .hbm, ⟨96, _⟩ => ⟨S_, .f32⟩
  | .hbm, ⟨97, _⟩ => ⟨S4096x32768, .f32⟩
  | .hbm, ⟨98, _⟩ => ⟨S4096x32768, .i1⟩
  | .hbm, ⟨99, _⟩ => ⟨S_, .f32⟩
  | .hbm, ⟨100, _⟩ => ⟨S_, .f32⟩
  | .hbm, ⟨101, _⟩ => ⟨S4096x32768, .f32⟩
  | .hbm, ⟨102, _⟩ => ⟨S4096x32768, .f32⟩
  | .hbm, ⟨103, _⟩ => ⟨S_, .f32⟩
  | .hbm, ⟨104, _⟩ => ⟨S_, .f32⟩
  | .hbm, ⟨105, _⟩ => ⟨S4096x32768, .i32⟩
  | .hbm, ⟨106, _⟩ => ⟨S_, .i32⟩
  | .hbm, ⟨107, _⟩ => ⟨S_, .i32⟩
  | .hbm, ⟨108, _⟩ => ⟨S_, .f32⟩
  | .hbm, ⟨109, _⟩ => ⟨S_, .f32⟩
  | .hbm, ⟨110, _⟩ => ⟨S_, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_call2_v0 : Ref sig .tc := ⟨.hbm, 67, rfl⟩
abbrev main_call2_v1 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_13 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_call3_v0 : Ref sig .tc := ⟨.hbm, 82, rfl⟩
abbrev main_call3_v1 : Ref sig .tc := ⟨.hbm, 83, rfl⟩
abbrev main_v57 : Ref sig .tc := ⟨.hbm, 84, rfl⟩
abbrev main_cst_15 : Ref sig .tc := ⟨.hbm, 85, rfl⟩
abbrev main_v58 : Ref sig .tc := ⟨.hbm, 86, rfl⟩
abbrev main_v59 : Ref sig .tc := ⟨.hbm, 87, rfl⟩
abbrev main_cst_16 : Ref sig .tc := ⟨.hbm, 88, rfl⟩
abbrev main_v60 : Ref sig .tc := ⟨.hbm, 89, rfl⟩
abbrev main_cst_17 : Ref sig .tc := ⟨.hbm, 90, rfl⟩
abbrev main_v61 : Ref sig .tc := ⟨.hbm, 91, rfl⟩
abbrev main_cst_18 : Ref sig .tc := ⟨.hbm, 92, rfl⟩
abbrev main_call4_v0 : Ref sig .tc := ⟨.hbm, 93, rfl⟩
abbrev main_call4_v1 : Ref sig .tc := ⟨.hbm, 94, rfl⟩
abbrev main_v62 : Ref sig .tc := ⟨.hbm, 95, rfl⟩
abbrev main_cst_19 : Ref sig .tc := ⟨.hbm, 96, rfl⟩
abbrev main_v63 : Ref sig .tc := ⟨.hbm, 97, rfl⟩
abbrev main_v64 : Ref sig .tc := ⟨.hbm, 98, rfl⟩
abbrev main_cst_20 : Ref sig .tc := ⟨.hbm, 99, rfl⟩
abbrev main_call5_v0 : Ref sig .tc := ⟨.hbm, 100, rfl⟩
abbrev main_call5_v1 : Ref sig .tc := ⟨.hbm, 101, rfl⟩
abbrev main_v65 : Ref sig .tc := ⟨.hbm, 102, rfl⟩
abbrev main_cst_21 : Ref sig .tc := ⟨.hbm, 103, rfl⟩
abbrev main_v66 : Ref sig .tc := ⟨.hbm, 104, rfl⟩
abbrev main_v67 : Ref sig .tc := ⟨.hbm, 105, rfl⟩
abbrev main_c_22 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S_S4096 : S_.BroadcastsInDim S4096 (![] : Fin 0 → Fin S4096.rank)
  bcast_S32768_S32768x1_0 : S32768.BroadcastsInDim S32768x1 (![0] : Fin 1 → Fin S32768x1.rank)
  bcast_S_S4096x256 : S_.BroadcastsInDim S4096x256 (![] : Fin 0 → Fin S4096x256.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  reducesTo_S4096x256_S4096_d1 : S4096x256.ReducesTo [1] S4096
  h_S_ : 0 < S_.numel
  reducesTo_S32768x256_S32768_d1 : S32768x256.ReducesTo [1] S32768
  bcast_S32768_S1x32768_1 : S32768.BroadcastsInDim S1x32768 (![1] : Fin 1 → Fin S1x32768.rank)
  bcast_S4096x1_S4096x32768_0_1 : S4096x1.BroadcastsInDim S4096x32768 (![0, 1] : Fin 2 → Fin S4096x32768.rank)
  bcast_S1x32768_S4096x32768_0_1 : S1x32768.BroadcastsInDim S4096x32768 (![0, 1] : Fin 2 → Fin S4096x32768.rank)
  transposes_S32768x256_S256x32768_1_0 : S32768x256.Transposes [1, 0] S256x32768
  bcast_S_S4096x32768 : S_.BroadcastsInDim S4096x32768 (![] : Fin 0 → Fin S4096x32768.rank)
  natLt_1_32 : 1 < 32
  reducesTo_S4096x32768_S4096_d1 : S4096x32768.ReducesTo [1] S4096
  reducesTo_S4096_S_d0 : S4096.ReducesTo [0] S_
  reducesTo_S4096x32768_S_d0_1 : S4096x32768.ReducesTo [0, 1] S_
  scatter_S4096_S32768x1_S32768_n_0_0_1_wf : ScatterDims.WF S4096 S32768x1 S32768 [] [0] [0] 1
  scatter_S4096x256_S32768x1_S32768x256_1_0_0_1_wf : ScatterDims.WF S4096x256 S32768x1 S32768x256 [1] [0] [0] 1
  dot_S4096x256_S256x32768_S4096x32768_1_0_0_1_n_n_wf : DotDims.WF S4096x256 S256x32768 S4096x32768 [1] [0] [0] [1] [] []
  gather_S32768_S4096x1_S4096_n_0_n_n_0_1_1_wf : GatherDims.WF S32768 S4096x1 S4096 [] [0] [] [0] [] 1 ![1]

variable [Facts₀]

def scatter_S4096_S32768x1_S32768_n_0_0_1 : ScatterDims S4096 S32768x1 S32768 where
  updateWindowDims := []
  insertedWindowDims := [0]
  scatterDimsToOperandDims := [0]
  indexVectorDim := 1
  wf := scatter_S4096_S32768x1_S32768_n_0_0_1_wf
def scatter_S4096x256_S32768x1_S32768x256_1_0_0_1 : ScatterDims S4096x256 S32768x1 S32768x256 where
  updateWindowDims := [1]
  insertedWindowDims := [0]
  scatterDimsToOperandDims := [0]
  indexVectorDim := 1
  wf := scatter_S4096x256_S32768x1_S32768x256_1_0_0_1_wf
def dot_S4096x256_S256x32768_S4096x32768_1_0_0_1_n_n : DotDims S4096x256 S256x32768 S4096x32768 where
  lhsContracting := [1]
  rhsContracting := [0]
  lhsNonContracting := [0]
  rhsNonContracting := [1]
  lhsBatch := []
  rhsBatch := []
  wf := dot_S4096x256_S256x32768_S4096x32768_1_0_0_1_n_n_wf
def gather_S32768_S4096x1_S4096_n_0_n_n_0_1_1 : GatherDims S32768 S4096x1 S4096 where
  offsetDims := []
  collapsedSliceDims := [0]
  operandBatchingDims := []
  startIndicesBatchingDims := []
  startIndexMap := [0]
  indexVectorDim := 1
  sliceSizes := ![1]
  wf := gather_S32768_S4096x1_S4096_n_0_n_n_0_1_1_wf

class Facts : Prop extends Facts₀ where

variable [Facts]
-- ==== Proof.CenterMining.lean ====
/-
  The mathematics both programs compute, on the extended reals, as functions of four arrays: the class centers
  `cen` (4096 rows of 256), the samples `inp` (32768 rows of 256), the centers' class labels `cid` and the samples'
  labels `tgt`.

  For a center `r` and a sample `c` the distance is `dist r c = sqrt (max 1e-12 (|cen r|² + |inp c|² - 2 · ⟨cen r, inp c⟩))`.
  A pair is NEGATIVE when the labels differ. `an` is the distance on the negative pairs and zero elsewhere, `ap` the
  distance on the positive pairs and zero elsewhere; an entry COUNTS when it exceeds 1e-6. Per center: the sum and the
  number of counted negatives (`sumAn`, `cntNeg`), their quotient `dNeg` (the mean negative distance), the HARD
  negatives (counted, and closer than `dNeg`) with their sum and number; over all pairs: the sum and the number of the
  counted positives. The result is (mean counted positive distance) / (mean over the centers of the mean hard-negative
  distance).

  Two laws of the extended reals are proved here, for the two places where the programs group their arithmetic
  differently: a finite non-negative real factor moves inside a sum of products (multiplication by such a factor is
  additive on the whole of [-∞, +∞], and multiplication is associative), and a sum over 32768 columns accumulated tile by
  tile, 32 tiles of 1024 columns from a zero, is the flat sum (addition is commutative and associative with neutral 0).
-/
import Idealize.ShloMosaic.PureOps.Ideal
import Idealize.ShloMosaic.PureOps.Ideal.Laws
import Idealize.ShloMosaic.Lib.ValueIdx

noncomputable section

namespace CenterMining

open Idealize.ShloMosaic

/-- A float literal as the extended real its pattern denotes. -/
abbrev lit (b : BitVec 32) : EReal := Ideal.ofBits .f32 b

/-! ## The literals -/

theorem lit_zero : lit 0x00000000#32 = 0 := Ideal.ofBits_zero_f32

theorem lit_two : lit 0x40000000#32 = ((2 : ℝ) : EReal) := by
  simp [Ideal.ofBits, Ideal.ieee, -EReal.coe_mul]; norm_num

/-! ## Pointwise: distances and masks -/

section
variable (cen : Fin 4096 → Fin 256 → EReal) (inp : Fin 32768 → Fin 256 → EReal)
  (cid : Fin 4096 → BitVec 32) (tgt : Fin 32768 → BitVec 32)

/-- The squared norm of a row. -/
def sqn (x : Fin 256 → EReal) : EReal := ∑ k, x k * x k

/-- The inner product of a center and a sample. -/
def dot (r : Fin 4096) (c : Fin 32768) : EReal := ∑ k, cen r k * inp c k

/-- The distance from center `r` to sample `c`, clipped below at 1e-12 under the root. -/
def dist (r : Fin 4096) (c : Fin 32768) : EReal :=
  Ideal.sqrt (max (lit 0x2B8CBCCC#32) (sqn (cen r) + sqn (inp c) - lit 0x40000000#32 * dot cen inp r c))

/-- The pair is negative: the labels differ. -/
def isNeg (r : Fin 4096) (c : Fin 32768) : BitVec 1 := IntOp.cmpi .ne (cid r) (tgt c)

/-- The distance on the negative pairs, zero on the positive ones. -/
def an (r : Fin 4096) (c : Fin 32768) : EReal := Scalar.select (isNeg cid tgt r c) (dist cen inp r c) (lit 0x00000000#32)

/-- The distance on the positive pairs, zero on the negative ones. -/
def ap (r : Fin 4096) (c : Fin 32768) : EReal := Scalar.select (isNeg cid tgt r c) (lit 0x00000000#32) (dist cen inp r c)

/-- An entry counts when it exceeds 1e-6. -/
def counts (x : EReal) : BitVec 1 := Ideal.cmp .ogt x (lit 0x358637BD#32)

/-- A mask bit as the number 0 or 1. -/
def bit01 (b : BitVec 1) : EReal := (((b.setWidth 32).toInt : ℝ) : EReal)

/-- An entry kept where the mask holds, zero elsewhere. -/
def kept (b : BitVec 1) (x : EReal) : EReal := Scalar.select b x (lit 0x00000000#32)

/-! ## Per center, and over all pairs -/

/-- The sum of the counted negative distances of center `r`. -/
def sumAn (r : Fin 4096) : EReal := ∑ c, kept (counts (an cen inp cid tgt r c)) (an cen inp cid tgt r c)
/-- The number of counted negatives of center `r`. -/
def cntNeg (r : Fin 4096) : EReal := ∑ c, bit01 (counts (an cen inp cid tgt r c))
/-- The sum of the counted positive distances of center `r`. -/
def sumAp (r : Fin 4096) : EReal := ∑ c, kept (counts (ap cen inp cid tgt r c)) (ap cen inp cid tgt r c)
/-- The number of counted positives of center `r`. -/
def cntAp (r : Fin 4096) : EReal := ∑ c, bit01 (counts (ap cen inp cid tgt r c))

/-- The mean counted negative distance of center `r`. -/
def dNeg (r : Fin 4096) : EReal := Ideal.div (sumAn cen inp cid tgt r) (cntNeg cen inp cid tgt r)

/-- The pair is a hard negative against a per-center threshold `d`: counted, and closer than `d r`. -/
def hardAt (d : Fin 4096 → EReal) (r : Fin 4096) (c : Fin 32768) : BitVec 1 :=
  IntOp.andi (counts (an cen inp cid tgt r c)) (Ideal.cmp .olt (an cen inp cid tgt r c) (d r))

/-- The sum of the hard negative distances of center `r` against the threshold `d`. -/
def hardSumAt (d : Fin 4096 → EReal) (r : Fin 4096) : EReal :=
  ∑ c, kept (hardAt cen inp cid tgt d r c) (an cen inp cid tgt r c)
/-- The number of hard negatives of center `r` against the threshold `d`. -/
def hardCntAt (d : Fin 4096 → EReal) (r : Fin 4096) : EReal := ∑ c, bit01 (hardAt cen inp cid tgt d r c)

/-- The sum of the hard negative distances of center `r`: the threshold is its mean negative distance. -/
def hardSum (r : Fin 4096) : EReal := hardSumAt cen inp cid tgt (dNeg cen inp cid tgt) r
/-- The number of hard negatives of center `r`. -/
def hardCnt (r : Fin 4096) : EReal := hardCntAt cen inp cid tgt (dNeg cen inp cid tgt) r

/-- The result: the mean counted positive distance over the mean, over the centers, of the mean hard-negative distance. -/
def result : EReal :=
  Ideal.div
    (Ideal.div (∑ r, sumAp cen inp cid tgt r) (∑ r, cntAp cen inp cid tgt r))
    (Ideal.div (∑ r, Ideal.div (hardSum cen inp cid tgt r) (hardCnt cen inp cid tgt r)) (lit 0x45800000#32))

end

/-! ## A finite non-negative factor moves inside a sum of products -/

/-- Multiplication by a finite non-negative real is additive on all of [-∞, +∞], so it passes through a finite sum. -/
theorem coe_mul_sum {ι : Type*} (s : Finset ι) (a : ℝ) (ha : 0 ≤ a) (f : ι → EReal) :
    (a : EReal) * ∑ k ∈ s, f k = ∑ k ∈ s, (a : EReal) * f k := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- Twice an inner product is the inner product with the first factor doubled, whatever the entries. -/
theorem two_mul_dot {n : Nat} (x y : Fin n → EReal) :
    lit 0x40000000#32 * ∑ k, x k * y k = ∑ k, (lit 0x40000000#32 * x k) * y k := by
  rw [lit_two, coe_mul_sum _ 2 (by norm_num)]
  exact Finset.sum_congr rfl fun k _ => (mul_assoc _ _ _).symm

/-! ## A sum accumulated tile by tile is the flat sum -/

/-- Column `q` of tile `j`: column `1024 j + q` of the array. -/
def col (j : Fin 32) (q : Fin 1024) : Fin 32768 := ⟨1024 * j.val + q.val, by have := j.isLt; have := q.isLt; omega⟩

/-- The running value after tiles `0 … n`: the zero the first tile resets to, plus each tile's 1024 terms in turn. -/
def tileAcc (g : Fin 32768 → EReal) : (n : ℕ) → n < 32 → EReal
  | 0, h => lit 0x00000000#32 + ∑ q, g (col ⟨0, h⟩ q)
  | n + 1, h => tileAcc g n (Nat.lt_of_succ_lt h) + ∑ q, g (col ⟨n + 1, h⟩ q)

theorem tileAcc_eq_range (g : Fin 32768 → EReal) : ∀ (n : ℕ) (h : n < 32),
    tileAcc g n h = ∑ j : Fin 32, if j.val ≤ n then ∑ q, g (col j q) else 0
  | 0, h => by
    rw [tileAcc, lit_zero, zero_add]
    rw [Finset.sum_eq_single (⟨0, h⟩ : Fin 32)]
    · simp
    · intro b _ hb
      have : ¬ b.val ≤ 0 := fun hle => hb (Fin.ext (Nat.le_zero.mp hle))
      simp [this]
    · intro hne; exact absurd (Finset.mem_univ _) hne
  | n + 1, h => by
    rw [tileAcc, tileAcc_eq_range g n (Nat.lt_of_succ_lt h)]
    have hsplit : ∀ j : Fin 32, (if j.val ≤ n + 1 then ∑ q, g (col j q) else 0)
        = (if j.val ≤ n then ∑ q, g (col j q) else 0) + (if j = ⟨n + 1, h⟩ then ∑ q, g (col j q) else 0) := by
      intro j
      by_cases h1 : j.val ≤ n
      · have h2 : j.val ≤ n + 1 := Nat.le_succ_of_le h1
        have h3 : j ≠ ⟨n + 1, h⟩ := fun e => by have := congrArg Fin.val e; simp at this; omega
        simp [h1, h2, h3]
      · by_cases h4 : j = ⟨n + 1, h⟩
        · subst h4; simp
        · have h5 : ¬ j.val ≤ n + 1 := fun hle => h4 (Fin.ext (by simp; omega))
          simp [h1, h4, h5]
    rw [Finset.sum_congr rfl fun j _ => hsplit j, Finset.sum_add_distrib]
    congr 1
    rw [Finset.sum_ite_eq' Finset.univ (⟨n + 1, h⟩ : Fin 32)]
    simp

/-- Every column is column `q` of exactly one tile `j`. -/
def colEquiv : Fin 32 × Fin 1024 ≃ Fin 32768 where
  toFun p := col p.1 p.2
  invFun c := (⟨c.val / 1024, by have := c.isLt; omega⟩, ⟨c.val % 1024, Nat.mod_lt _ (by norm_num)⟩)
  left_inv p := by
    obtain ⟨j, q⟩ := p
    have := j.isLt; have := q.isLt
    apply Prod.ext <;> apply Fin.ext <;> simp [col] <;> omega
  right_inv c := by
    apply Fin.ext; simp [col]; omega

/-- After the last tile the running value is the sum over all 32768 columns. -/
theorem tileAcc_last (g : Fin 32768 → EReal) : tileAcc g 31 (by norm_num) = ∑ c, g c := by
  rw [tileAcc_eq_range]
  have : ∀ j : Fin 32, (if j.val ≤ 31 then ∑ q, g (col j q) else 0) = ∑ q, g (col j q) := fun j => by
    have := j.isLt; rw [if_pos (by omega)]
  rw [Finset.sum_congr rfl fun j _ => this j, ← Finset.sum_product', ← Equiv.sum_comp colEquiv g]
  rfl

end CenterMining

end
-- ==== Proof.Arrays.lean ====
/-
  The four arrays the two passes read, and pass 2's threshold, as curried functions of literal coordinates: row `r` and
  lane `k` of the centers and of the samples, the label of center `r` (a column [4096, 1]) and of sample `s` (a row
  [1, 32768]), the threshold of center `r` (a column [4096, 1]) — each read off the buffer contents `V` a region is
  entered with.
-/
import proofs.«106767_j16449724745480_1_alg».proof.KernelIdeal
import Idealize.ShloMosaic.PureOps.Ideal
import Idealize.ShloMosaic.Lib.ValueIdx

noncomputable section

namespace Cert.KernelIdeal.Arrays

open Cert.KernelIdeal Idealize.ShloMosaic Idealize.ShloMosaic.TcCoe Idealize.ShloMosaic.ValueIdx

variable (V : (c : Dev nD) → (b : Ref sig .tc) → Buf (Elt Ideal) ((c : Thread nD τ).loc b)) (c : Dev nD)

/-- The centers: entry (r, k) of the [4096, 256] array. -/
abbrev cenOf : Fin 4096 → Fin 256 → EReal := fun r k => V c main_v9 (ix2 r k)
/-- The samples: entry (s, k) of the [32768, 256] array. -/
abbrev inpOf : Fin 32768 → Fin 256 → EReal := fun s k => V c main_arg0 (ix2 s k)
/-- The centers' labels: entry (r, 0) of the [4096, 1] column. -/
abbrev cidOf : Fin 4096 → BitVec 32 := fun r => V c main_v20 (ix2 r 0)
/-- The samples' labels: entry (0, s) of the [1, 32768] row. -/
abbrev tgtOf : Fin 32768 → BitVec 32 := fun s => V c main_v21 (ix2 0 s)
/-- Pass 2's threshold: entry (r, 0) of the [4096, 1] column. -/
abbrev thrOf : Fin 4096 → EReal := fun r => V c main_v23 (ix2 r 0)

end Cert.KernelIdeal.Arrays

end
-- ==== Proof.KernelRun.lean ====
/-
  The idealized kernel's run, with its result: from any memory with zero counters every weakly fair execution of @main
  terminates, nothing faulting, and the final state holds, in the result buffer, what the last host stretch leaves
  there — the fold of the host stretches and the two regions' write-backs through @main, from the launch memory —
  and the argument arrays as launched.

  @main is five segments: the host operations that form the centers and the labels' two layouts, pass 1, the host
  operations between the passes (the mean negative distance per center, the mean counted positive distance), pass 2,
  and the host tail (the mean over the centers of the mean hard-negative distance, and the final quotient). The run of
  such a chain leaves, in every unscoped buffer, the contents the fold's last valuation gives it; the frame reads the two arguments out of it, and here the result is read out of it as well.
-/
import proofs.«106767_j16449724745480_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last valuation of the fold through @main, the arguments as launched. -/
theorem run : θ_run defs (onTc (τ := τ) (main (F := F))) ⟨m, fun _ => 0, ρ⟩ (fun r => ∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v31 (by decide)),
       (h c _ (mem_uc main_arg0 (by decide))).trans (W5_main_arg0 m ρ c),
       (h c _ (mem_uc main_arg1 (by decide))).trans (W5_main_arg1 m ρ c)⟩)

end Cert.KernelIdeal.Result

end
-- ==== Proof.KernelFold.lean ====
/-
  The idealized kernel's result, read back through @main: the fold of the three host stretches and the two passes'
  write-backs, at the result buffer, is `CenterMining.result` of the centers, the samples and the labels as pass 1
  finds them — GIVEN what each pass leaves in its output arrays (the six facts taken as hypotheses here: per center,
  pass 1's four sums, pass 2's two sums against the threshold array it is handed).

  Reading backwards. The tail divides the mean counted positive distance (formed between the passes from pass 1's
  third and fourth arrays, each summed over the centers) by the mean over the centers of pass 2's quotients
  `hardSum / hardCnt`. Pass 2 is entered with the centers, the samples and the labels exactly as pass 1 was — no host
  operation between the passes writes them, and a pass leaves its input arrays as it found them — and with, as its
  threshold, the quotient of pass 1's first two arrays: the mean negative distance `dNeg`. A sum over a [4096, 1] column is
  the sum over its 4096 rows, and the host's sums start from a literal zero.
-/
import proofs.«106767_j16449724745480_1_alg».proof.Proof.Gen.KernelIdeal.Frame
import proofs.«106767_j16449724745480_1_alg».proof.Proof.CenterMining
import proofs.«106767_j16449724745480_1_alg».proof.Proof.Arrays
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Result

open Cert.KernelIdeal Cert.KernelIdeal.Gen Cert.KernelIdeal.Arrays
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg) (c : Dev nD)

/-! ## Pass 2 is entered with pass 1's inputs, and with pass 1's quotient as its threshold -/

/-- The centers when pass 2 is entered are the centers when pass 1 was. -/
theorem enter2_cen : V3 m ρ c main_v9 = V1 m ρ c main_v9 := by
  have e : StableHlo.after hostOps1 (W2 m ρ c) (Proc.devRef .tc main_v9) = W2 m ρ c (Proc.devRef .tc main_v9) := by
    dsimp only [hostOps1]; after_results
  exact e.trans ((W2_arr m ρ c 0).trans (((dat0 (V1 m ρ) c).arrAt_in 0 rfl _).trans (A_eq0 (V1 m ρ) c 0)))

/-- The samples when pass 2 is entered are the samples when pass 1 was. -/
theorem enter2_inp : V3 m ρ c main_arg0 = V1 m ρ c main_arg0 := by
  have e : StableHlo.after hostOps1 (W2 m ρ c) (Proc.devRef .tc main_arg0) = W2 m ρ c (Proc.devRef .tc main_arg0) := by
    dsimp only [hostOps1]; after_results
  exact e.trans ((W2_arr m ρ c 1).trans (((dat0 (V1 m ρ) c).arrAt_in 1 rfl _).trans (A_eq0 (V1 m ρ) c 1)))

/-- The centers' labels when pass 2 is entered are those pass 1 read. -/
theorem enter2_cid : V3 m ρ c main_v20 = V1 m ρ c main_v20 := by
  have e : StableHlo.after hostOps1 (W2 m ρ c) (Proc.devRef .tc main_v20) = W2 m ρ c (Proc.devRef .tc main_v20) := by
    dsimp only [hostOps1]; after_results
  exact e.trans ((W2_arr m ρ c 2).trans (((dat0 (V1 m ρ) c).arrAt_in 2 rfl _).trans (A_eq0 (V1 m ρ) c 2)))

/-- The samples' labels when pass 2 is entered are those pass 1 read. -/
theorem enter2_tgt : V3 m ρ c main_v21 = V1 m ρ c main_v21 := by
  have e : StableHlo.after hostOps1 (W2 m ρ c) (Proc.devRef .tc main_v21) = W2 m ρ c (Proc.devRef .tc main_v21) := by
    dsimp only [hostOps1]; after_results
  exact e.trans ((W2_arr m ρ c 3).trans (((dat0 (V1 m ρ) c).arrAt_in 3 rfl _).trans (A_eq0 (V1 m ρ) c 3)))

/-- Pass 2's threshold is the quotient, entry by entry, of pass 1's first two output arrays. -/
theorem enter2_thr : V3 m ρ c main_v23
    = Host.divf (F := Ideal) (s := S4096x1) (φ := .f32) ((dat0 (V1 m ρ) c).arrAt 4 cfg0.N) ((dat0 (V1 m ρ) c).arrAt 5 cfg0.N) := by
  have e : StableHlo.after hostOps1 (W2 m ρ c) (Proc.devRef .tc main_v23)
      = Host.divf (F := Ideal) (s := S4096x1) (φ := .f32) (W2 m ρ c (Proc.devRef .tc main_v22_0)) (W2 m ρ c (Proc.devRef .tc main_v22_1)) := by
    dsimp only [hostOps1]; after_results
  refine e.trans ?_
  rw [show W2 m ρ c (Proc.devRef .tc main_v22_0) = (dat0 (V1 m ρ) c).arrAt 4 cfg0.N from W2_arr m ρ c 4,
    show W2 m ρ c (Proc.devRef .tc main_v22_1) = (dat0 (V1 m ρ) c).arrAt 5 cfg0.N from W2_arr m ρ c 5]

/-- The mean counted positive distance, as formed between the passes from pass 1's last two output arrays. -/
theorem between_apMean : W3 m ρ c (Proc.devRef .tc main_v26)
    = Host.divf
        (Host.reduceAdd ((dat0 (V1 m ρ) c).arrAt 6 cfg0.N) (constant (F := Ideal) S_ .f32 0x00000000#32) reducesTo_S4096x1_S_d0_1 h_S_)
        (Host.reduceAdd ((dat0 (V1 m ρ) c).arrAt 7 cfg0.N) (constant (F := Ideal) S_ .f32 0x00000000#32) reducesTo_S4096x1_S_d0_1 h_S_) := by
  have e : StableHlo.after hostOps1 (W2 m ρ c) (Proc.devRef .tc main_v26)
      = Host.divf
          (Host.reduceAdd (W2 m ρ c (Proc.devRef .tc main_v22_2)) (constant (F := Ideal) S_ .f32 0x00000000#32) reducesTo_S4096x1_S_d0_1 h_S_)
          (Host.reduceAdd (W2 m ρ c (Proc.devRef .tc main_v22_3)) (constant (F := Ideal) S_ .f32 0x00000000#32) reducesTo_S4096x1_S_d0_1 h_S_) := by
    dsimp only [hostOps1]; after_results
  refine e.trans ?_
  rw [show W2 m ρ c (Proc.devRef .tc main_v22_2) = (dat0 (V1 m ρ) c).arrAt 6 cfg0.N from W2_arr m ρ c 6,
    show W2 m ρ c (Proc.devRef .tc main_v22_3) = (dat0 (V1 m ρ) c).arrAt 7 cfg0.N from W2_arr m ρ c 7]

/-- The result, as the tail forms it from the mean counted positive distance and pass 2's two output arrays. -/
theorem tail_result : W5 m ρ c (Proc.devRef .tc main_v31)
    = Host.divf (W3 m ρ c (Proc.devRef .tc main_v26))
        (Host.divf
          (Host.reduceAdd (Host.divf ((dat1 (V3 m ρ) c).arrAt 5 cfg1.N) ((dat1 (V3 m ρ) c).arrAt 6 cfg1.N))
            (constant (F := Ideal) S_ .f32 0x00000000#32) reducesTo_S4096x1_S_d0_1 h_S_)
          (constant (F := Ideal) S_ .f32 0x45800000#32)) := by
  have e : StableHlo.after hostOps2 (W4 m ρ c) (Proc.devRef .tc main_v31)
      = Host.divf (W4 m ρ c (Proc.devRef .tc main_v26))
          (Host.divf
            (Host.reduceAdd (Host.divf (W4 m ρ c (Proc.devRef .tc main_v27_0)) (W4 m ρ c (Proc.devRef .tc main_v27_1)))
              (constant (F := Ideal) S_ .f32 0x00000000#32) reducesTo_S4096x1_S_d0_1 h_S_)
            (constant (F := Ideal) S_ .f32 0x45800000#32)) := by
    dsimp only [hostOps2]; after_results
  refine e.trans ?_
  rw [show W4 m ρ c (Proc.devRef .tc main_v27_0) = (dat1 (V3 m ρ) c).arrAt 5 cfg1.N from W4_arr m ρ c 5,
    show W4 m ρ c (Proc.devRef .tc main_v27_1) = (dat1 (V3 m ρ) c).arrAt 6 cfg1.N from W4_arr m ρ c 6,
    W4_of_ne m ρ c main_v26 (by decide)]

/-! ## Sums over a column, quotients entry by entry -/

/-- The host's quotient of two arrays, at an entry, is the quotient of the entries. -/
theorem quotient_at {s : Shape} {φ : FTy} (a b : FVec Ideal s φ) (i : s.Idx) :
    Host.divf a b i = Ideal.div (a i) (b i) := rfl

/-- The host's sum of a [4096, 1] column into a scalar is the literal zero it starts from plus the sum over the rows. -/
theorem columnTotal (x : S4096x1.Idx → EReal) (i : S_.Idx) :
    Host.reduceAdd (F := Ideal) (φ := .f32) x (constant (F := Ideal) S_ .f32 0x00000000#32) reducesTo_S4096x1_S_d0_1 h_S_ i
      = ∑ r : Fin 4096, x (ix2 r 0) := by
  show Ideal.hostReduceAdd reducesTo_S4096x1_S_d0_1 x (Ideal.ofBits .f32 0x00000000#32) i = _
  rw [Ideal.hostReduceAdd_total reducesTo_S4096x1_S_d0_1 (fun b => b.elim0), Ideal.ofBits_zero_f32, zero_add,
    sum_idx2]
  exact Finset.sum_congr rfl fun r _ => Fin.sum_univ_one _

/-! ## The result -/

section
variable
  (hSumAn : ∀ (V : (c : Dev nD) → (b : Ref sig .tc) → Buf (Elt Ideal) ((c : Thread nD τ).loc b)) (c : Dev nD) (R : Fin 4096),
    (dat0 (F := Ideal) V c).arrAt 4 cfg0.N (ix2 R 0) = CenterMining.sumAn (cenOf V c) (inpOf V c) (cidOf V c) (tgtOf V c) R)
  (hCntNeg : ∀ (V : (c : Dev nD) → (b : Ref sig .tc) → Buf (Elt Ideal) ((c : Thread nD τ).loc b)) (c : Dev nD) (R : Fin 4096),
    (dat0 (F := Ideal) V c).arrAt 5 cfg0.N (ix2 R 0) = CenterMining.cntNeg (cenOf V c) (inpOf V c) (cidOf V c) (tgtOf V c) R)
  (hSumAp : ∀ (V : (c : Dev nD) → (b : Ref sig .tc) → Buf (Elt Ideal) ((c : Thread nD τ).loc b)) (c : Dev nD) (R : Fin 4096),
    (dat0 (F := Ideal) V c).arrAt 6 cfg0.N (ix2 R 0) = CenterMining.sumAp (cenOf V c) (inpOf V c) (cidOf V c) (tgtOf V c) R)
  (hCntAp : ∀ (V : (c : Dev nD) → (b : Ref sig .tc) → Buf (Elt Ideal) ((c : Thread nD τ).loc b)) (c : Dev nD) (R : Fin 4096),
    (dat0 (F := Ideal) V c).arrAt 7 cfg0.N (ix2 R 0) = CenterMining.cntAp (cenOf V c) (inpOf V c) (cidOf V c) (tgtOf V c) R)
  (hHardSum : ∀ (V : (c : Dev nD) → (b : Ref sig .tc) → Buf (Elt Ideal) ((c : Thread nD τ).loc b)) (c : Dev nD) (R : Fin 4096),
    (dat1 (F := Ideal) V c).arrAt 5 cfg1.N (ix2 R 0)
      = CenterMining.hardSumAt (cenOf V c) (inpOf V c) (cidOf V c) (tgtOf V c) (thrOf V c) R)
  (hHardCnt : ∀ (V : (c : Dev nD) → (b : Ref sig .tc) → Buf (Elt Ideal) ((c : Thread nD τ).loc b)) (c : Dev nD) (R : Fin 4096),
    (dat1 (F := Ideal) V c).arrAt 6 cfg1.N (ix2 R 0)
      = CenterMining.hardCntAt (cenOf V c) (inpOf V c) (cidOf V c) (tgtOf V c) (thrOf V c) R)

include hSumAn hCntNeg in
/-- Pass 2's threshold is the mean negative distance of pass 1's arrays. -/
theorem thr_eq_dNeg : thrOf (V3 m ρ) c
    = CenterMining.dNeg (cenOf (V1 m ρ) c) (inpOf (V1 m ρ) c) (cidOf (V1 m ρ) c) (tgtOf (V1 m ρ) c) := by
  funext r
  refine (congrFun (enter2_thr m ρ c) (ix2 r 0)).trans ?_
  refine (quotient_at _ _ _).trans ?_
  exact congrArg₂ Ideal.div (hSumAn _ c r) (hCntNeg _ c r)

include hSumAn hCntNeg hSumAp hCntAp hHardSum hHardCnt in
/-- The fold through @main, at the result buffer, is the specification's result of the arrays pass 1 finds. -/
theorem result_eq : W5 m ρ c (Proc.devRef .tc main_v31)
    = fun _ => CenterMining.result (cenOf (V1 m ρ) c) (inpOf (V1 m ρ) c) (cidOf (V1 m ρ) c) (tgtOf (V1 m ρ) c) := by
  have hcen : cenOf (V3 m ρ) c = cenOf (V1 m ρ) c := by
    funext r k; show V3 m ρ c main_v9 (ix2 r k) = V1 m ρ c main_v9 (ix2 r k); rw [enter2_cen m ρ c]
  have hinp : inpOf (V3 m ρ) c = inpOf (V1 m ρ) c := by
    funext s k; show V3 m ρ c main_arg0 (ix2 s k) = V1 m ρ c main_arg0 (ix2 s k); rw [enter2_inp m ρ c]
  have hcid : cidOf (V3 m ρ) c = cidOf (V1 m ρ) c := by
    funext r; show V3 m ρ c main_v20 (ix2 r 0) = V1 m ρ c main_v20 (ix2 r 0); rw [enter2_cid m ρ c]
  have htgt : tgtOf (V3 m ρ) c = tgtOf (V1 m ρ) c := by
    funext s; show V3 m ρ c main_v21 (ix2 0 s) = V1 m ρ c main_v21 (ix2 0 s); rw [enter2_tgt m ρ c]
  have hthr := thr_eq_dNeg m ρ c hSumAn hCntNeg
  funext i
  refine (congrFun (tail_result m ρ c) i).trans ?_
  refine (quotient_at _ _ i).trans ?_
  unfold CenterMining.result
  refine congrArg₂ Ideal.div ?_ ?_
  · refine (congrFun (between_apMean m ρ c) i).trans ?_
    refine (quotient_at _ _ i).trans ?_
    rw [columnTotal, columnTotal]
    exact congrArg₂ Ideal.div (Finset.sum_congr rfl fun r _ => hSumAp _ c r) (Finset.sum_congr rfl fun r _ => hCntAp _ c r)
  · refine (quotient_at _ _ i).trans ?_
    rw [columnTotal]
    refine congrArg₂ Ideal.div (Finset.sum_congr rfl fun r _ => ?_) rfl
    refine (quotient_at _ _ _).trans ?_
    rw [hHardSum, hHardCnt, hcen, hinp, hcid, htgt, hthr]
    rfl

end

end Cert.KernelIdeal.Result

end
-- ==== Proof.Entry.lean ====
/-
  What pass 1 is entered with, in terms of the launch memory: the host operations before it form the centers (the
  segment sums of the samples over their labels, divided by the segment counts), gather the label of every fourth
  sample as the centers' labels and lay them out as a column, and lay the samples' labels out as a row. The reference
  forms its centers and its centers' labels by the SAME host operations of the same two arguments, so those two arrays
  are the reference's own stages, taken as given; a column [4096, 1] cast from a vector reads the vector's entry
  `r` at (r, 0), a row [1, 32768] cast from a vector reads its entry `s` at (0, s).
-/
import proofs.«106767_j16449724745480_1_alg».proof.Proof.Gen.KernelIdeal.Frame
import proofs.«106767_j16449724745480_1_alg».proof.Proof.Gen.ReferenceIdeal.Read
import proofs.«106767_j16449724745480_1_alg».proof.Proof.Arrays
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Entry

open Cert.KernelIdeal Cert.KernelIdeal.Gen Cert.KernelIdeal.Arrays
open Idealize.ShloMosaic Idealize.ShloMosaic.TcCoe Idealize.ShloMosaic.ValueIdx Idealize.SL.Sem
open Idealize.ShloMosaic.StableHlo

/-- A vector cast to a column reads, at (i, u), the vector at `i`, whatever the unit coordinate `u`. -/
theorem column_of_vector {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt Ideal) ℓ) (ρ : Dev nD → PrngReg) (c : Dev nD)

/-- The samples pass 1 reads are the first argument as launched. -/
theorem samples : V1 m ρ c main_arg0 = m ((c : Thread nD τ).loc main_arg0) := by
  show StableHlo.after hostOps0 (W0 m ρ c) (Proc.devRef .tc main_arg0) = _
  dsimp only [hostOps0]; after_results

/-- The centers pass 1 reads are the reference's centers of the two arguments as launched: the same host operations. -/
theorem centers : V1 m ρ c main_v9
    = Cert.ReferenceIdeal.Read.val_main_v9 (F := Ideal) (m ((c : Thread nD τ).loc main_arg0)) (m ((c : Thread nD τ).loc main_arg1)) := by
  show StableHlo.after hostOps0 (W0 m ρ c) (Proc.devRef .tc main_v9) = _
  dsimp only [hostOps0]; after_results; rfl

set_option maxHeartbeats 4000000 in
/-- The label of center `r`, as pass 1 reads it off its column, is the reference's gathered label of `r`. -/
theorem centerLabel (r : Fin 4096) : V1 m ρ c main_v20 (ix2 r 0)
    = Cert.ReferenceIdeal.Read.val_main_v35 (F := Ideal) (m ((c : Thread nD τ).loc main_arg1)) (ix1 r) := by
  have e : StableHlo.after hostOps0 (W0 m ρ c) (Proc.devRef .tc main_v20)
      = shapeCast S4096x1 (Cert.ReferenceIdeal.Read.val_main_v35 (F := Ideal) (m ((c : Thread nD τ).loc main_arg1))) shapeCasts_S4096_S4096x1 := by
    dsimp only [hostOps0]; after_results_simp <;> rfl
  show StableHlo.after hostOps0 (W0 m ρ c) (Proc.devRef .tc main_v20) (ix2 r 0) = _
  rw [e]
  exact column_of_vector _ _ r 0

/-- The label of sample `s`, as pass 1 reads it off its row, is the second argument's entry `s` as launched. -/
theorem sampleLabel (s : Fin 32768) : V1 m ρ c main_v21 (ix2 0 s) = m ((c : Thread nD τ).loc main_arg1) (ix1 s) := by
  have e : StableHlo.after hostOps0 (W0 m ρ c) (Proc.devRef .tc main_v21)
      = shapeCast S1x32768 (m ((c : Thread nD τ).loc main_arg1)) shapeCasts_S32768_S1x32768 := by
    dsimp only [hostOps0]; after_results; rfl
  show StableHlo.after hostOps0 (W0 m ρ c) (Proc.devRef .tc main_v21) (ix2 0 s) = _
  rw [e]
  exact shapeCast_a_1a_apply _ _ 0 s

end Cert.KernelIdeal.Entry

end
-- ==== Proof.PassOneTile.lean ====
/-
  One tile of the first pass, read entry by entry on the extended reals.

  A tile pairs 512 centers (rows of a [512, 256] block) with 1024 samples (rows of a [1024, 256] block). Its entry
  (p, q) is the distance sqrt (max 1e-12 (|a|² + |b|² − 2·⟨a, b⟩)) between row a = p of the first block and row b = q
  of the second: the two squared norms are lane sums spread along the other axis, the inner product is the matrix
  product of the first block with the second transposed, from a zero accumulator (a change of float format is the
  identity on the extended reals). The label blocks give the mask "the labels differ"; the masked distances, the
  comparison with 1e-6, and the four row sums each output block accumulates follow entry by entry.
-/
import proofs.«106767_j16449724745480_1_alg».proof.Proof.Gen.KernelIdeal.Skeleton
import proofs.«106767_j16449724745480_1_alg».proof.Proof.CenterMining
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PassOne

open Idealize.ShloMosaic Idealize.ShloMosaic.ValueIdx
open Cert.KernelIdeal Cert.KernelIdeal.Gen
open scoped BigOperators

/-- The inserted index of a row sum: row r, lane k. -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A sum along the lanes of an [m, n] array, read at row r. -/
theorem laneSum_apply {m n : Nat} (v : FVec Ideal (⟨2, ![m, n]⟩ : Shape) .f32)
    (h : (⟨2, ![m, n]⟩ : Shape).Reduces [1] (⟨1, ![m]⟩ : Shape)) (hφ : FKind.Formats .f32)
    (hacc : (0x00000000#32 : BitVec 32) = 0x00000000#32) (r : Fin m) :
    multiReduction .add [1] (⟨1, ![m]⟩ : Shape) v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (lift_row h r k)

/-- A vector of m entries viewed as a column [m, 1], read at (r, 0). -/
theorem column_apply {α : Type} {m : Nat} (v : (⟨1, ![m]⟩ : Shape).Idx → α)
    (h : (⟨1, ![m]⟩ : Shape).ShapeCasts ⟨2, ![m, 1]⟩) (r : Fin m) (u : Fin 1) :
    shapeCast ⟨2, ![m, 1]⟩ v h (ix2 r u) = v (ix1 r) :=
  shapeCast_apply v h _ _ (by
    have hu : u.val = 0 := by omega
    rw [Shape.rowMajor_val_two, Shape.rowMajor_val_one]
    show r.val = r.val * 1 + u.val
    rw [hu]; omega)

/-- A column [m, 1] spread over n lanes, read at (r, c). -/
theorem spreadColumn_apply {α : Type} {m n : Nat} (v : (⟨2, ![m, 1]⟩ : Shape).Idx → α)
    (h : (⟨2, ![m, 1]⟩ : Shape).Broadcasts ⟨2, ![m, n]⟩) (hm : m ≠ 1) (r : Fin m) (c : Fin n) :
    broadcastTo ⟨2, ![m, n]⟩ v h (ix2 r c) = v (ix2 r 0) :=
  broadcastTo_apply v h _ _ (fun a => by
    match a with
    | ⟨0, _⟩ => show r.val = if m = 1 then 0 else r.val; rw [if_neg hm]
    | ⟨1, _⟩ => show (0 : Nat) = if (1 : Nat) = 1 then 0 else c.val; rw [if_pos rfl])

/-- A row [1, n] spread over m sublanes, read at (r, c). -/
theorem spreadRow_apply {α : Type} {m n : Nat} (v : (⟨2, ![1, n]⟩ : Shape).Idx → α)
    (h : (⟨2, ![1, n]⟩ : Shape).Broadcasts ⟨2, ![m, n]⟩) (hn : n ≠ 1) (r : Fin m) (c : Fin n) :
    broadcastTo ⟨2, ![m, n]⟩ v h (ix2 r c) = v (ix2 0 c) :=
  broadcastTo_apply v h _ _ (fun a => by
    match a with
    | ⟨0, _⟩ => show (0 : Nat) = if (1 : Nat) = 1 then 0 else r.val; rw [if_pos rfl]
    | ⟨1, _⟩ => show c.val = if n = 1 then 0 else c.val; rw [if_neg hn])

/-! ## The inner products: the matrix product of the centers' block with the samples' block transposed -/

/-- The contraction of the tile's matrix product: [512, 256] by [256, 1024]. -/
abbrev gramDims : DotDims S512x256 S256x1024 S512x1024 := dot_S512x256_S256x1024_S512x1024_1_0_0_1_n_n

theorem gram_lhs0 (i : S512x1024.Idx) (k : gramDims.contr.Idx) : (gramDims.lhsIdx i k 0).val = (i 0).val := by
  unfold DotDims.lhsIdx
  rw [dif_neg (show ¬(0 : Fin S512x256.rank) ∈ gramDims.lhsBatch by decide),
    dif_pos (show (0 : Fin S512x256.rank) ∈ gramDims.lhsNonContracting by decide)]
  rfl

theorem gram_lhs1 (i : S512x1024.Idx) (k : gramDims.contr.Idx) :
    (gramDims.lhsIdx i k 1).val = (k ⟨0, by decide⟩).val :=
  gramDims.lhsIdx_val_of_single rfl i k

theorem gram_rhs0 (i : S512x1024.Idx) (k : gramDims.contr.Idx) :
    (gramDims.rhsIdx i k 0).val = (k ⟨0, by decide⟩).val :=
  gramDims.rhsIdx_val_of_single rfl i k

theorem gram_rhs1 (i : S512x1024.Idx) (k : gramDims.contr.Idx) : (gramDims.rhsIdx i k 1).val = (i 1).val := by
  unfold DotDims.rhsIdx
  rw [dif_neg (show ¬(1 : Fin S256x1024.rank) ∈ gramDims.rhsBatch by decide),
    dif_pos (show (1 : Fin S256x1024.rank) ∈ gramDims.rhsNonContracting by decide)]
  rfl

/-- The product from a zero accumulator, read at (p, q): the inner product of row p of the left factor with column q of
    the right one. -/
theorem gram_apply {φ₁ φ₂ : FTy} (v : FVec Ideal S512x256 φ₁) (w : FVec Ideal S256x1024 φ₂) (p : Fin 512) (q : Fin 1024) :
    FloatOps.matmul gramDims none v w (constant S512x1024 .f32 0x00000000#32) (ix2 p q)
      = ∑ k : Fin 256, v (ix2 p k) * w (ix2 k q) := by
  rw [Ideal.matmul_constant_zero_apply, ← Equiv.sum_comp (contrEquiv1 gramDims 256 rfl rfl).symm]
  refine Finset.sum_congr rfl fun k _ => ?_
  have hk := contrEquiv1_symm_val gramDims 256 rfl rfl k
  have el : gramDims.lhsIdx (ix2 p q) ((contrEquiv1 gramDims 256 rfl rfl).symm k) = ix2 p k := funext fun a => Fin.ext (by
    match a with
    | ⟨0, _⟩ => exact gram_lhs0 _ _
    | ⟨1, _⟩ => exact (gram_lhs1 _ _).trans hk)
  have er : gramDims.rhsIdx (ix2 p q) ((contrEquiv1 gramDims 256 rfl rfl).symm k) = ix2 k q := funext fun a => Fin.ext (by
    match a with
    | ⟨0, _⟩ => exact (gram_rhs0 _ _).trans hk
    | ⟨1, _⟩ => exact gram_rhs1 _ _)
  rw [el, er]

/-! ## The tile of distances -/

/-- The distance between two rows of 256 entries, clipped below at 1e-12 under the root. -/
def rowDist (a b : Fin 256 → EReal) : EReal :=
  Ideal.sqrt (max (CenterMining.lit 0x2B8CBCCC#32)
    (CenterMining.sqn a + CenterMining.sqn b - CenterMining.lit 0x40000000#32 * ∑ k, a k * b k))

/-- The squared norm of row p of a [512, 256] block, as the tile's left summand holds it at (p, q). -/
theorem rowNorm_apply (x : FVec Ideal S512x256 .f32) (h1 : S512x256.Reduces [1] S512) (hφ : FKind.Formats .f32)
    (hacc : (0x00000000#32 : BitVec 32) = 0x00000000#32) (h2 : S512.ShapeCasts S512x1) (h3 : S512x1.Broadcasts S512x1024)
    (p : Fin 512) (q : Fin 1024) :
    broadcastTo S512x1024 (shapeCast S512x1 (multiReduction .add [1] S512 (mulf x x) 0x00000000#32 h1 hφ hacc) h2) h3 (ix2 p q)
      = CenterMining.sqn (fun k => x (ix2 p k)) := by
  refine (spreadColumn_apply _ _ (by decide) p q).trans ((column_apply _ _ p 0).trans ((laneSum_apply (mulf x x) _ _ _ p).trans ?_))
  rfl

/-- The squared norm of row q of a [1024, 256] block, as the tile's right summand holds it at (p, q). -/
theorem colNorm_apply (x : FVec Ideal S1024x256 .f32) (h1 : S1024x256.Reduces [1] S1024) (hφ : FKind.Formats .f32)
    (hacc : (0x00000000#32 : BitVec 32) = 0x00000000#32) (h2 : S1024.ShapeCasts S1024x1)
    (ht : S1024x1.Transposes [1, 0] S1x1024) (h3 : S1x1024.Broadcasts S512x1024) (p : Fin 512) (q : Fin 1024) :
    broadcastTo S512x1024 (transpose S1x1024 [1, 0] (shapeCast S1024x1 (multiReduction .add [1] S1024 (mulf x x) 0x00000000#32 h1 hφ hacc) h2) ht) h3 (ix2 p q)
      = CenterMining.sqn (fun k => x (ix2 q k)) := by
  refine (spreadRow_apply _ _ (by decide) p q).trans ((transpose_ix2_apply _ _ 0 q).trans ((column_apply _ _ q 0).trans ((laneSum_apply (mulf x x) _ _ _ q).trans ?_)))
  rfl

/-- The inner product of row p of the centers' block with row q of the samples' block, as the tile's product holds it. -/
theorem inner_apply (x0 : FVec Ideal S512x256 .f32) (x1 : FVec Ideal S1024x256 .f32) (hb : FTy.bf16.bits < FTy.f32.bits)
    (ht : S1024x256.Transposes [1, 0] S256x1024) (p : Fin 512) (q : Fin 1024) :
    matmul dot_S512x256_S256x1024_S512x1024_1_0_0_1_n_n none (truncf .bf16 x0 hb) (transpose S256x1024 [1, 0] (truncf .bf16 x1 hb) ht) (constant S512x1024 .f32 0x00000000#32) (ix2 p q)
      = ∑ k : Fin 256, x0 (ix2 p k) * x1 (ix2 q k) :=
  (gram_apply _ _ p q).trans (Finset.sum_congr rfl fun k _ => congrArg (x0 (ix2 p k) * ·) (transpose_ix2_apply _ _ k q))

/-- The tile's arithmetic at one index: root of the clipped (sum of two terms minus a multiple of a third). -/
theorem tile_core (c1 c2 : Ideal .f32) (A B C : FVec Ideal S512x1024 .f32) (i : S512x1024.Idx) :
    sqrt (maximumf (broadcast S512x1024 c1) (subf (addf A B) (mulf (broadcast S512x1024 c2) C))) i
      = Ideal.sqrt (max c1 (A i + B i - c2 * C i)) := rfl

/-- The tile of distances at (p, q): the distance between row p of the centers' block and row q of the samples' block. -/
theorem tile_apply (x0 : Vec Ideal S512x256 .f32) (x1 : Vec Ideal S1024x256 .f32) (p : Fin 512) (q : Fin 1024) :
    k0_pay5 (F := Ideal) x0 x1 (ix2 p q) = rowDist (fun k => x0 (ix2 p k)) (fun k => x1 (ix2 q k)) := by
  unfold k0_pay5
  dsimp only
  rw [shapeCast_self]
  refine (tile_core _ _ _ _ _ _).trans ?_
  rw [rowNorm_apply, colNorm_apply, inner_apply]
  rfl

/-! ## The masks and the masked distances -/

/-- The negative-pair mask at (p, q): the labels of row p and of column q differ. -/
theorem negMask_apply (x2 : Vec Ideal S512x1 .i32) (x3 : Vec Ideal S1x1024 .i32) (p : Fin 512) (q : Fin 1024) :
    k0_pay6 (F := Ideal) x2 x3 (ix2 p q) = IntOp.cmpi .ne (x2 (ix2 p 0)) (x3 (ix2 0 q)) := by
  unfold k0_pay6
  try dsimp only
  rw [shapeCast_self, shapeCast_self]
  show IntOp.cmpi .ne (broadcastTo S512x1024 x2 _ (ix2 p q)) (broadcastTo S512x1024 x3 _ (ix2 p q)) = _
  rw [spreadColumn_apply x2 _ (by decide) p q, spreadRow_apply x3 _ (by decide) p q]

/-- The distance kept on the negative pairs of a tile, zero on the positive ones. -/
def tileAn (x0 : Vec Ideal S512x256 .f32) (x1 : Vec Ideal S1024x256 .f32) (x2 : Vec Ideal S512x1 .i32)
    (x3 : Vec Ideal S1x1024 .i32) (p : Fin 512) (q : Fin 1024) : EReal :=
  Scalar.select (IntOp.cmpi .ne (x2 (ix2 p 0)) (x3 (ix2 0 q)))
    (rowDist (fun k => x0 (ix2 p k)) (fun k => x1 (ix2 q k))) (CenterMining.lit 0x00000000#32)

/-- The distance kept on the positive pairs of a tile, zero on the negative ones. -/
def tileAp (x0 : Vec Ideal S512x256 .f32) (x1 : Vec Ideal S1024x256 .f32) (x2 : Vec Ideal S512x1 .i32)
    (x3 : Vec Ideal S1x1024 .i32) (p : Fin 512) (q : Fin 1024) : EReal :=
  Scalar.select (IntOp.cmpi .ne (x2 (ix2 p 0)) (x3 (ix2 0 q)))
    (CenterMining.lit 0x00000000#32) (rowDist (fun k => x0 (ix2 p k)) (fun k => x1 (ix2 q k)))

theorem an_apply (x0 : Vec Ideal S512x256 .f32) (x1 : Vec Ideal S1024x256 .f32) (x2 : Vec Ideal S512x1 .i32)
    (x3 : Vec Ideal S1x1024 .i32) (p : Fin 512) (q : Fin 1024) :
    k0_pay7 (F := Ideal) x0 x1 x2 x3 (ix2 p q) = tileAn x0 x1 x2 x3 p q := by
  unfold k0_pay7
  try dsimp only
  show Scalar.select (k0_pay6 (F := Ideal) x2 x3 (ix2 p q)) (k0_pay5 (F := Ideal) x0 x1 (ix2 p q)) _ = _
  rw [negMask_apply, tile_apply]
  rfl

theorem anCounts_apply (x0 : Vec Ideal S512x256 .f32) (x1 : Vec Ideal S1024x256 .f32) (x2 : Vec Ideal S512x1 .i32)
    (x3 : Vec Ideal S1x1024 .i32) (p : Fin 512) (q : Fin 1024) :
    k0_pay8 (F := Ideal) x0 x1 x2 x3 (ix2 p q) = CenterMining.counts (tileAn x0 x1 x2 x3 p q) := by
  unfold k0_pay8
  try dsimp only
  show Ideal.cmp .ogt (k0_pay7 (F := Ideal) x0 x1 x2 x3 (ix2 p q)) _ = _
  rw [an_apply]
  rfl

theorem ap_apply (v25 : FVec Ideal S512x1024 .f32) (v32 : IVec S512x1024 1) (i : S512x1024.Idx) :
    k0_pay11 (F := Ideal) v25 v32 i = Scalar.select (v32 i) (CenterMining.lit 0x00000000#32) (v25 i) := rfl

theorem apCounts_apply (v25 : FVec Ideal S512x1024 .f32) (v32 : IVec S512x1024 1) (i : S512x1024.Idx) :
    k0_pay12 (F := Ideal) v25 v32 i
      = CenterMining.counts (Scalar.select (v32 i) (CenterMining.lit 0x00000000#32) (v25 i)) := rfl

/-! ## The four running sums: the block held before plus the tile's row sums -/

/-- A [512, 1] block plus the lane sums of a [512, 1024] tile, read at row p. -/
theorem rowAcc_apply (acc : FVec Ideal S512x1 .f32) (g : FVec Ideal S512x1024 .f32) (hs : S512x1.ShapeCasts S512x1)
    (h1 : S512x1024.Reduces [1] S512) (hφ : FKind.Formats .f32) (hacc : (0x00000000#32 : BitVec 32) = 0x00000000#32)
    (h2 : S512.ShapeCasts S512x1) (p : Fin 512) (u : Fin 1) :
    addf (shapeCast S512x1 acc hs) (shapeCast S512x1 (multiReduction .add [1] S512 g 0x00000000#32 h1 hφ hacc) h2) (ix2 p u)
      = acc (ix2 p u) + ∑ q : Fin 1024, g (ix2 p q) := by
  rw [shapeCast_self]
  show acc (ix2 p u) + shapeCast S512x1 _ h2 (ix2 p u) = _
  rw [column_apply _ h2 p u, laneSum_apply g h1 hφ hacc p]

/-- Output 4's payload at row p: what the block held plus the tile's counted negative distances of that row. -/
theorem sumAnStep_apply (v34 : FVec Ideal S512x1024 .f32) (v36 : IVec S512x1024 1) (v37 : Vec Ideal S512x1 .f32)
    (p : Fin 512) (u : Fin 1) :
    k0_pay9 (F := Ideal) v34 v36 v37 (ix2 p u)
      = v37 (ix2 p u) + ∑ q : Fin 1024, CenterMining.kept (v36 (ix2 p q)) (v34 (ix2 p q)) := by
  unfold k0_pay9
  dsimp only
  refine (rowAcc_apply _ _ _ _ _ _ _ p u).trans ?_
  rfl

/-- Output 5's payload at row p: what the block held plus the number of the tile's counted negatives of that row. -/
theorem cntNegStep_apply (v36 : IVec S512x1024 1) (v45 : Vec Ideal S512x1 .f32) (p : Fin 512) (u : Fin 1) :
    k0_pay10 (F := Ideal) v36 v45 (ix2 p u)
      = v45 (ix2 p u) + ∑ q : Fin 1024, CenterMining.bit01 (v36 (ix2 p q)) := by
  unfold k0_pay10
  dsimp only
  refine (rowAcc_apply _ _ _ _ _ _ _ p u).trans ?_
  rfl

/-- Output 6's payload at row p: what the block held plus the tile's counted positive distances of that row. -/
theorem sumApStep_apply (v25 : FVec Ideal S512x1024 .f32) (v32 : IVec S512x1024 1) (v57 : Vec Ideal S512x1 .f32)
    (p : Fin 512) (u : Fin 1) :
    k0_pay13 (F := Ideal) v25 v32 v57 (ix2 p u)
      = v57 (ix2 p u) + ∑ q : Fin 1024,
          CenterMining.kept (CenterMining.counts (Scalar.select (v32 (ix2 p q)) (CenterMining.lit 0x00000000#32) (v25 (ix2 p q))))
            (Scalar.select (v32 (ix2 p q)) (CenterMining.lit 0x00000000#32) (v25 (ix2 p q))) := by
  unfold k0_pay13
  dsimp only
  refine (rowAcc_apply _ _ _ _ _ _ _ p u).trans ?_
  rfl

/-- Output 7's payload at row p: what the block held plus the number of the tile's counted positives of that row. -/
theorem cntApStep_apply (v25 : FVec Ideal S512x1024 .f32) (v32 : IVec S512x1024 1) (v65 : Vec Ideal S512x1 .f32)
    (p : Fin 512) (u : Fin 1) :
    k0_pay14 (F := Ideal) v25 v32 v65 (ix2 p u)
      = v65 (ix2 p u) + ∑ q : Fin 1024,
          CenterMining.bit01 (CenterMining.counts (Scalar.select (v32 (ix2 p q)) (CenterMining.lit 0x00000000#32) (v25 (ix2 p q)))) := by
  unfold k0_pay14
  dsimp only
  refine (rowAcc_apply _ _ _ _ _ _ _ p u).trans ?_
  rfl

end Cert.KernelIdeal.PassOne
-- ==== Proof.PassOneBlocks.lean ====
/-
  The first pass, point by point: what each of its four output blocks is left holding after one tile, and which rows of
  the arrays the tile's input blocks are.

  The grid has 8 × 32 points; point t = 32 i + j pairs the i-th block of 512 centers with the j-th block of 1024 samples.
  At the first tile of a row of tiles (j = 0) each output block is reset to zero before the tile's row sums are added to
  it; at the other tiles the sums are added to what the block held. So after each point an output block holds its
  payload over the tile's four input blocks and over either the zero block or its previous contents. The input blocks
  are read off the arrays at rows 512 i + p (centers and their labels) and 1024 j + q (samples and their labels).
-/
import proofs.«106767_j16449724745480_1_alg».proof.Proof.Gen.KernelIdeal.Frame
import Idealize.ShloMosaic.Lib.Pipeline.Value
import Idealize.ShloMosaic.Lib.Tactic
import Idealize.ShloMosaic.Lib.ValueIdx
import proofs.«106767_j16449724745480_1_alg».proof.Proof.CenterMining

noncomputable section

open Idealize.ShloMosaic Idealize.ShloMosaic.TcCoe Idealize.SL.Sem
open Idealize.ShloMosaic.Pipeline (Dat)

namespace Cert.KernelIdeal.PassOne

open Cert.KernelIdeal Cert.KernelIdeal.Gen Idealize.ShloMosaic.ValueIdx

variable {F : FTy → Type} [FloatOps F]

theorem origin2 : (![0, 0] : Fin 2 → Nat) = fun _ => 0 := funext fun a => by fin_cases a <;> rfl

/-- Away from the first tile of a row of tiles, output 4 (the sum of the counted negative distances) is left holding its payload over the tile's
    blocks and over what it held before. -/
theorem out_B_4 (c : Dev nD) (i : grid0.Coords) (a2 : Memref sig .tc .vmem S512x256 .f32) (h2 : a2.IsWhole) (a3 : Memref sig .tc .vmem S1024x256 .f32) (h3 : a3.IsWhole) (a4 : Memref sig .tc .vmem S512x1 .i32) (h4 : a4.IsWhole) (a5 : Memref sig .tc .vmem S1x1024 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (hc : ¬cond0_0 i)
    (x0 : Vec F S512x256 .f32) (x1 : Vec F S1024x256 .f32) (x2 : Vec F S512x1 .i32) (x3 : Vec F S1x1024 .i32)
    (xo4 xo5 xo6 xo7 : Vec F S512x1 .f32) :
    out0_B_4 c i a2 h2 a3 h3 a4 h4 a5 h5 a6 h6 a7 h7 a8 h8 a9 h9 hc x0 x1 x2 x3 xo4 xo5 xo6 xo7
      = k0_pay9 (k0_pay7 x0 x1 x2 x3) (k0_pay8 x0 x1 x2 x3) xo4 := by
  unfold out0_B_4
  rw [View.read_writes_eq_canon _ _ _ (cover0_B_4 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero origin2]
  simp only [View.readAt_eq_ld, h2.read_unread, h3.read_unread, h4.read_unread, h5.read_unread, h6.read_unread, h7.read_unread, h8.read_unread, h9.read_unread,
    View.ld_unit_zero (S := S512x256) origin2, View.ld_unit_zero (S := S1024x256) origin2, View.ld_unit_zero (S := S512x1) origin2, View.ld_unit_zero (S := S1x1024) origin2]

/-- At the first tile of a row of tiles, output 4 is first reset to zero, then left holding its payload over the
    tile's blocks and over that zero block. -/
theorem out_A_4 (c : Dev nD) (i : grid0.Coords) (a2 : Memref sig .tc .vmem S512x256 .f32) (h2 : a2.IsWhole) (a3 : Memref sig .tc .vmem S1024x256 .f32) (h3 : a3.IsWhole) (a4 : Memref sig .tc .vmem S512x1 .i32) (h4 : a4.IsWhole) (a5 : Memref sig .tc .vmem S1x1024 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (hc : cond0_0 i)
    (x0 : Vec F S512x256 .f32) (x1 : Vec F S1024x256 .f32) (x2 : Vec F S512x1 .i32) (x3 : Vec F S1x1024 .i32) :
    out0_A_4 c i a2 h2 a3 h3 a4 h4 a5 h5 a6 h6 a7 h7 a8 h8 a9 h9 hc x0 x1 x2 x3
      = k0_pay9 (k0_pay7 x0 x1 x2 x3) (k0_pay8 x0 x1 x2 x3) (k0_pay1 (F := F)) := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  rw [View.canon_cons_unit_zero (S := S512x1) origin2, View.readCov_unit_zero (S := S512x1) _ origin2]
  simp only [View.readAt_eq_ld, h2.read_unread, h3.read_unread, h4.read_unread, h5.read_unread,
    View.ld_unit_zero (S := S512x256) origin2, View.ld_unit_zero (S := S1024x256) origin2, View.ld_unit_zero (S := S512x1) origin2, View.ld_unit_zero (S := S1x1024) origin2]

/-- Away from the first tile of a row of tiles, output 5 (the number of counted negatives) is left holding its payload over the tile's
    blocks and over what it held before. -/
theorem out_B_5 (c : Dev nD) (i : grid0.Coords) (a2 : Memref sig .tc .vmem S512x256 .f32) (h2 : a2.IsWhole) (a3 : Memref sig .tc .vmem S1024x256 .f32) (h3 : a3.IsWhole) (a4 : Memref sig .tc .vmem S512x1 .i32) (h4 : a4.IsWhole) (a5 : Memref sig .tc .vmem S1x1024 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (hc : ¬cond0_0 i)
    (x0 : Vec F S512x256 .f32) (x1 : Vec F S1024x256 .f32) (x2 : Vec F S512x1 .i32) (x3 : Vec F S1x1024 .i32)
    (xo4 xo5 xo6 xo7 : Vec F S512x1 .f32) :
    out0_B_5 c i a2 h2 a3 h3 a4 h4 a5 h5 a6 h6 a7 h7 a8 h8 a9 h9 hc x0 x1 x2 x3 xo4 xo5 xo6 xo7
      = k0_pay10 (k0_pay8 x0 x1 x2 x3) xo5 := by
  unfold out0_B_5
  rw [View.read_writes_eq_canon _ _ _ (cover0_B_5 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero origin2]
  simp only [View.readAt_eq_ld, h2.read_unread, h3.read_unread, h4.read_unread, h5.read_unread, h6.read_unread, h7.read_unread, h8.read_unread, h9.read_unread,
    View.ld_unit_zero (S := S512x256) origin2, View.ld_unit_zero (S := S1024x256) origin2, View.ld_unit_zero (S := S512x1) origin2, View.ld_unit_zero (S := S1x1024) origin2]

/-- At the first tile of a row of tiles, output 5 is first reset to zero, then left holding its payload over the
    tile's blocks and over that zero block. -/
theorem out_A_5 (c : Dev nD) (i : grid0.Coords) (a2 : Memref sig .tc .vmem S512x256 .f32) (h2 : a2.IsWhole) (a3 : Memref sig .tc .vmem S1024x256 .f32) (h3 : a3.IsWhole) (a4 : Memref sig .tc .vmem S512x1 .i32) (h4 : a4.IsWhole) (a5 : Memref sig .tc .vmem S1x1024 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (hc : cond0_0 i)
    (x0 : Vec F S512x256 .f32) (x1 : Vec F S1024x256 .f32) (x2 : Vec F S512x1 .i32) (x3 : Vec F S1x1024 .i32) :
    out0_A_5 c i a2 h2 a3 h3 a4 h4 a5 h5 a6 h6 a7 h7 a8 h8 a9 h9 hc x0 x1 x2 x3
      = k0_pay10 (k0_pay8 x0 x1 x2 x3) (k0_pay2 (F := F)) := by
  unfold out0_A_5
  rw [View.read_writes_eq_canon _ _ _ (cover0_A_5 c i a2 h2 a3 h3 a4 h4 a5 h5 a6 h6 a7 h7 a8 h8 a9 h9 hc x0 x1 x2 x3)]
  unfold kernelRun0_A
  dsimp only
  sl_unfold_words
  rw [View.canon_cons_unit_zero (S := S512x1) origin2, View.readCov_unit_zero (S := S512x1) _ origin2]
  simp only [View.readAt_eq_ld, h2.read_unread, h3.read_unread, h4.read_unread, h5.read_unread,
    View.ld_unit_zero (S := S512x256) origin2, View.ld_unit_zero (S := S1024x256) origin2, View.ld_unit_zero (S := S512x1) origin2, View.ld_unit_zero (S := S1x1024) origin2]

/-- Away from the first tile of a row of tiles, output 6 (the sum of the counted positive distances) is left holding its payload over the tile's
    blocks and over what it held before. -/
theorem out_B_6 (c : Dev nD) (i : grid0.Coords) (a2 : Memref sig .tc .vmem S512x256 .f32) (h2 : a2.IsWhole) (a3 : Memref sig .tc .vmem S1024x256 .f32) (h3 : a3.IsWhole) (a4 : Memref sig .tc .vmem S512x1 .i32) (h4 : a4.IsWhole) (a5 : Memref sig .tc .vmem S1x1024 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (hc : ¬cond0_0 i)
    (x0 : Vec F S512x256 .f32) (x1 : Vec F S1024x256 .f32) (x2 : Vec F S512x1 .i32) (x3 : Vec F S1x1024 .i32)
    (xo4 xo5 xo6 xo7 : Vec F S512x1 .f32) :
    out0_B_6 c i a2 h2 a3 h3 a4 h4 a5 h5 a6 h6 a7 h7 a8 h8 a9 h9 hc x0 x1 x2 x3 xo4 xo5 xo6 xo7
      = k0_pay13 (k0_pay5 x0 x1) (k0_pay6 x2 x3) xo6 := by
  unfold out0_B_6
  rw [View.read_writes_eq_canon _ _ _ (cover0_B_6 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero origin2]
  simp only [View.readAt_eq_ld, h2.read_unread, h3.read_unread, h4.read_unread, h5.read_unread, h6.read_unread, h7.read_unread, h8.read_unread, h9.read_unread,
    View.ld_unit_zero (S := S512x256) origin2, View.ld_unit_zero (S := S1024x256) origin2, View.ld_unit_zero (S := S512x1) origin2, View.ld_unit_zero (S := S1x1024) origin2]

/-- At the first tile of a row of tiles, output 6 is first reset to zero, then left holding its payload over the
    tile's blocks and over that zero block. -/
theorem out_A_6 (c : Dev nD) (i : grid0.Coords) (a2 : Memref sig .tc .vmem S512x256 .f32) (h2 : a2.IsWhole) (a3 : Memref sig .tc .vmem S1024x256 .f32) (h3 : a3.IsWhole) (a4 : Memref sig .tc .vmem S512x1 .i32) (h4 : a4.IsWhole) (a5 : Memref sig .tc .vmem S1x1024 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (hc : cond0_0 i)
    (x0 : Vec F S512x256 .f32) (x1 : Vec F S1024x256 .f32) (x2 : Vec F S512x1 .i32) (x3 : Vec F S1x1024 .i32) :
    out0_A_6 c i a2 h2 a3 h3 a4 h4 a5 h5 a6 h6 a7 h7 a8 h8 a9 h9 hc x0 x1 x2 x3
      = k0_pay13 (k0_pay5 x0 x1) (k0_pay6 x2 x3) (k0_pay3 (F := F)) := by
  unfold out0_A_6
  rw [View.read_writes_eq_canon _ _ _ (cover0_A_6 c i a2 h2 a3 h3 a4 h4 a5 h5 a6 h6 a7 h7 a8 h8 a9 h9 hc x0 x1 x2 x3)]
  unfold kernelRun0_A
  dsimp only
  sl_unfold_words
  rw [View.canon_cons_unit_zero (S := S512x1) origin2, View.readCov_unit_zero (S := S512x1) _ origin2]
  simp only [View.readAt_eq_ld, h2.read_unread, h3.read_unread, h4.read_unread, h5.read_unread,
    View.ld_unit_zero (S := S512x256) origin2, View.ld_unit_zero (S := S1024x256) origin2, View.ld_unit_zero (S := S512x1) origin2, View.ld_unit_zero (S := S1x1024) origin2]

/-- Away from the first tile of a row of tiles, output 7 (the number of counted positives) is left holding its payload over the tile's
    blocks and over what it held before. -/
theorem out_B_7 (c : Dev nD) (i : grid0.Coords) (a2 : Memref sig .tc .vmem S512x256 .f32) (h2 : a2.IsWhole) (a3 : Memref sig .tc .vmem S1024x256 .f32) (h3 : a3.IsWhole) (a4 : Memref sig .tc .vmem S512x1 .i32) (h4 : a4.IsWhole) (a5 : Memref sig .tc .vmem S1x1024 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (hc : ¬cond0_0 i)
    (x0 : Vec F S512x256 .f32) (x1 : Vec F S1024x256 .f32) (x2 : Vec F S512x1 .i32) (x3 : Vec F S1x1024 .i32)
    (xo4 xo5 xo6 xo7 : Vec F S512x1 .f32) :
    out0_B_7 c i a2 h2 a3 h3 a4 h4 a5 h5 a6 h6 a7 h7 a8 h8 a9 h9 hc x0 x1 x2 x3 xo4 xo5 xo6 xo7
      = k0_pay14 (k0_pay5 x0 x1) (k0_pay6 x2 x3) xo7 := by
  unfold out0_B_7
  rw [View.read_writes_eq_canon _ _ _ (cover0_B_7 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero origin2]
  simp only [View.readAt_eq_ld, h2.read_unread, h3.read_unread, h4.read_unread, h5.read_unread, h6.read_unread, h7.read_unread, h8.read_unread, h9.read_unread,
    View.ld_unit_zero (S := S512x256) origin2, View.ld_unit_zero (S := S1024x256) origin2, View.ld_unit_zero (S := S512x1) origin2, View.ld_unit_zero (S := S1x1024) origin2]

/-- At the first tile of a row of tiles, output 7 is first reset to zero, then left holding its payload over the
    tile's blocks and over that zero block. -/
theorem out_A_7 (c : Dev nD) (i : grid0.Coords) (a2 : Memref sig .tc .vmem S512x256 .f32) (h2 : a2.IsWhole) (a3 : Memref sig .tc .vmem S1024x256 .f32) (h3 : a3.IsWhole) (a4 : Memref sig .tc .vmem S512x1 .i32) (h4 : a4.IsWhole) (a5 : Memref sig .tc .vmem S1x1024 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (hc : cond0_0 i)
    (x0 : Vec F S512x256 .f32) (x1 : Vec F S1024x256 .f32) (x2 : Vec F S512x1 .i32) (x3 : Vec F S1x1024 .i32) :
    out0_A_7 c i a2 h2 a3 h3 a4 h4 a5 h5 a6 h6 a7 h7 a8 h8 a9 h9 hc x0 x1 x2 x3
      = k0_pay14 (k0_pay5 x0 x1) (k0_pay6 x2 x3) (k0_pay4 (F := F)) := by
  unfold out0_A_7
  rw [View.read_writes_eq_canon _ _ _ (cover0_A_7 c i a2 h2 a3 h3 a4 h4 a5 h5 a6 h6 a7 h7 a8 h8 a9 h9 hc x0 x1 x2 x3)]
  unfold kernelRun0_A
  dsimp only
  sl_unfold_words
  rw [View.canon_cons_unit_zero (S := S512x1) origin2, View.readCov_unit_zero (S := S512x1) _ origin2]
  simp only [View.readAt_eq_ld, h2.read_unread, h3.read_unread, h4.read_unread, h5.read_unread,
    View.ld_unit_zero (S := S512x256) origin2, View.ld_unit_zero (S := S1024x256) origin2, View.ld_unit_zero (S := S512x1) origin2, View.ld_unit_zero (S := S1x1024) origin2]

/-! ## The blocks the windows read, entry by entry -/

variable (V : (c : Dev nD) → (b : Ref sig .tc) → Buf (Elt F) ((c : Thread nD τ).loc b))

/-- Row p of the i-th block of 512 centers. -/
def row (i : Fin 8) (p : Fin 512) : Fin 4096 := ⟨512 * i.val + p.val, by have := i.isLt; have := p.isLt; omega⟩

/-- The centers' and their labels' windows, and the four outputs', sit at block (t / 32, 0) at point t; the samples'
    window at block (t mod 32, 0) and their labels' at block (0, t mod 32): decided over the 256 points. -/
theorem index0_0 : ∀ t : Fin cfg0.N, win0_0.index t 0 = t.val / 32 ∧ win0_0.index t 1 = 0 :=
  (by decide +kernel : ∀ t : Fin grid0.N, win0_0.index t 0 = t.val / 32 ∧ win0_0.index t 1 = 0)
theorem index0_1 : ∀ t : Fin cfg0.N, win0_1.index t 0 = t.val % 32 ∧ win0_1.index t 1 = 0 :=
  (by decide +kernel : ∀ t : Fin grid0.N, win0_1.index t 0 = t.val % 32 ∧ win0_1.index t 1 = 0)
theorem index0_2 : ∀ t : Fin cfg0.N, win0_2.index t 0 = t.val / 32 ∧ win0_2.index t 1 = 0 :=
  (by decide +kernel : ∀ t : Fin grid0.N, win0_2.index t 0 = t.val / 32 ∧ win0_2.index t 1 = 0)
theorem index0_3 : ∀ t : Fin cfg0.N, win0_3.index t 0 = 0 ∧ win0_3.index t 1 = t.val % 32 :=
  (by decide +kernel : ∀ t : Fin grid0.N, win0_3.index t 0 = 0 ∧ win0_3.index t 1 = t.val % 32)
theorem index0_4 : ∀ t : Fin cfg0.N, win0_4.index t 0 = t.val / 32 ∧ win0_4.index t 1 = 0 :=
  (by decide +kernel : ∀ t : Fin grid0.N, win0_4.index t 0 = t.val / 32 ∧ win0_4.index t 1 = 0)
theorem index0_5 : ∀ t : Fin cfg0.N, win0_5.index t 0 = t.val / 32 ∧ win0_5.index t 1 = 0 :=
  (by decide +kernel : ∀ t : Fin grid0.N, win0_5.index t 0 = t.val / 32 ∧ win0_5.index t 1 = 0)
theorem index0_6 : ∀ t : Fin cfg0.N, win0_6.index t 0 = t.val / 32 ∧ win0_6.index t 1 = 0 :=
  (by decide +kernel : ∀ t : Fin grid0.N, win0_6.index t 0 = t.val / 32 ∧ win0_6.index t 1 = 0)
theorem index0_7 : ∀ t : Fin cfg0.N, win0_7.index t 0 = t.val / 32 ∧ win0_7.index t 1 = 0 :=
  (by decide +kernel : ∀ t : Fin grid0.N, win0_7.index t 0 = t.val / 32 ∧ win0_7.index t 1 = 0)

/-- The centers' block at point t = 32 i + j is rows 512 i … 512 i + 511 of the centers. -/
theorem cenBlock_apply (c : Dev nD) (t : Fin cfg0.N) (i : Fin 8) (j : Fin 32) (e : t.val = 32 * i.val + j.val)
    (p : Fin 512) (k : Fin 256) :
    (iblk0 V c 0 t : Vec F S512x256 .f32) (ix2 p k) = V c main_v9 (ix2 (row i p) k) := by
  have hi := index0_0 t
  unfold iblk0
  rw [View.read_apply]
  show V c main_v9 _ = V c main_v9 _
  refine congrArg (V c main_v9) (funext fun a => Fin.ext ?_)
  match a with
  | ⟨0, _⟩ => show win0_0.index t 0 * 512 + 1 * p.val = 512 * i.val + p.val; rw [hi.1]; have := j.isLt; omega
  | ⟨1, _⟩ => show win0_0.index t 1 * 256 + 1 * k.val = k.val; rw [hi.2]; omega

/-- The samples' block at point t = 32 i + j is rows 1024 j … 1024 j + 1023 of the samples. -/
theorem inpBlock_apply (c : Dev nD) (t : Fin cfg0.N) (i : Fin 8) (j : Fin 32) (e : t.val = 32 * i.val + j.val)
    (q : Fin 1024) (k : Fin 256) :
    (iblk0 V c 1 t : Vec F S1024x256 .f32) (ix2 q k) = V c main_arg0 (ix2 (CenterMining.col j q) k) := by
  have hi := index0_1 t
  unfold iblk0
  rw [View.read_apply]
  show V c main_arg0 _ = V c main_arg0 _
  refine congrArg (V c main_arg0) (funext fun a => Fin.ext ?_)
  match a with
  | ⟨0, _⟩ => show win0_1.index t 0 * 1024 + 1 * q.val = 1024 * j.val + q.val; rw [hi.1]; have := j.isLt; omega
  | ⟨1, _⟩ => show win0_1.index t 1 * 256 + 1 * k.val = k.val; rw [hi.2]; omega

/-- The centers' labels' block at point t = 32 i + j is entries 512 i … 512 i + 511 of the labels' column. -/
theorem cidBlock_apply (c : Dev nD) (t : Fin cfg0.N) (i : Fin 8) (j : Fin 32) (e : t.val = 32 * i.val + j.val)
    (p : Fin 512) (u : Fin 1) :
    (iblk0 V c 2 t : Vec F S512x1 .i32) (ix2 p u) = V c main_v20 (ix2 (row i p) 0) := by
  have hi := index0_2 t
  unfold iblk0
  rw [View.read_apply]
  show V c main_v20 _ = V c main_v20 _
  refine congrArg (V c main_v20) (funext fun a => Fin.ext ?_)
  match a with
  | ⟨0, _⟩ => show win0_2.index t 0 * 512 + 1 * p.val = 512 * i.val + p.val; rw [hi.1]; have := j.isLt; omega
  | ⟨1, _⟩ => show win0_2.index t 1 * 1 + 1 * u.val = 0; rw [hi.2]; omega

/-- The samples' labels' block at point t = 32 i + j is entries 1024 j … 1024 j + 1023 of the labels' row. -/
theorem tgtBlock_apply (c : Dev nD) (t : Fin cfg0.N) (i : Fin 8) (j : Fin 32) (e : t.val = 32 * i.val + j.val)
    (u : Fin 1) (q : Fin 1024) :
    (iblk0 V c 3 t : Vec F S1x1024 .i32) (ix2 u q) = V c main_v21 (ix2 0 (CenterMining.col j q)) := by
  have hi := index0_3 t
  unfold iblk0
  rw [View.read_apply]
  show V c main_v21 _ = V c main_v21 _
  refine congrArg (V c main_v21) (funext fun a => Fin.ext ?_)
  match a with
  | ⟨0, _⟩ => show win0_3.index t 0 * 1 + 1 * u.val = 0; rw [hi.1]; omega
  | ⟨1, _⟩ => show win0_3.index t 1 * 1024 + 1 * q.val = 1024 * j.val + q.val; rw [hi.2]; have := j.isLt; omega

end Cert.KernelIdeal.PassOne
-- ==== Proof.PassOneValue.lean ====
/-
  What the first pass leaves in its four output arrays, for any contents of its input arrays.

  A tile's entry (p, q) at point t = 32 i + j is the masked distance of center 512 i + p and sample 1024 j + q of the
  arrays. By induction on the point, after point 32 i + j each output block holds at row p the sum of its term over the
  samples of tiles 0 … j, accumulated tile by tile from the zero the first tile resets it to. The block is written back
  after tile 31, when that running value is the sum over all 32768 samples; every center's row lies in exactly such a
  block, so each output array ends holding, per center: the sum of the counted negative distances, their number, the sum
  of the counted positive distances, their number.
-/
import proofs.«106767_j16449724745480_1_alg».proof.Proof.Gen.KernelIdeal.Frame
import proofs.«106767_j16449724745480_1_alg».proof.Proof.CenterMining
import proofs.«106767_j16449724745480_1_alg».proof.Proof.Arrays
import proofs.«106767_j16449724745480_1_alg».proof.Proof.PassOneTile
import proofs.«106767_j16449724745480_1_alg».proof.Proof.PassOneBlocks
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.PassOne

open Cert.KernelIdeal Cert.KernelIdeal.Gen Cert.KernelIdeal.Arrays

variable (V : (c : Dev nD) → (b : Ref sig .tc) → Buf (Elt Ideal) ((c : Thread nD τ).loc b)) (c : Dev nD)

/-! ## A tile's entries are the arrays' -/

/-- The masked distance at (p, q) of the tile of point t = 32 i + j is the one of center 512 i + p and sample 1024 j + q. -/
theorem tileAn_eq (t : Fin cfg0.N) (i : Fin 8) (j : Fin 32) (e : t.val = 32 * i.val + j.val) (p : Fin 512) (q : Fin 1024) :
    tileAn (iblk0 V c 0 t) (iblk0 V c 1 t) (iblk0 V c 2 t) (iblk0 V c 3 t) p q
      = CenterMining.an (cenOf V c) (inpOf V c) (cidOf V c) (tgtOf V c) (row i p) (CenterMining.col j q) := by
  have e0 : (fun k => (iblk0 V c 0 t : Vec Ideal S512x256 .f32) (ix2 p k)) = cenOf V c (row i p) :=
    funext fun k => cenBlock_apply V c t i j e p k
  have e1 : (fun k => (iblk0 V c 1 t : Vec Ideal S1024x256 .f32) (ix2 q k)) = inpOf V c (CenterMining.col j q) :=
    funext fun k => inpBlock_apply V c t i j e q k
  have e2 : (iblk0 V c 2 t : Vec Ideal S512x1 .i32) (ix2 p 0) = cidOf V c (row i p) := cidBlock_apply V c t i j e p 0
  have e3 : (iblk0 V c 3 t : Vec Ideal S1x1024 .i32) (ix2 0 q) = tgtOf V c (CenterMining.col j q) := tgtBlock_apply V c t i j e 0 q
  unfold tileAn
  rw [e0, e1, e2, e3]
  rfl

/-- The same for the distance kept on the positive pairs. -/
theorem tileAp_eq (t : Fin cfg0.N) (i : Fin 8) (j : Fin 32) (e : t.val = 32 * i.val + j.val) (p : Fin 512) (q : Fin 1024) :
    tileAp (iblk0 V c 0 t) (iblk0 V c 1 t) (iblk0 V c 2 t) (iblk0 V c 3 t) p q
      = CenterMining.ap (cenOf V c) (inpOf V c) (cidOf V c) (tgtOf V c) (row i p) (CenterMining.col j q) := by
  have e0 : (fun k => (iblk0 V c 0 t : Vec Ideal S512x256 .f32) (ix2 p k)) = cenOf V c (row i p) :=
    funext fun k => cenBlock_apply V c t i j e p k
  have e1 : (fun k => (iblk0 V c 1 t : Vec Ideal S1024x256 .f32) (ix2 q k)) = inpOf V c (CenterMining.col j q) :=
    funext fun k => inpBlock_apply V c t i j e q k
  have e2 : (iblk0 V c 2 t : Vec Ideal S512x1 .i32) (ix2 p 0) = cidOf V c (row i p) := cidBlock_apply V c t i j e p 0
  have e3 : (iblk0 V c 3 t : Vec Ideal S1x1024 .i32) (ix2 0 q) = tgtOf V c (CenterMining.col j q) := tgtBlock_apply V c t i j e 0 q
  unfold tileAp
  rw [e0, e1, e2, e3]
  rfl

/-! ## The terms the four outputs sum, per center and sample -/

/-- The counted negative distance of center R to sample s (zero when the pair is positive or the distance not counted). -/
def keptAn (R : Fin 4096) (s : Fin 32768) : EReal :=
  CenterMining.kept (CenterMining.counts (CenterMining.an (cenOf V c) (inpOf V c) (cidOf V c) (tgtOf V c) R s))
    (CenterMining.an (cenOf V c) (inpOf V c) (cidOf V c) (tgtOf V c) R s)

/-- One when the negative distance of center R to sample s counts, zero otherwise. -/
def oneAn (R : Fin 4096) (s : Fin 32768) : EReal :=
  CenterMining.bit01 (CenterMining.counts (CenterMining.an (cenOf V c) (inpOf V c) (cidOf V c) (tgtOf V c) R s))

/-- The counted positive distance of center R to sample s. -/
def keptAp (R : Fin 4096) (s : Fin 32768) : EReal :=
  CenterMining.kept (CenterMining.counts (CenterMining.ap (cenOf V c) (inpOf V c) (cidOf V c) (tgtOf V c) R s))
    (CenterMining.ap (cenOf V c) (inpOf V c) (cidOf V c) (tgtOf V c) R s)

/-- One when the positive distance of center R to sample s counts, zero otherwise. -/
def oneAp (R : Fin 4096) (s : Fin 32768) : EReal :=
  CenterMining.bit01 (CenterMining.counts (CenterMining.ap (cenOf V c) (inpOf V c) (cidOf V c) (tgtOf V c) R s))

/-! ## The running sums, by induction on the point -/

/-- After point n = 32 i + j, output 4's block holds at row p the sum, accumulated tile by tile from zero over tiles
    0 … j, of the counted negative distances of center 512 i + p. -/
theorem sumAn_after (n : ℕ) : ∀ (h : n < cfg0.N) (i : Fin 8) (j : Fin 32), n = 32 * i.val + j.val → ∀ (p : Fin 512) (u : Fin 1),
    (outsAt0 V c n h).1 (ix2 p u) = CenterMining.tileAcc (keptAn V c (row i p)) j.val j.isLt := by
  induction n using Nat.strong_induction_on with
  | _ n ih =>
    intro h i j e p u
    obtain ⟨jv, hjv⟩ := j
    have term : ∀ q : Fin 1024,
        CenterMining.kept (k0_pay8 (F := Ideal) (iblk0 V c 0 ⟨n, h⟩) (iblk0 V c 1 ⟨n, h⟩) (iblk0 V c 2 ⟨n, h⟩) (iblk0 V c 3 ⟨n, h⟩) (ix2 p q))
            (k0_pay7 (F := Ideal) (iblk0 V c 0 ⟨n, h⟩) (iblk0 V c 1 ⟨n, h⟩) (iblk0 V c 2 ⟨n, h⟩) (iblk0 V c 3 ⟨n, h⟩) (ix2 p q))
          = keptAn V c (row i p) (CenterMining.col ⟨jv, hjv⟩ q) := fun q => by
      rw [anCounts_apply, an_apply, tileAn_eq V c ⟨n, h⟩ i ⟨jv, hjv⟩ e p q]
      rfl
    by_cases h0 : n % 32 = 0
    · obtain rfl : jv = 0 := by dsimp only at e; omega
      rw [outsAt0_A V c ⟨n, h⟩ h0]
      dsimp only
      rw [out_A_4]
      refine (sumAnStep_apply _ _ _ p u).trans ?_
      exact congrArg (CenterMining.lit 0x00000000#32 + ·) (Finset.sum_congr rfl fun q _ => term q)
    · cases jv with
      | zero => exfalso; dsimp only at e; omega
      | succ jv' =>
        have hn : n - 1 < n := by omega
        have IH := ih (n - 1) hn (Nat.lt_of_le_of_lt (Nat.sub_le _ _) h) i ⟨jv', Nat.lt_of_succ_lt hjv⟩ (by dsimp only at e ⊢; omega) p u
        rw [outsAt0_B V c ⟨n, h⟩ h0]
        dsimp only
        rw [out_B_4]
        refine (sumAnStep_apply _ _ _ p u).trans ?_
        rw [IH]
        exact congrArg (CenterMining.tileAcc (keptAn V c (row i p)) jv' (Nat.lt_of_succ_lt hjv) + ·)
          (Finset.sum_congr rfl fun q _ => term q)

/-- After point n = 32 i + j, output 5's block holds at row p the sum, accumulated tile by tile from zero over tiles
    0 … j, of the ones marking the counted negative distances of center 512 i + p. -/
theorem cntNeg_after (n : ℕ) : ∀ (h : n < cfg0.N) (i : Fin 8) (j : Fin 32), n = 32 * i.val + j.val → ∀ (p : Fin 512) (u : Fin 1),
    (outsAt0 V c n h).2.1 (ix2 p u) = CenterMining.tileAcc (oneAn V c (row i p)) j.val j.isLt := by
  induction n using Nat.strong_induction_on with
  | _ n ih =>
    intro h i j e p u
    obtain ⟨jv, hjv⟩ := j
    have term : ∀ q : Fin 1024,
        CenterMining.bit01 (k0_pay8 (F := Ideal) (iblk0 V c 0 ⟨n, h⟩) (iblk0 V c 1 ⟨n, h⟩) (iblk0 V c 2 ⟨n, h⟩) (iblk0 V c 3 ⟨n, h⟩) (ix2 p q))
          = oneAn V c (row i p) (CenterMining.col ⟨jv, hjv⟩ q) := fun q => by
      rw [anCounts_apply, tileAn_eq V c ⟨n, h⟩ i ⟨jv, hjv⟩ e p q]
      rfl
    by_cases h0 : n % 32 = 0
    · obtain rfl : jv = 0 := by dsimp only at e; omega
      rw [outsAt0_A V c ⟨n, h⟩ h0]
      dsimp only
      rw [out_A_5]
      refine (cntNegStep_apply _ _ p u).trans ?_
      exact congrArg (CenterMining.lit 0x00000000#32 + ·) (Finset.sum_congr rfl fun q _ => term q)
    · cases jv with
      | zero => exfalso; dsimp only at e; omega
      | succ jv' =>
        have hn : n - 1 < n := by omega
        have IH := ih (n - 1) hn (Nat.lt_of_le_of_lt (Nat.sub_le _ _) h) i ⟨jv', Nat.lt_of_succ_lt hjv⟩ (by dsimp only at e ⊢; omega) p u
        rw [outsAt0_B V c ⟨n, h⟩ h0]
        dsimp only
        rw [out_B_5]
        refine (cntNegStep_apply _ _ p u).trans ?_
        rw [IH]
        exact congrArg (CenterMining.tileAcc (oneAn V c (row i p)) jv' (Nat.lt_of_succ_lt hjv) + ·)
          (Finset.sum_congr rfl fun q _ => term q)

/-- After point n = 32 i + j, output 6's block holds at row p the sum, accumulated tile by tile from zero over tiles
    0 … j, of the counted positive distances of center 512 i + p. -/
theorem sumAp_after (n : ℕ) : ∀ (h : n < cfg0.N) (i : Fin 8) (j : Fin 32), n = 32 * i.val + j.val → ∀ (p : Fin 512) (u : Fin 1),
    (outsAt0 V c n h).2.2.1 (ix2 p u) = CenterMining.tileAcc (keptAp V c (row i p)) j.val j.isLt := by
  induction n using Nat.strong_induction_on with
  | _ n ih =>
    intro h i j e p u
    obtain ⟨jv, hjv⟩ := j
    have term : ∀ q : Fin 1024,
        CenterMining.kept (CenterMining.counts (Scalar.select (k0_pay6 (F := Ideal) (iblk0 V c 2 ⟨n, h⟩) (iblk0 V c 3 ⟨n, h⟩) (ix2 p q)) (CenterMining.lit 0x00000000#32) (k0_pay5 (F := Ideal) (iblk0 V c 0 ⟨n, h⟩) (iblk0 V c 1 ⟨n, h⟩) (ix2 p q))))
            (Scalar.select (k0_pay6 (F := Ideal) (iblk0 V c 2 ⟨n, h⟩) (iblk0 V c 3 ⟨n, h⟩) (ix2 p q)) (CenterMining.lit 0x00000000#32) (k0_pay5 (F := Ideal) (iblk0 V c 0 ⟨n, h⟩) (iblk0 V c 1 ⟨n, h⟩) (ix2 p q)))
          = keptAp V c (row i p) (CenterMining.col ⟨jv, hjv⟩ q) := fun q => by
      rw [negMask_apply, tile_apply]
      show CenterMining.kept (CenterMining.counts (tileAp (iblk0 V c 0 ⟨n, h⟩) (iblk0 V c 1 ⟨n, h⟩) (iblk0 V c 2 ⟨n, h⟩) (iblk0 V c 3 ⟨n, h⟩) p q)) (tileAp (iblk0 V c 0 ⟨n, h⟩) (iblk0 V c 1 ⟨n, h⟩) (iblk0 V c 2 ⟨n, h⟩) (iblk0 V c 3 ⟨n, h⟩) p q) = _
      rw [tileAp_eq V c ⟨n, h⟩ i ⟨jv, hjv⟩ e p q]
      rfl
    by_cases h0 : n % 32 = 0
    · obtain rfl : jv = 0 := by dsimp only at e; omega
      rw [outsAt0_A V c ⟨n, h⟩ h0]
      dsimp only
      rw [out_A_6]
      refine (sumApStep_apply _ _ _ p u).trans ?_
      exact congrArg (CenterMining.lit 0x00000000#32 + ·) (Finset.sum_congr rfl fun q _ => term q)
    · cases jv with
      | zero => exfalso; dsimp only at e; omega
      | succ jv' =>
        have hn : n - 1 < n := by omega
        have IH := ih (n - 1) hn (Nat.lt_of_le_of_lt (Nat.sub_le _ _) h) i ⟨jv', Nat.lt_of_succ_lt hjv⟩ (by dsimp only at e ⊢; omega) p u
        rw [outsAt0_B V c ⟨n, h⟩ h0]
        dsimp only
        rw [out_B_6]
        refine (sumApStep_apply _ _ _ p u).trans ?_
        rw [IH]
        exact congrArg (CenterMining.tileAcc (keptAp V c (row i p)) jv' (Nat.lt_of_succ_lt hjv) + ·)
          (Finset.sum_congr rfl fun q _ => term q)

/-- After point n = 32 i + j, output 7's block holds at row p the sum, accumulated tile by tile from zero over tiles
    0 … j, of the ones marking the counted positive distances of center 512 i + p. -/
theorem cntAp_after (n : ℕ) : ∀ (h : n < cfg0.N) (i : Fin 8) (j : Fin 32), n = 32 * i.val + j.val → ∀ (p : Fin 512) (u : Fin 1),
    (outsAt0 V c n h).2.2.2 (ix2 p u) = CenterMining.tileAcc (oneAp V c (row i p)) j.val j.isLt := by
  induction n using Nat.strong_induction_on with
  | _ n ih =>
    intro h i j e p u
    obtain ⟨jv, hjv⟩ := j
    have term : ∀ q : Fin 1024,
        CenterMining.bit01 (CenterMining.counts (Scalar.select (k0_pay6 (F := Ideal) (iblk0 V c 2 ⟨n, h⟩) (iblk0 V c 3 ⟨n, h⟩) (ix2 p q)) (CenterMining.lit 0x00000000#32) (k0_pay5 (F := Ideal) (iblk0 V c 0 ⟨n, h⟩) (iblk0 V c 1 ⟨n, h⟩) (ix2 p q))))
          = oneAp V c (row i p) (CenterMining.col ⟨jv, hjv⟩ q) := fun q => by
      rw [negMask_apply, tile_apply]
      show CenterMining.bit01 (CenterMining.counts (tileAp (iblk0 V c 0 ⟨n, h⟩) (iblk0 V c 1 ⟨n, h⟩) (iblk0 V c 2 ⟨n, h⟩) (iblk0 V c 3 ⟨n, h⟩) p q)) = _
      rw [tileAp_eq V c ⟨n, h⟩ i ⟨jv, hjv⟩ e p q]
      rfl
    by_cases h0 : n % 32 = 0
    · obtain rfl : jv = 0 := by dsimp only at e; omega
      rw [outsAt0_A V c ⟨n, h⟩ h0]
      dsimp only
      rw [out_A_7]
      refine (cntApStep_apply _ _ _ p u).trans ?_
      exact congrArg (CenterMining.lit 0x00000000#32 + ·) (Finset.sum_congr rfl fun q _ => term q)
    · cases jv with
      | zero => exfalso; dsimp only at e; omega
      | succ jv' =>
        have hn : n - 1 < n := by omega
        have IH := ih (n - 1) hn (Nat.lt_of_le_of_lt (Nat.sub_le _ _) h) i ⟨jv', Nat.lt_of_succ_lt hjv⟩ (by dsimp only at e ⊢; omega) p u
        rw [outsAt0_B V c ⟨n, h⟩ h0]
        dsimp only
        rw [out_B_7]
        refine (cntApStep_apply _ _ _ p u).trans ?_
        rw [IH]
        exact congrArg (CenterMining.tileAcc (oneAp V c (row i p)) jv' (Nat.lt_of_succ_lt hjv) + ·)
          (Finset.sum_congr rfl fun q _ => term q)

/-! ## The arrays the region leaves -/

/-! ### Output 4 -/

theorem sumAn_eq_sum (R : Fin 4096) :
    CenterMining.sumAn (cenOf V c) (inpOf V c) (cidOf V c) (tgtOf V c) R = ∑ s, keptAn V c R s := rfl

/-- Output 4 as an array: per center, the sum of its counted negative distances. -/
def sumAnArr : S4096x1.Idx → EReal := fun idx =>
  CenterMining.sumAn (cenOf V c) (inpOf V c) (cidOf V c) (tgtOf V c) ⟨(idx 0).val, idx2_lt0 idx⟩

theorem sumAnArr_apply (R : Fin 4096) (u : Fin 1) :
    sumAnArr V c (ix2 R u) = CenterMining.sumAn (cenOf V c) (inpOf V c) (cidOf V c) (tgtOf V c) R := rfl

/-- Output 4's block at a point of the i-th row of tiles, read off any [4096, 1] array: rows 512 i … 512 i + 511. -/
theorem outRead_4 (G : S4096x1.Idx → EReal) (t : Fin cfg0.N) (i : Fin 8) (e : t.val / 32 = i.val) (p : Fin 512) (u : Fin 1) :
    ((cfg0.win 4).blk t).view.read (Elt Ideal) G (ix2 p u) = G (ix2 (row i p) 0) := by
  have hi := index0_4 t
  rw [View.read_apply]
  show G _ = G _
  refine congrArg G (funext fun a => Fin.ext ?_)
  match a with
  | ⟨0, _⟩ => show win0_4.index t 0 * 512 + 1 * p.val = 512 * i.val + p.val; rw [hi.1, e]; omega
  | ⟨1, _⟩ => show win0_4.index t 1 * 1 + 1 * u.val = 0; rw [hi.2]; omega

/-- Every row of a [4096, 1] array lies in the block output 4 writes back after the last tile of its row of tiles. -/
theorem outCover_4 (idx : S4096x1.Idx) :
    ∃ t : Fin cfg0.N, (cfg0.win 4).flush t = true ∧ idx ∈ ((cfg0.win 4).blk t).view.set := by
  have hN : cfg0.N = 256 := N_0
  have h0 : (idx 0 : Nat) < 4096 := (idx 0).isLt
  have h1 : (idx 1 : Nat) < 1 := (idx 1).isLt
  have hlt : 32 * ((idx 0).val / 512) + 31 < cfg0.N := by omega
  have hi := index0_4 ⟨32 * ((idx 0).val / 512) + 31, hlt⟩
  refine ⟨⟨32 * ((idx 0).val / 512) + 31, hlt⟩, (flush0_4 _).mpr (by dsimp only; omega), ?_⟩
  show idx ∈ ((View.whole main_v22_0).slice (win0_4.rect ⟨32 * ((idx 0).val / 512) + 31, hlt⟩)).set
  rw [View.set_slice_whole, Rect.mem_set_unit]
  intro a
  match a with
  | ⟨0, _⟩ =>
    show win0_4.index ⟨32 * ((idx 0).val / 512) + 31, hlt⟩ 0 * 512 ≤ (idx 0 : Nat)
      ∧ (idx 0 : Nat) < win0_4.index ⟨32 * ((idx 0).val / 512) + 31, hlt⟩ 0 * 512 + 512
    rw [hi.1]; dsimp only; omega
  | ⟨1, _⟩ =>
    show win0_4.index ⟨32 * ((idx 0).val / 512) + 31, hlt⟩ 1 * 1 ≤ (idx 1 : Nat)
      ∧ (idx 1 : Nat) < win0_4.index ⟨32 * ((idx 0).val / 512) + 31, hlt⟩ 1 * 1 + 1
    rw [hi.2]; omega

/-- The block written back after the last tile of a row of tiles is the corresponding block of that array. -/
theorem sumAn_flushed (t : Fin cfg0.N) (hf : (cfg0.win 4).flush t = true) :
    (dat0 V c).flushed 4 t = ((cfg0.win 4).blk t).view.read (Elt Ideal) (sumAnArr V c) := by
  have hN : cfg0.N = 256 := N_0
  have h31 : t.val % 32 = 31 := (flush0_4 t).mp hf
  have ht := t.isLt
  refine funext fun (x : S512x1.Idx) => ?_
  obtain ⟨p, u, rfl⟩ : ∃ (p : Fin 512) (u : Fin 1), x = ix2 p u := ⟨x 0, x 1, eq_ix2 x⟩
  refine Eq.trans ?_ (outRead_4 (sumAnArr V c) t ⟨t.val / 32, by omega⟩ rfl p u).symm
  show (cfg0.win 4).cut (grid0.coords t) ((dat0 V c).after 4 t) (ix2 p u) = _
  rw [after0_4]
  show (outsAt0 V c t.val t.isLt).1 (ix2 p u) = _
  rw [sumAn_after V c t.val t.isLt ⟨t.val / 32, by omega⟩ ⟨31, by norm_num⟩ (by dsimp only; omega) p u,
    CenterMining.tileAcc_last, ← sumAn_eq_sum]
  exact (sumAnArr_apply V c _ 0).symm

/-- So the region leaves output 4 holding that array. -/
theorem sumAn_array : (dat0 V c).arrAt 4 cfg0.N = sumAnArr V c :=
  (dat0 V c).arrAt_eq_of_cover 4 (sumAnArr V c) (sumAn_flushed V c) (outCover_4)

/-- Output 4 after the first pass: per center, the sum of its counted negative distances. -/
theorem sumAn_arr (R : Fin 4096) :
    (dat0 (F := Ideal) V c).arrAt 4 cfg0.N (ix2 R 0)
      = CenterMining.sumAn (cenOf V c) (inpOf V c) (cidOf V c) (tgtOf V c) R :=
  (congrFun (sumAn_array V c) (ix2 R 0)).trans (sumAnArr_apply V c R 0)

/-! ### Output 5 -/

theorem cntNeg_eq_sum (R : Fin 4096) :
    CenterMining.cntNeg (cenOf V c) (inpOf V c) (cidOf V c) (tgtOf V c) R = ∑ s, oneAn V c R s := rfl

/-- Output 5 as an array: per center, the number of its counted negative distances. -/
def cntNegArr : S4096x1.Idx → EReal := fun idx =>
  CenterMining.cntNeg (cenOf V c) (inpOf V c) (cidOf V c) (tgtOf V c) ⟨(idx 0).val, idx2_lt0 idx⟩

theorem cntNegArr_apply (R : Fin 4096) (u : Fin 1) :
    cntNegArr V c (ix2 R u) = CenterMining.cntNeg (cenOf V c) (inpOf V c) (cidOf V c) (tgtOf V c) R := rfl

/-- Output 5's block at a point of the i-th row of tiles, read off any [4096, 1] array: rows 512 i … 512 i + 511. -/
theorem outRead_5 (G : S4096x1.Idx → EReal) (t : Fin cfg0.N) (i : Fin 8) (e : t.val / 32 = i.val) (p : Fin 512) (u : Fin 1) :
    ((cfg0.win 5).blk t).view.read (Elt Ideal) G (ix2 p u) = G (ix2 (row i p) 0) := by
  have hi := index0_5 t
  rw [View.read_apply]
  show G _ = G _
  refine congrArg G (funext fun a => Fin.ext ?_)
  match a with
  | ⟨0, _⟩ => show win0_5.index t 0 * 512 + 1 * p.val = 512 * i.val + p.val; rw [hi.1, e]; omega
  | ⟨1, _⟩ => show win0_5.index t 1 * 1 + 1 * u.val = 0; rw [hi.2]; omega

/-- Every row of a [4096, 1] array lies in the block output 5 writes back after the last tile of its row of tiles. -/
theorem outCover_5 (idx : S4096x1.Idx) :
    ∃ t : Fin cfg0.N, (cfg0.win 5).flush t = true ∧ idx ∈ ((cfg0.win 5).blk t).view.set := by
  have hN : cfg0.N = 256 := N_0
  have h0 : (idx 0 : Nat) < 4096 := (idx 0).isLt
  have h1 : (idx 1 : Nat) < 1 := (idx 1).isLt
  have hlt : 32 * ((idx 0).val / 512) + 31 < cfg0.N := by omega
  have hi := index0_5 ⟨32 * ((idx 0).val / 512) + 31, hlt⟩
  refine ⟨⟨32 * ((idx 0).val / 512) + 31, hlt⟩, (flush0_5 _).mpr (by dsimp only; omega), ?_⟩
  show idx ∈ ((View.whole main_v22_1).slice (win0_5.rect ⟨32 * ((idx 0).val / 512) + 31, hlt⟩)).set
  rw [View.set_slice_whole, Rect.mem_set_unit]
  intro a
  match a with
  | ⟨0, _⟩ =>
    show win0_5.index ⟨32 * ((idx 0).val / 512) + 31, hlt⟩ 0 * 512 ≤ (idx 0 : Nat)
      ∧ (idx 0 : Nat) < win0_5.index ⟨32 * ((idx 0).val / 512) + 31, hlt⟩ 0 * 512 + 512
    rw [hi.1]; dsimp only; omega
  | ⟨1, _⟩ =>
    show win0_5.index ⟨32 * ((idx 0).val / 512) + 31, hlt⟩ 1 * 1 ≤ (idx 1 : Nat)
      ∧ (idx 1 : Nat) < win0_5.index ⟨32 * ((idx 0).val / 512) + 31, hlt⟩ 1 * 1 + 1
    rw [hi.2]; omega

/-- The block written back after the last tile of a row of tiles is the corresponding block of that array. -/
theorem cntNeg_flushed (t : Fin cfg0.N) (hf : (cfg0.win 5).flush t = true) :
    (dat0 V c).flushed 5 t = ((cfg0.win 5).blk t).view.read (Elt Ideal) (cntNegArr V c) := by
  have hN : cfg0.N = 256 := N_0
  have h31 : t.val % 32 = 31 := (flush0_5 t).mp hf
  have ht := t.isLt
  refine funext fun (x : S512x1.Idx) => ?_
  obtain ⟨p, u, rfl⟩ : ∃ (p : Fin 512) (u : Fin 1), x = ix2 p u := ⟨x 0, x 1, eq_ix2 x⟩
  refine Eq.trans ?_ (outRead_5 (cntNegArr V c) t ⟨t.val / 32, by omega⟩ rfl p u).symm
  show (cfg0.win 5).cut (grid0.coords t) ((dat0 V c).after 5 t) (ix2 p u) = _
  rw [after0_5]
  show (outsAt0 V c t.val t.isLt).2.1 (ix2 p u) = _
  rw [cntNeg_after V c t.val t.isLt ⟨t.val / 32, by omega⟩ ⟨31, by norm_num⟩ (by dsimp only; omega) p u,
    CenterMining.tileAcc_last, ← cntNeg_eq_sum]
  exact (cntNegArr_apply V c _ 0).symm

/-- So the region leaves output 5 holding that array. -/
theorem cntNeg_array : (dat0 V c).arrAt 5 cfg0.N = cntNegArr V c :=
  (dat0 V c).arrAt_eq_of_cover 5 (cntNegArr V c) (cntNeg_flushed V c) (outCover_5)

/-- Output 5 after the first pass: per center, the number of its counted negative distances. -/
theorem cntNeg_arr (R : Fin 4096) :
    (dat0 (F := Ideal) V c).arrAt 5 cfg0.N (ix2 R 0)
      = CenterMining.cntNeg (cenOf V c) (inpOf V c) (cidOf V c) (tgtOf V c) R :=
  (congrFun (cntNeg_array V c) (ix2 R 0)).trans (cntNegArr_apply V c R 0)

/-! ### Output 6 -/

theorem sumAp_eq_sum (R : Fin 4096) :
    CenterMining.sumAp (cenOf V c) (inpOf V c) (cidOf V c) (tgtOf V c) R = ∑ s, keptAp V c R s := rfl

/-- Output 6 as an array: per center, the sum of its counted positive distances. -/
def sumApArr : S4096x1.Idx → EReal := fun idx =>
  CenterMining.sumAp (cenOf V c) (inpOf V c) (cidOf V c) (tgtOf V c) ⟨(idx 0).val, idx2_lt0 idx⟩

theorem sumApArr_apply (R : Fin 4096) (u : Fin 1) :
    sumApArr V c (ix2 R u) = CenterMining.sumAp (cenOf V c) (inpOf V c) (cidOf V c) (tgtOf V c) R := rfl

/-- Output 6's block at a point of the i-th row of tiles, read off any [4096, 1] array: rows 512 i … 512 i + 511. -/
theorem outRead_6 (G : S4096x1.Idx → EReal) (t : Fin cfg0.N) (i : Fin 8) (e : t.val / 32 = i.val) (p : Fin 512) (u : Fin 1) :
    ((cfg0.win 6).blk t).view.read (Elt Ideal) G (ix2 p u) = G (ix2 (row i p) 0) := by
  have hi := index0_6 t
  rw [View.read_apply]
  show G _ = G _
  refine congrArg G (funext fun a => Fin.ext ?_)
  match a with
  | ⟨0, _⟩ => show win0_6.index t 0 * 512 + 1 * p.val = 512 * i.val + p.val; rw [hi.1, e]; omega
  | ⟨1, _⟩ => show win0_6.index t 1 * 1 + 1 * u.val = 0; rw [hi.2]; omega

/-- Every row of a [4096, 1] array lies in the block output 6 writes back after the last tile of its row of tiles. -/
theorem outCover_6 (idx : S4096x1.Idx) :
    ∃ t : Fin cfg0.N, (cfg0.win 6).flush t = true ∧ idx ∈ ((cfg0.win 6).blk t).view.set := by
  have hN : cfg0.N = 256 := N_0
  have h0 : (idx 0 : Nat) < 4096 := (idx 0).isLt
  have h1 : (idx 1 : Nat) < 1 := (idx 1).isLt
  have hlt : 32 * ((idx 0).val / 512) + 31 < cfg0.N := by omega
  have hi := index0_6 ⟨32 * ((idx 0).val / 512) + 31, hlt⟩
  refine ⟨⟨32 * ((idx 0).val / 512) + 31, hlt⟩, (flush0_6 _).mpr (by dsimp only; omega), ?_⟩
  show idx ∈ ((View.whole main_v22_2).slice (win0_6.rect ⟨32 * ((idx 0).val / 512) + 31, hlt⟩)).set
  rw [View.set_slice_whole, Rect.mem_set_unit]
  intro a
  match a with
  | ⟨0, _⟩ =>
    show win0_6.index ⟨32 * ((idx 0).val / 512) + 31, hlt⟩ 0 * 512 ≤ (idx 0 : Nat)
      ∧ (idx 0 : Nat) < win0_6.index ⟨32 * ((idx 0).val / 512) + 31, hlt⟩ 0 * 512 + 512
    rw [hi.1]; dsimp only; omega
  | ⟨1, _⟩ =>
    show win0_6.index ⟨32 * ((idx 0).val / 512) + 31, hlt⟩ 1 * 1 ≤ (idx 1 : Nat)
      ∧ (idx 1 : Nat) < win0_6.index ⟨32 * ((idx 0).val / 512) + 31, hlt⟩ 1 * 1 + 1
    rw [hi.2]; omega

/-- The block written back after the last tile of a row of tiles is the corresponding block of that array. -/
theorem sumAp_flushed (t : Fin cfg0.N) (hf : (cfg0.win 6).flush t = true) :
    (dat0 V c).flushed 6 t = ((cfg0.win 6).blk t).view.read (Elt Ideal) (sumApArr V c) := by
  have hN : cfg0.N = 256 := N_0
  have h31 : t.val % 32 = 31 := (flush0_6 t).mp hf
  have ht := t.isLt
  refine funext fun (x : S512x1.Idx) => ?_
  obtain ⟨p, u, rfl⟩ : ∃ (p : Fin 512) (u : Fin 1), x = ix2 p u := ⟨x 0, x 1, eq_ix2 x⟩
  refine Eq.trans ?_ (outRead_6 (sumApArr V c) t ⟨t.val / 32, by omega⟩ rfl p u).symm
  show (cfg0.win 6).cut (grid0.coords t) ((dat0 V c).after 6 t) (ix2 p u) = _
  rw [after0_6]
  show (outsAt0 V c t.val t.isLt).2.2.1 (ix2 p u) = _
  rw [sumAp_after V c t.val t.isLt ⟨t.val / 32, by omega⟩ ⟨31, by norm_num⟩ (by dsimp only; omega) p u,
    CenterMining.tileAcc_last, ← sumAp_eq_sum]
  exact (sumApArr_apply V c _ 0).symm

/-- So the region leaves output 6 holding that array. -/
theorem sumAp_array : (dat0 V c).arrAt 6 cfg0.N = sumApArr V c :=
  (dat0 V c).arrAt_eq_of_cover 6 (sumApArr V c) (sumAp_flushed V c) (outCover_6)

/-- Output 6 after the first pass: per center, the sum of its counted positive distances. -/
theorem sumAp_arr (R : Fin 4096) :
    (dat0 (F := Ideal) V c).arrAt 6 cfg0.N (ix2 R 0)
      = CenterMining.sumAp (cenOf V c) (inpOf V c) (cidOf V c) (tgtOf V c) R :=
  (congrFun (sumAp_array V c) (ix2 R 0)).trans (sumApArr_apply V c R 0)

/-! ### Output 7 -/

theorem cntAp_eq_sum (R : Fin 4096) :
    CenterMining.cntAp (cenOf V c) (inpOf V c) (cidOf V c) (tgtOf V c) R = ∑ s, oneAp V c R s := rfl

/-- Output 7 as an array: per center, the number of its counted positive distances. -/
def cntApArr : S4096x1.Idx → EReal := fun idx =>
  CenterMining.cntAp (cenOf V c) (inpOf V c) (cidOf V c) (tgtOf V c) ⟨(idx 0).val, idx2_lt0 idx⟩

theorem cntApArr_apply (R : Fin 4096) (u : Fin 1) :
    cntApArr V c (ix2 R u) = CenterMining.cntAp (cenOf V c) (inpOf V c) (cidOf V c) (tgtOf V c) R := rfl

/-- Output 7's block at a point of the i-th row of tiles, read off any [4096, 1] array: rows 512 i … 512 i + 511. -/
theorem outRead_7 (G : S4096x1.Idx → EReal) (t : Fin cfg0.N) (i : Fin 8) (e : t.val / 32 = i.val) (p : Fin 512) (u : Fin 1) :
    ((cfg0.win 7).blk t).view.read (Elt Ideal) G (ix2 p u) = G (ix2 (row i p) 0) := by
  have hi := index0_7 t
  rw [View.read_apply]
  show G _ = G _
  refine congrArg G (funext fun a => Fin.ext ?_)
  match a with
  | ⟨0, _⟩ => show win0_7.index t 0 * 512 + 1 * p.val = 512 * i.val + p.val; rw [hi.1, e]; omega
  | ⟨1, _⟩ => show win0_7.index t 1 * 1 + 1 * u.val = 0; rw [hi.2]; omega

/-- Every row of a [4096, 1] array lies in the block output 7 writes back after the last tile of its row of tiles. -/
theorem outCover_7 (idx : S4096x1.Idx) :
    ∃ t : Fin cfg0.N, (cfg0.win 7).flush t = true ∧ idx ∈ ((cfg0.win 7).blk t).view.set := by
  have hN : cfg0.N = 256 := N_0
  have h0 : (idx 0 : Nat) < 4096 := (idx 0).isLt
  have h1 : (idx 1 : Nat) < 1 := (idx 1).isLt
  have hlt : 32 * ((idx 0).val / 512) + 31 < cfg0.N := by omega
  have hi := index0_7 ⟨32 * ((idx 0).val / 512) + 31, hlt⟩
  refine ⟨⟨32 * ((idx 0).val / 512) + 31, hlt⟩, (flush0_7 _).mpr (by dsimp only; omega), ?_⟩
  show idx ∈ ((View.whole main_v22_3).slice (win0_7.rect ⟨32 * ((idx 0).val / 512) + 31, hlt⟩)).set
  rw [View.set_slice_whole, Rect.mem_set_unit]
  intro a
  match a with
  | ⟨0, _⟩ =>
    show win0_7.index ⟨32 * ((idx 0).val / 512) + 31, hlt⟩ 0 * 512 ≤ (idx 0 : Nat)
      ∧ (idx 0 : Nat) < win0_7.index ⟨32 * ((idx 0).val / 512) + 31, hlt⟩ 0 * 512 + 512
    rw [hi.1]; dsimp only; omega
  | ⟨1, _⟩ =>
    show win0_7.index ⟨32 * ((idx 0).val / 512) + 31, hlt⟩ 1 * 1 ≤ (idx 1 : Nat)
      ∧ (idx 1 : Nat) < win0_7.index ⟨32 * ((idx 0).val / 512) + 31, hlt⟩ 1 * 1 + 1
    rw [hi.2]; omega

/-- The block written back after the last tile of a row of tiles is the corresponding block of that array. -/
theorem cntAp_flushed (t : Fin cfg0.N) (hf : (cfg0.win 7).flush t = true) :
    (dat0 V c).flushed 7 t = ((cfg0.win 7).blk t).view.read (Elt Ideal) (cntApArr V c) := by
  have hN : cfg0.N = 256 := N_0
  have h31 : t.val % 32 = 31 := (flush0_7 t).mp hf
  have ht := t.isLt
  refine funext fun (x : S512x1.Idx) => ?_
  obtain ⟨p, u, rfl⟩ : ∃ (p : Fin 512) (u : Fin 1), x = ix2 p u := ⟨x 0, x 1, eq_ix2 x⟩
  refine Eq.trans ?_ (outRead_7 (cntApArr V c) t ⟨t.val / 32, by omega⟩ rfl p u).symm
  show (cfg0.win 7).cut (grid0.coords t) ((dat0 V c).after 7 t) (ix2 p u) = _
  rw [after0_7]
  show (outsAt0 V c t.val t.isLt).2.2.2 (ix2 p u) = _
  rw [cntAp_after V c t.val t.isLt ⟨t.val / 32, by omega⟩ ⟨31, by norm_num⟩ (by dsimp only; omega) p u,
    CenterMining.tileAcc_last, ← cntAp_eq_sum]
  exact (cntApArr_apply V c _ 0).symm

/-- So the region leaves output 7 holding that array. -/
theorem cntAp_array : (dat0 V c).arrAt 7 cfg0.N = cntApArr V c :=
  (dat0 V c).arrAt_eq_of_cover 7 (cntApArr V c) (cntAp_flushed V c) (outCover_7)

/-- Output 7 after the first pass: per center, the number of its counted positive distances. -/
theorem cntAp_arr (R : Fin 4096) :
    (dat0 (F := Ideal) V c).arrAt 7 cfg0.N (ix2 R 0)
      = CenterMining.cntAp (cenOf V c) (inpOf V c) (cidOf V c) (tgtOf V c) R :=
  (congrFun (cntAp_array V c) (ix2 R 0)).trans (cntApArr_apply V c R 0)

end Cert.KernelIdeal.PassOne
-- ==== Proof.PassTwoBlocks.lean ====
/-
  Where the second pass's blocks sit in the arrays.

  The pass walks an 8 × 32 grid, step `t` being tile `t % 32` of the row of tiles `t / 32`. At step `t` it sees rows
  `512 (t / 32) … 512 (t / 32) + 511` of the centers, of their labels and of the threshold, and rows
  `1024 (t % 32) … 1024 (t % 32) + 1023` of the samples and of their labels. Each lemma reads one entry of one block as the
  entry of the array it is: an entry's coordinate in the array is the block's position times the block's extent plus the
  coordinate inside the block, and the positions are decided once over the 256 steps.
-/
import proofs.«106767_j16449724745480_1_alg».proof.Proof.Gen.KernelIdeal.Frame
import proofs.«106767_j16449724745480_1_alg».proof.Proof.Arrays
import Idealize.ShloMosaic.Lib.ValueIdx
import Idealize.ShloMosaic.Lib.Pipeline.Value

noncomputable section

open Idealize.ShloMosaic Idealize.ShloMosaic.TcCoe Idealize.ShloMosaic.ValueIdx
open Idealize.ShloMosaic.Pipeline (Dat)

namespace Cert.KernelIdeal.PassTwo

open Cert.KernelIdeal Cert.KernelIdeal.Gen Cert.KernelIdeal.Arrays

variable (V : (c : Dev nD) → (b : Ref sig .tc) → Buf (Elt Ideal) ((c : Thread nD τ).loc b)) (c : Dev nD)

/-- Where each window's block sits at step `t` of the 8 × 32 grid: the blocks of centers, of their labels, of the
    threshold and of the two result columns move with the row of tiles `t / 32`, the blocks of samples and of their labels
    with the tile `t % 32` inside the row. -/
theorem block_positions : ∀ t : Fin cfg1.N,
    win1_0.index t (0 : Fin 2) = t.val / 32 ∧ win1_0.index t (1 : Fin 2) = 0
    ∧ win1_1.index t (0 : Fin 2) = t.val % 32 ∧ win1_1.index t (1 : Fin 2) = 0
    ∧ win1_2.index t (0 : Fin 2) = t.val / 32 ∧ win1_2.index t (1 : Fin 2) = 0
    ∧ win1_3.index t (0 : Fin 2) = 0 ∧ win1_3.index t (1 : Fin 2) = t.val % 32
    ∧ win1_4.index t (0 : Fin 2) = t.val / 32 ∧ win1_4.index t (1 : Fin 2) = 0
    ∧ win1_5.index t (0 : Fin 2) = t.val / 32 ∧ win1_5.index t (1 : Fin 2) = 0
    ∧ win1_6.index t (0 : Fin 2) = t.val / 32 ∧ win1_6.index t (1 : Fin 2) = 0 :=
  (by decide +kernel : ∀ t : Fin grid1.N, _)

/-- Entry `(p, k)` of the block of centers at step `t` is lane `k` of center `512 (t / 32) + p`. -/
theorem cenBlock_apply (t : Fin cfg1.N) (p : Fin 512) (k : Fin 256) (R : Fin 4096) (hR : R.val = 512 * (t.val / 32) + p.val) :
    iblk1 V c 0 t (ix2 p k) = cenOf V c R k := by
  unfold iblk1
  rw [View.read_apply]
  show V c main_v9 _ = V c main_v9 (ix2 R k)
  refine congrArg (V c main_v9) (funext fun a => Fin.ext ?_)
  obtain ⟨e0, e1, -⟩ := block_positions t
  match a with
  | ⟨0, _⟩ => show win1_0.index t (0 : Fin 2) * 512 + 1 * p.val = R.val; rw [e0, hR]; omega
  | ⟨1, _⟩ => show win1_0.index t (1 : Fin 2) * 256 + 1 * k.val = k.val; rw [e1]; omega

/-- Entry `(q, k)` of the block of samples at step `t` is lane `k` of sample `1024 (t % 32) + q`. -/
theorem inpBlock_apply (t : Fin cfg1.N) (q : Fin 1024) (k : Fin 256) (C : Fin 32768) (hC : C.val = 1024 * (t.val % 32) + q.val) :
    iblk1 V c 1 t (ix2 q k) = inpOf V c C k := by
  unfold iblk1
  rw [View.read_apply]
  show V c main_arg0 _ = V c main_arg0 (ix2 C k)
  refine congrArg (V c main_arg0) (funext fun a => Fin.ext ?_)
  obtain ⟨-, -, e0, e1, -⟩ := block_positions t
  match a with
  | ⟨0, _⟩ => show win1_1.index t (0 : Fin 2) * 1024 + 1 * q.val = C.val; rw [e0, hC]; omega
  | ⟨1, _⟩ => show win1_1.index t (1 : Fin 2) * 256 + 1 * k.val = k.val; rw [e1]; omega

/-- Entry `(p, 0)` of the block of the centers' labels at step `t` is the label of center `512 (t / 32) + p`. -/
theorem cidBlock_apply (t : Fin cfg1.N) (p : Fin 512) (R : Fin 4096) (hR : R.val = 512 * (t.val / 32) + p.val) :
    iblk1 V c 2 t (ix2 p (0 : Fin 1)) = cidOf V c R := by
  unfold iblk1
  rw [View.read_apply]
  show V c main_v20 _ = V c main_v20 (ix2 R 0)
  refine congrArg (V c main_v20) (funext fun a => Fin.ext ?_)
  obtain ⟨-, -, -, -, e0, e1, -⟩ := block_positions t
  match a with
  | ⟨0, _⟩ => show win1_2.index t (0 : Fin 2) * 512 + 1 * p.val = R.val; rw [e0, hR]; omega
  | ⟨1, _⟩ => show win1_2.index t (1 : Fin 2) * 1 + 1 * 0 = 0; rw [e1]

/-- Entry `(0, q)` of the block of the samples' labels at step `t` is the label of sample `1024 (t % 32) + q`. -/
theorem tgtBlock_apply (t : Fin cfg1.N) (q : Fin 1024) (C : Fin 32768) (hC : C.val = 1024 * (t.val % 32) + q.val) :
    iblk1 V c 3 t (ix2 (0 : Fin 1) q) = tgtOf V c C := by
  unfold iblk1
  rw [View.read_apply]
  show V c main_v21 _ = V c main_v21 (ix2 0 C)
  refine congrArg (V c main_v21) (funext fun a => Fin.ext ?_)
  obtain ⟨-, -, -, -, -, -, e0, e1, -⟩ := block_positions t
  match a with
  | ⟨0, _⟩ => show win1_3.index t (0 : Fin 2) * 1 + 1 * 0 = 0; rw [e0]
  | ⟨1, _⟩ => show win1_3.index t (1 : Fin 2) * 1024 + 1 * q.val = C.val; rw [e1, hC]; omega

/-- Entry `(p, 0)` of the block of the threshold at step `t` is the threshold of center `512 (t / 32) + p`. -/
theorem thrBlock_apply (t : Fin cfg1.N) (p : Fin 512) (R : Fin 4096) (hR : R.val = 512 * (t.val / 32) + p.val) :
    iblk1 V c 4 t (ix2 p (0 : Fin 1)) = thrOf V c R := by
  unfold iblk1
  rw [View.read_apply]
  show V c main_v23 _ = V c main_v23 (ix2 R 0)
  refine congrArg (V c main_v23) (funext fun a => Fin.ext ?_)
  obtain ⟨-, -, -, -, -, -, -, -, e0, e1, -⟩ := block_positions t
  match a with
  | ⟨0, _⟩ => show win1_4.index t (0 : Fin 2) * 512 + 1 * p.val = R.val; rw [e0, hR]; omega
  | ⟨1, _⟩ => show win1_4.index t (1 : Fin 2) * 1 + 1 * 0 = 0; rw [e1]

end Cert.KernelIdeal.PassTwo

end
-- ==== Proof.PassTwoPieces.lean ====
/-
  What one step of the second pass leaves in its two running columns, as the step's arithmetic of what it read.

  A step reads its block of centers, of samples, of the two label arrays and of the threshold, and — except at the first
  tile of a row of tiles — the two running columns as the step before left them. At the first tile it first stores a
  column of zeros into each and reads that back. Either way each column ends as one whole-column store: the previous
  column (or the zeros) plus this tile's row sums, over the masked tile of distances and the mask of counted entries
  that the step computed from its input blocks. These four equations hold for any float model.
-/
import proofs.«106767_j16449724745480_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PassTwo

open Cert.KernelIdeal Cert.KernelIdeal.Gen

variable {F : FTy → Type} [FloatOps F]

/-- The offset of a whole-column store: zero on both axes. -/
theorem hz : (![0, 0] : Fin 2 → Nat) = fun _ => 0 := funext fun a => by fin_cases a <;> rfl

/-- Away from the first tile of a row: the column of sums is the previous column plus this tile's row sums. -/
theorem out_B_5 (c : Dev nD) (i : grid1.Coords)
    (a2 : Memref sig .tc .vmem S512x256 .f32) (h2 : a2.IsWhole) (a3 : Memref sig .tc .vmem S1024x256 .f32) (h3 : a3.IsWhole)
    (a4 : Memref sig .tc .vmem S512x1 .i32) (h4 : a4.IsWhole) (a5 : Memref sig .tc .vmem S1x1024 .i32) (h5 : a5.IsWhole)
    (a6 : Memref sig .tc .vmem S512x1 .f32) (h6 : a6.IsWhole) (a7 : Memref sig .tc .vmem S512x1 .f32) (h7 : a7.IsWhole)
    (a8 : Memref sig .tc .vmem S512x1 .f32) (h8 : a8.IsWhole) (hc : ¬cond1_0 i)
    (x0 : Vec F S512x256 .f32) (x1 : Vec F S1024x256 .f32) (x2 : Vec F S512x1 .i32) (x3 : Vec F S1x1024 .i32)
    (x4 : Vec F S512x1 .f32) (xo5 xo6 : Vec F S512x1 .f32) :
    out1_B_5 c i a2 h2 a3 h3 a4 h4 a5 h5 a6 h6 a7 h7 a8 h8 hc x0 x1 x2 x3 x4 xo5 xo6
      = k1_pay2 (k1_pay6 x0 x1 x2 x3) (k1_pay7 x0 x1 x2 x3) x4 xo5 := by
  unfold out1_B_5
  rw [View.read_writes_eq_canon _ _ _ (cover1_B_5 c i a2 h2 a3 h3 a4 h4 a5 h5 a6 h6 a7 h7 a8 h8 hc x0 x1 x2 x3 x4 xo5 xo6)]
  unfold kernelRun1_B
  dsimp only
  sl_unfold_words
  rw [View.canon_unit_zero hz]
  simp only [View.readAt_eq_ld, h2.read_unread, h3.read_unread, h4.read_unread, h5.read_unread, h6.read_unread, h7.read_unread, h8.read_unread,
    View.ld_unit_zero (S := S512x256) hz, View.ld_unit_zero (S := S1024x256) hz, View.ld_unit_zero (S := S512x1) hz, View.ld_unit_zero (S := S1x1024) hz]

/-- Away from the first tile of a row: the column of counts is the previous column plus this tile's row counts. -/
theorem out_B_6 (c : Dev nD) (i : grid1.Coords)
    (a2 : Memref sig .tc .vmem S512x256 .f32) (h2 : a2.IsWhole) (a3 : Memref sig .tc .vmem S1024x256 .f32) (h3 : a3.IsWhole)
    (a4 : Memref sig .tc .vmem S512x1 .i32) (h4 : a4.IsWhole) (a5 : Memref sig .tc .vmem S1x1024 .i32) (h5 : a5.IsWhole)
    (a6 : Memref sig .tc .vmem S512x1 .f32) (h6 : a6.IsWhole) (a7 : Memref sig .tc .vmem S512x1 .f32) (h7 : a7.IsWhole)
    (a8 : Memref sig .tc .vmem S512x1 .f32) (h8 : a8.IsWhole) (hc : ¬cond1_0 i)
    (x0 : Vec F S512x256 .f32) (x1 : Vec F S1024x256 .f32) (x2 : Vec F S512x1 .i32) (x3 : Vec F S1x1024 .i32)
    (x4 : Vec F S512x1 .f32) (xo5 xo6 : Vec F S512x1 .f32) :
    out1_B_6 c i a2 h2 a3 h3 a4 h4 a5 h5 a6 h6 a7 h7 a8 h8 hc x0 x1 x2 x3 x4 xo5 xo6
      = k1_pay3 (k1_pay6 x0 x1 x2 x3) (k1_pay7 x0 x1 x2 x3) x4 xo6 := by
  unfold out1_B_6
  rw [View.read_writes_eq_canon _ _ _ (cover1_B_6 c i a2 h2 a3 h3 a4 h4 a5 h5 a6 h6 a7 h7 a8 h8 hc x0 x1 x2 x3 x4 xo5 xo6)]
  unfold kernelRun1_B
  dsimp only
  sl_unfold_words
  rw [View.canon_unit_zero hz]
  simp only [View.readAt_eq_ld, h2.read_unread, h3.read_unread, h4.read_unread, h5.read_unread, h6.read_unread, h7.read_unread, h8.read_unread,
    View.ld_unit_zero (S := S512x256) hz, View.ld_unit_zero (S := S1024x256) hz, View.ld_unit_zero (S := S512x1) hz, View.ld_unit_zero (S := S1x1024) hz]

/-- At the first tile of a row: the column of sums is the column of zeros plus this tile's row sums. -/
theorem out_A_5 (c : Dev nD) (i : grid1.Coords)
    (a2 : Memref sig .tc .vmem S512x256 .f32) (h2 : a2.IsWhole) (a3 : Memref sig .tc .vmem S1024x256 .f32) (h3 : a3.IsWhole)
    (a4 : Memref sig .tc .vmem S512x1 .i32) (h4 : a4.IsWhole) (a5 : Memref sig .tc .vmem S1x1024 .i32) (h5 : a5.IsWhole)
    (a6 : Memref sig .tc .vmem S512x1 .f32) (h6 : a6.IsWhole) (a7 : Memref sig .tc .vmem S512x1 .f32) (h7 : a7.IsWhole)
    (a8 : Memref sig .tc .vmem S512x1 .f32) (h8 : a8.IsWhole) (hc : cond1_0 i)
    (x0 : Vec F S512x256 .f32) (x1 : Vec F S1024x256 .f32) (x2 : Vec F S512x1 .i32) (x3 : Vec F S1x1024 .i32)
    (x4 : Vec F S512x1 .f32) :
    out1_A_5 c i a2 h2 a3 h3 a4 h4 a5 h5 a6 h6 a7 h7 a8 h8 hc x0 x1 x2 x3 x4
      = k1_pay2 (k1_pay6 x0 x1 x2 x3) (k1_pay7 x0 x1 x2 x3) x4 (k1_pay4 (F := F)) := by
  unfold out1_A_5
  rw [View.read_writes_eq_canon _ _ _ (cover1_A_5 c i a2 h2 a3 h3 a4 h4 a5 h5 a6 h6 a7 h7 a8 h8 hc x0 x1 x2 x3 x4)]
  unfold kernelRun1_A
  dsimp only
  sl_unfold_words
  rw [View.canon_cons_unit_zero (S := S512x1) hz, View.readCov_unit_zero (S := S512x1) _ hz]
  simp only [View.readAt_eq_ld, h2.read_unread, h3.read_unread, h4.read_unread, h5.read_unread, h6.read_unread, h7.read_unread, h8.read_unread,
    View.ld_unit_zero (S := S512x256) hz, View.ld_unit_zero (S := S1024x256) hz, View.ld_unit_zero (S := S512x1) hz, View.ld_unit_zero (S := S1x1024) hz]

/-- At the first tile of a row: the column of counts is the column of zeros plus this tile's row counts. -/
theorem out_A_6 (c : Dev nD) (i : grid1.Coords)
    (a2 : Memref sig .tc .vmem S512x256 .f32) (h2 : a2.IsWhole) (a3 : Memref sig .tc .vmem S1024x256 .f32) (h3 : a3.IsWhole)
    (a4 : Memref sig .tc .vmem S512x1 .i32) (h4 : a4.IsWhole) (a5 : Memref sig .tc .vmem S1x1024 .i32) (h5 : a5.IsWhole)
    (a6 : Memref sig .tc .vmem S512x1 .f32) (h6 : a6.IsWhole) (a7 : Memref sig .tc .vmem S512x1 .f32) (h7 : a7.IsWhole)
    (a8 : Memref sig .tc .vmem S512x1 .f32) (h8 : a8.IsWhole) (hc : cond1_0 i)
    (x0 : Vec F S512x256 .f32) (x1 : Vec F S1024x256 .f32) (x2 : Vec F S512x1 .i32) (x3 : Vec F S1x1024 .i32)
    (x4 : Vec F S512x1 .f32) :
    out1_A_6 c i a2 h2 a3 h3 a4 h4 a5 h5 a6 h6 a7 h7 a8 h8 hc x0 x1 x2 x3 x4
      = k1_pay3 (k1_pay6 x0 x1 x2 x3) (k1_pay7 x0 x1 x2 x3) x4 (k1_pay5 (F := F)) := by
  unfold out1_A_6
  rw [View.read_writes_eq_canon _ _ _ (cover1_A_6 c i a2 h2 a3 h3 a4 h4 a5 h5 a6 h6 a7 h7 a8 h8 hc x0 x1 x2 x3 x4)]
  unfold kernelRun1_A
  dsimp only
  sl_unfold_words
  rw [View.canon_cons_unit_zero (S := S512x1) hz, View.readCov_unit_zero (S := S512x1) _ hz]
  simp only [View.readAt_eq_ld, h2.read_unread, h3.read_unread, h4.read_unread, h5.read_unread, h6.read_unread, h7.read_unread, h8.read_unread,
    View.ld_unit_zero (S := S512x256) hz, View.ld_unit_zero (S := S1024x256) hz, View.ld_unit_zero (S := S512x1) hz, View.ld_unit_zero (S := S1x1024) hz]

end Cert.KernelIdeal.PassTwo

end
-- ==== Proof.PassTwoColumns.lean ====
/-
  One step of the second pass, read at a row: its arithmetic on a tile and two running columns.

  Given a 512 × 1024 tile `T` of masked distances, the mask `M` of its counted entries, the column `thr` of per-row
  thresholds and a running column `prev`, the step forms the mask of HARD entries (counted, and below the row's
  threshold), and adds to row `p` of the running column either the sum of the row's hard entries or their number.
  Read at row `p`, the new columns are `prev p + Σ_q kept (hard p q) (T p q)` and `prev p + Σ_q bit01 (hard p q)`:
  a shape cast that changes nothing, a column broadcast along the rows, pointwise comparisons and selections, a sum over
  the 1024 lanes of a row, and the vector of row sums written as a column.
-/
import proofs.«106767_j16449724745480_1_alg».proof.Proof.Gen.KernelIdeal.Skeleton
import proofs.«106767_j16449724745480_1_alg».proof.Proof.CenterMining
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.PassTwo

open Cert.KernelIdeal Cert.KernelIdeal.Gen

/-! ## Two column layouts read at an index -/

section Layout
variable {α : Type}

/-- A vector cast to a column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The step's arithmetic at an entry -/

/-- The hard-negative mask at entry `(p, q)` of a tile: the entry is counted, and lies below its row's threshold. -/
theorem hardMask_apply (T : FVec Ideal S512x1024 .f32) (M : IVec S512x1024 1) (thr : Vec Ideal S512x1 .f32)
    (p : Fin 512) (q : Fin 1024) :
    k1_pay1 T M thr (ix2 p q) = IntOp.andi (M (ix2 p q)) (Ideal.cmp .olt (T (ix2 p q)) (thr (ix2 p (0 : Fin 1)))) := by
  unfold k1_pay1
  rw [shapeCast_self]
  show IntOp.andi (M (ix2 p q)) (Ideal.cmp .olt (T (ix2 p q)) (broadcastTo S512x1024 thr broadcasts_S512x1_S512x1024 (ix2 p q))) = _
  rw [broadcastTo_a1_ab_apply]

/-- The lane sum of a tile at row `p`: the sum of the row's 1024 entries. -/
theorem rowSum_apply (X : FVec Ideal S512x1024 .f32) (hacc : (0x00000000#32 : BitVec 32) = 0x00000000#32) (p : Fin 512) :
    multiReduction (F := Ideal) .add [1] S512 X 0x00000000#32 reduces_S512x1024_S512 (.inl rfl) hacc (ix1 p)
      = ∑ q : Fin 1024, X (ix2 p q) :=
  (Ideal.multiReduction_add_single X 0x00000000#32 reduces_S512x1024_S512 (.inl rfl) hacc (ix1 p)).trans
    (Finset.sum_congr rfl fun q _ => congrArg X (funext fun a => match a with | ⟨0, _⟩ => rfl | ⟨1, _⟩ => rfl))

/-- The column of sums after a step, at row `p`: what the column held, plus the row's hard negatives. -/
theorem sumColumn_apply (T : FVec Ideal S512x1024 .f32) (M : IVec S512x1024 1) (thr prev : Vec Ideal S512x1 .f32) (p : Fin 512) :
    k1_pay2 T M thr prev (ix2 p (0 : Fin 1))
      = prev (ix2 p (0 : Fin 1)) + ∑ q : Fin 1024,
          CenterMining.kept (IntOp.andi (M (ix2 p q)) (Ideal.cmp .olt (T (ix2 p q)) (thr (ix2 p (0 : Fin 1))))) (T (ix2 p q)) := by
  unfold k1_pay2
  dsimp only
  rw [shapeCast_self]
  refine congrArg (fun z => prev (ix2 p (0 : Fin 1)) + z) ?_
  refine (shapeCast_a_a1_apply _ shapeCasts_S512_S512x1 p (0 : Fin 1)).trans ?_
  refine (rowSum_apply _ rfl p).trans ?_
  refine Finset.sum_congr rfl fun q _ => ?_
  show Scalar.select (k1_pay1 T M thr (ix2 p q)) (T (ix2 p q)) (CenterMining.lit 0x00000000#32) = _
  rw [hardMask_apply]
  rfl

/-- The column of counts after a step, at row `p`: what the column held, plus the number of the row's hard negatives. -/
theorem cntColumn_apply (T : FVec Ideal S512x1024 .f32) (M : IVec S512x1024 1) (thr prev : Vec Ideal S512x1 .f32) (p : Fin 512) :
    k1_pay3 T M thr prev (ix2 p (0 : Fin 1))
      = prev (ix2 p (0 : Fin 1)) + ∑ q : Fin 1024,
          CenterMining.bit01 (IntOp.andi (M (ix2 p q)) (Ideal.cmp .olt (T (ix2 p q)) (thr (ix2 p (0 : Fin 1))))) := by
  unfold k1_pay3
  dsimp only
  rw [shapeCast_self]
  refine congrArg (fun z => prev (ix2 p (0 : Fin 1)) + z) ?_
  refine (shapeCast_a_a1_apply _ shapeCasts_S512_S512x1 p (0 : Fin 1)).trans ?_
  refine (rowSum_apply _ rfl p).trans ?_
  refine Finset.sum_congr rfl fun q _ => ?_
  show CenterMining.bit01 (k1_pay1 T M thr (ix2 p q)) = _
  rw [hardMask_apply]

/-- The two columns of zeros the first tile of a row stores are zero at every row. -/
theorem zeroColumn_apply (p : Fin 512) : (k1_pay4 (F := Ideal)) (ix2 p (0 : Fin 1)) = CenterMining.lit 0x00000000#32 := rfl
theorem zeroColumn'_apply (p : Fin 512) : (k1_pay5 (F := Ideal)) (ix2 p (0 : Fin 1)) = CenterMining.lit 0x00000000#32 := rfl

end Cert.KernelIdeal.PassTwo

end
-- ==== Proof.PassTwoTile.lean ====
/-
  The second pass's tile, entry by entry, and one step of its two running columns over the arrays.

  The tile is the first pass's masked tile of distances: at entry `(p, q)` the distance between row `p` of the block of
  centers and row `q` of the block of samples when their labels differ, and zero otherwise; an entry is counted when it
  exceeds 1e-6. When the blocks hold center `R` at row `p` and sample `C q` at row `q`, that entry is the masked distance
  `an R (C q)` of the specification, so one step adds to row `p` of the running columns the sum, or the number, of the hard
  negatives of center `R` among the samples `C q`.
-/
import proofs.«106767_j16449724745480_1_alg».proof.Proof.PassOneTile
import proofs.«106767_j16449724745480_1_alg».proof.Proof.PassTwoColumns

noncomputable section

open Idealize.ShloMosaic Idealize.ShloMosaic.ValueIdx

namespace Cert.KernelIdeal.PassTwo

open Cert.KernelIdeal Cert.KernelIdeal.Gen

/-- Entry `(p, q)` of the second pass's tile: the distance between row `p` of the block of centers and row `q` of the
    block of samples where their labels differ, zero where they agree. -/
theorem maskedTile_apply (x0 : Vec Ideal S512x256 .f32) (x1 : Vec Ideal S1024x256 .f32) (x2 : Vec Ideal S512x1 .i32)
    (x3 : Vec Ideal S1x1024 .i32) (p : Fin 512) (q : Fin 1024) :
    k1_pay6 (F := Ideal) x0 x1 x2 x3 (ix2 p q) = PassOne.tileAn x0 x1 x2 x3 p q := by
  unfold k1_pay6
  try dsimp only
  rw [shapeCast_self, shapeCast_self, shapeCast_self]
  show Scalar.select (IntOp.cmpi .ne (broadcastTo S512x1024 x2 _ (ix2 p q)) (broadcastTo S512x1024 x3 _ (ix2 p q)))
      (sqrt (maximumf (broadcast S512x1024 _) (subf (addf _ _) (mulf (broadcast S512x1024 _) _))) (ix2 p q)) _ = _
  rw [PassOne.spreadColumn_apply x2 _ (by decide) p q, PassOne.spreadRow_apply x3 _ (by decide) p q, PassOne.tile_core,
    PassOne.rowNorm_apply, PassOne.colNorm_apply, PassOne.inner_apply]
  rfl

/-- The mask of counted entries of that tile at `(p, q)`: the entry exceeds 1e-6. -/
theorem countedMask_apply (x0 : Vec Ideal S512x256 .f32) (x1 : Vec Ideal S1024x256 .f32) (x2 : Vec Ideal S512x1 .i32)
    (x3 : Vec Ideal S1x1024 .i32) (p : Fin 512) (q : Fin 1024) :
    k1_pay7 (F := Ideal) x0 x1 x2 x3 (ix2 p q) = CenterMining.counts (PassOne.tileAn x0 x1 x2 x3 p q) := by
  unfold k1_pay7
  try dsimp only
  show Ideal.cmp .ogt (k1_pay6 (F := Ideal) x0 x1 x2 x3 (ix2 p q)) _ = _
  rw [maskedTile_apply]
  rfl

/-- A tile entry over blocks that hold rows `R` of the centers and `C` of the samples, with their labels, is the masked
    distance of the pair `(R, C)`. -/
theorem tileAn_eq_an (x0 : Vec Ideal S512x256 .f32) (x1 : Vec Ideal S1024x256 .f32) (x2 : Vec Ideal S512x1 .i32)
    (x3 : Vec Ideal S1x1024 .i32) (cen : Fin 4096 → Fin 256 → EReal) (inp : Fin 32768 → Fin 256 → EReal)
    (cid : Fin 4096 → BitVec 32) (tgt : Fin 32768 → BitVec 32) (p : Fin 512) (q : Fin 1024) (R : Fin 4096) (C : Fin 32768)
    (h0 : ∀ k, x0 (ix2 p k) = cen R k) (h1 : ∀ k, x1 (ix2 q k) = inp C k)
    (h2 : x2 (ix2 p (0 : Fin 1)) = cid R) (h3 : x3 (ix2 (0 : Fin 1) q) = tgt C) :
    PassOne.tileAn x0 x1 x2 x3 p q = CenterMining.an cen inp cid tgt R C := by
  unfold PassOne.tileAn PassOne.rowDist CenterMining.an CenterMining.isNeg CenterMining.dist CenterMining.dot
  simp only [h0, h1, h2, h3]

/-- One step of the running sum, at row `p`, over blocks that hold center `R` and the samples `C q`: the step adds the
    hard negatives of center `R` among those samples. -/
theorem sumStep_apply (x0 : Vec Ideal S512x256 .f32) (x1 : Vec Ideal S1024x256 .f32) (x2 : Vec Ideal S512x1 .i32)
    (x3 : Vec Ideal S1x1024 .i32) (x4 prev : Vec Ideal S512x1 .f32)
    (cen : Fin 4096 → Fin 256 → EReal) (inp : Fin 32768 → Fin 256 → EReal)
    (cid : Fin 4096 → BitVec 32) (tgt : Fin 32768 → BitVec 32) (thr : Fin 4096 → EReal)
    (p : Fin 512) (R : Fin 4096) (C : Fin 1024 → Fin 32768)
    (h0 : ∀ k, x0 (ix2 p k) = cen R k) (h1 : ∀ q k, x1 (ix2 q k) = inp (C q) k)
    (h2 : x2 (ix2 p (0 : Fin 1)) = cid R) (h3 : ∀ q, x3 (ix2 (0 : Fin 1) q) = tgt (C q)) (h4 : x4 (ix2 p (0 : Fin 1)) = thr R) :
    k1_pay2 (k1_pay6 (F := Ideal) x0 x1 x2 x3) (k1_pay7 (F := Ideal) x0 x1 x2 x3) x4 prev (ix2 p (0 : Fin 1))
      = prev (ix2 p (0 : Fin 1)) + ∑ q : Fin 1024,
          CenterMining.kept (CenterMining.hardAt cen inp cid tgt thr R (C q)) (CenterMining.an cen inp cid tgt R (C q)) := by
  rw [sumColumn_apply]
  refine congrArg (fun z => prev (ix2 p (0 : Fin 1)) + z) (Finset.sum_congr rfl fun q _ => ?_)
  rw [countedMask_apply, maskedTile_apply, tileAn_eq_an x0 x1 x2 x3 cen inp cid tgt p q R (C q) h0 (h1 q) h2 (h3 q), h4]
  rfl

/-- One step of the running count, at row `p`: the step adds the number of hard negatives of center `R` among the
    samples `C q`. -/
theorem cntStep_apply (x0 : Vec Ideal S512x256 .f32) (x1 : Vec Ideal S1024x256 .f32) (x2 : Vec Ideal S512x1 .i32)
    (x3 : Vec Ideal S1x1024 .i32) (x4 prev : Vec Ideal S512x1 .f32)
    (cen : Fin 4096 → Fin 256 → EReal) (inp : Fin 32768 → Fin 256 → EReal)
    (cid : Fin 4096 → BitVec 32) (tgt : Fin 32768 → BitVec 32) (thr : Fin 4096 → EReal)
    (p : Fin 512) (R : Fin 4096) (C : Fin 1024 → Fin 32768)
    (h0 : ∀ k, x0 (ix2 p k) = cen R k) (h1 : ∀ q k, x1 (ix2 q k) = inp (C q) k)
    (h2 : x2 (ix2 p (0 : Fin 1)) = cid R) (h3 : ∀ q, x3 (ix2 (0 : Fin 1) q) = tgt (C q)) (h4 : x4 (ix2 p (0 : Fin 1)) = thr R) :
    k1_pay3 (k1_pay6 (F := Ideal) x0 x1 x2 x3) (k1_pay7 (F := Ideal) x0 x1 x2 x3) x4 prev (ix2 p (0 : Fin 1))
      = prev (ix2 p (0 : Fin 1)) + ∑ q : Fin 1024, CenterMining.bit01 (CenterMining.hardAt cen inp cid tgt thr R (C q)) := by
  rw [cntColumn_apply]
  refine congrArg (fun z => prev (ix2 p (0 : Fin 1)) + z) (Finset.sum_congr rfl fun q _ => ?_)
  rw [countedMask_apply, maskedTile_apply, tileAn_eq_an x0 x1 x2 x3 cen inp cid tgt p q R (C q) h0 (h1 q) h2 (h3 q), h4]
  rfl

end Cert.KernelIdeal.PassTwo

end
-- ==== Proof.PassTwoRunning.lean ====
/-
  The second pass's two running columns, step by step.

  The pass keeps, for each row of 512 centers, a column of sums and a column of counts. The first tile of a row of tiles
  stores zeros and adds its own terms; each later tile adds its terms to what the tile before left. So after step
  `n = 32 i + j` row `p` of either column holds, for center `512 i + p`, the zero plus the terms of tiles `0 … j` in turn —
  the specification's tile-by-tile accumulation `tileAcc` — by induction on the step, with one case for a first tile and one
  for a later tile. The term of a pair is its masked distance where the pair is a hard negative (for the sums), or one where it
  is (for the counts).
-/
import proofs.«106767_j16449724745480_1_alg».proof.Proof.Gen.KernelIdeal.Frame
import proofs.«106767_j16449724745480_1_alg».proof.Proof.CenterMining
import proofs.«106767_j16449724745480_1_alg».proof.Proof.Arrays
import proofs.«106767_j16449724745480_1_alg».proof.Proof.PassTwoPieces
import proofs.«106767_j16449724745480_1_alg».proof.Proof.PassTwoTile
import proofs.«106767_j16449724745480_1_alg».proof.Proof.PassTwoBlocks
import Idealize.ShloMosaic.Lib.ValueIdx
import Idealize.ShloMosaic.Lib.Pipeline.Value

noncomputable section

open Idealize.ShloMosaic Idealize.ShloMosaic.TcCoe Idealize.ShloMosaic.ValueIdx
open Idealize.ShloMosaic.Pipeline (Dat)

namespace Cert.KernelIdeal.PassTwo

open Cert.KernelIdeal Cert.KernelIdeal.Gen Cert.KernelIdeal.Arrays

variable (V : (c : Dev nD) → (b : Ref sig .tc) → Buf (Elt Ideal) ((c : Thread nD τ).loc b)) (c : Dev nD)

/-- What sample `s` adds to center `R`'s sum of hard negatives: its masked distance if the pair is a hard negative. -/
def hardTerm (R : Fin 4096) (s : Fin 32768) : EReal :=
  CenterMining.kept (CenterMining.hardAt (cenOf V c) (inpOf V c) (cidOf V c) (tgtOf V c) (thrOf V c) R s) (CenterMining.an (cenOf V c) (inpOf V c) (cidOf V c) (tgtOf V c) R s)

/-- What sample `s` adds to center `R`'s number of hard negatives: one if the pair is a hard negative. -/
def hardBit (R : Fin 4096) (s : Fin 32768) : EReal := CenterMining.bit01 (CenterMining.hardAt (cenOf V c) (inpOf V c) (cidOf V c) (tgtOf V c) (thrOf V c) R s)

/-! ## The sum of the hard negatives -/

/-- One step at the blocks of step `t`, at row `p`: it adds tile `t % 32` of center `512 (t / 32) + p`'s terms. -/
theorem sum_step (t : Fin cfg1.N) (p : Fin 512) (R : Fin 4096) (hR : R.val = 512 * (t.val / 32) + p.val)
    (j : Fin 32) (hj : j.val = t.val % 32) (prev : Vec Ideal S512x1 .f32) :
    k1_pay2 (k1_pay6 (F := Ideal) (iblk1 V c 0 t) (iblk1 V c 1 t) (iblk1 V c 2 t) (iblk1 V c 3 t))
        (k1_pay7 (F := Ideal) (iblk1 V c 0 t) (iblk1 V c 1 t) (iblk1 V c 2 t) (iblk1 V c 3 t)) (iblk1 V c 4 t) prev (ix2 p (0 : Fin 1))
      = prev (ix2 p (0 : Fin 1)) + ∑ q : Fin 1024, hardTerm V c R (CenterMining.col j q) :=
  sumStep_apply (iblk1 V c 0 t) (iblk1 V c 1 t) (iblk1 V c 2 t) (iblk1 V c 3 t) (iblk1 V c 4 t) prev (cenOf V c) (inpOf V c) (cidOf V c) (tgtOf V c) (thrOf V c) p R (fun q => CenterMining.col j q)
    (fun k => cenBlock_apply V c t p k R hR)
    (fun q k => inpBlock_apply V c t q k (CenterMining.col j q) (by show 1024 * j.val + q.val = _; rw [hj]))
    (cidBlock_apply V c t p R hR)
    (fun q => tgtBlock_apply V c t q (CenterMining.col j q) (by show 1024 * j.val + q.val = _; rw [hj]))
    (thrBlock_apply V c t p R hR)

/-- At the first tile of a row of tiles the column restarts: the zero, plus the tile's terms. -/
theorem sum_first (t : Fin cfg1.N) (hc : cond1_0 (grid1.coords t)) (p : Fin 512) (R : Fin 4096)
    (hR : R.val = 512 * (t.val / 32) + p.val) (j : Fin 32) (hj : j.val = t.val % 32) :
    out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) hc (iblk1 V c 0 t) (iblk1 V c 1 t) (iblk1 V c 2 t) (iblk1 V c 3 t) (iblk1 V c 4 t) (ix2 p (0 : Fin 1))
      = CenterMining.lit 0x00000000#32 + ∑ q : Fin 1024, hardTerm V c R (CenterMining.col j q) :=
  (congrFun (out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) hc (iblk1 V c 0 t) (iblk1 V c 1 t) (iblk1 V c 2 t) (iblk1 V c 3 t) (iblk1 V c 4 t)) (ix2 p (0 : Fin 1))).trans
    (sum_step V c t p R hR j hj (k1_pay4 (F := Ideal)))

/-- At every other tile the column goes on from what the step before left: that, plus the tile's terms. -/
theorem sum_later (t : Fin cfg1.N) (hc : ¬cond1_0 (grid1.coords t)) (p : Fin 512) (R : Fin 4096)
    (hR : R.val = 512 * (t.val / 32) + p.val) (j : Fin 32) (hj : j.val = t.val % 32) (xo5 xo6 : Vec Ideal S512x1 .f32) :
    out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) hc (iblk1 V c 0 t) (iblk1 V c 1 t) (iblk1 V c 2 t) (iblk1 V c 3 t) (iblk1 V c 4 t) xo5 xo6 (ix2 p (0 : Fin 1))
      = xo5 (ix2 p (0 : Fin 1)) + ∑ q : Fin 1024, hardTerm V c R (CenterMining.col j q) :=
  (congrFun (out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) hc (iblk1 V c 0 t) (iblk1 V c 1 t) (iblk1 V c 2 t) (iblk1 V c 3 t) (iblk1 V c 4 t) xo5 xo6) (ix2 p (0 : Fin 1))).trans
    (sum_step V c t p R hR j hj xo5)

/-- After step `n`, row `p` of the running column holds the tiles `0 … n % 32` of center `512 (n / 32) + p`'s terms, accumulated
    from the zero the row's first tile stores: by induction on the step, the first tile of a row of tiles starting afresh and
    every other tile adding to what the step before left. -/
theorem sum_invariant : ∀ (n : ℕ) (h : n < cfg1.N) (p : Fin 512) (R : Fin 4096) (_ : R.val = 512 * (n / 32) + p.val)
    (j : ℕ) (hj : j < 32) (_ : j = n % 32),
    (outsAt1 V c n h).1 (ix2 p (0 : Fin 1)) = CenterMining.tileAcc (hardTerm V c R) j hj
  | 0, h, p, R, hR, j, hj, hjn => by
    obtain rfl : j = 0 := by omega
    rw [outsAt1_A V c ⟨0, h⟩ rfl, CenterMining.tileAcc]
    dsimp only
    exact sum_first V c ⟨0, h⟩ ((hcond1_0 ⟨0, h⟩).mpr rfl) p R hR ⟨0, hj⟩ rfl
  | n + 1, h, p, R, hR, j, hj, hjn => by
    by_cases h0 : (n + 1) % 32 = 0
    · obtain rfl : j = 0 := by omega
      rw [outsAt1_A V c ⟨n + 1, h⟩ h0, CenterMining.tileAcc]
      dsimp only
      exact sum_first V c ⟨n + 1, h⟩ ((hcond1_0 ⟨n + 1, h⟩).mpr h0) p R hR ⟨0, hj⟩ hjn
    · obtain ⟨j', rfl⟩ : ∃ j', j = j' + 1 := ⟨j - 1, by omega⟩
      rw [outsAt1_B V c ⟨n + 1, h⟩ h0, CenterMining.tileAcc]
      dsimp only
      refine (sum_later V c ⟨n + 1, h⟩ (fun hh => h0 ((hcond1_0 ⟨n + 1, h⟩).mp hh)) p R hR ⟨j' + 1, hj⟩ hjn
        (outsAt1 V c n (Nat.lt_of_succ_lt h)).1 (outsAt1 V c n (Nat.lt_of_succ_lt h)).2).trans ?_
      exact congrArg (fun z => z + ∑ q : Fin 1024, hardTerm V c R (CenterMining.col ⟨j' + 1, hj⟩ q))
        (sum_invariant n (Nat.lt_of_succ_lt h) p R (by omega) j' (Nat.lt_of_succ_lt hj) (by omega))

/-! ## The number of the hard negatives -/

/-- One step at the blocks of step `t`, at row `p`: it adds tile `t % 32` of center `512 (t / 32) + p`'s terms. -/
theorem cnt_step (t : Fin cfg1.N) (p : Fin 512) (R : Fin 4096) (hR : R.val = 512 * (t.val / 32) + p.val)
    (j : Fin 32) (hj : j.val = t.val % 32) (prev : Vec Ideal S512x1 .f32) :
    k1_pay3 (k1_pay6 (F := Ideal) (iblk1 V c 0 t) (iblk1 V c 1 t) (iblk1 V c 2 t) (iblk1 V c 3 t))
        (k1_pay7 (F := Ideal) (iblk1 V c 0 t) (iblk1 V c 1 t) (iblk1 V c 2 t) (iblk1 V c 3 t)) (iblk1 V c 4 t) prev (ix2 p (0 : Fin 1))
      = prev (ix2 p (0 : Fin 1)) + ∑ q : Fin 1024, hardBit V c R (CenterMining.col j q) :=
  cntStep_apply (iblk1 V c 0 t) (iblk1 V c 1 t) (iblk1 V c 2 t) (iblk1 V c 3 t) (iblk1 V c 4 t) prev (cenOf V c) (inpOf V c) (cidOf V c) (tgtOf V c) (thrOf V c) p R (fun q => CenterMining.col j q)
    (fun k => cenBlock_apply V c t p k R hR)
    (fun q k => inpBlock_apply V c t q k (CenterMining.col j q) (by show 1024 * j.val + q.val = _; rw [hj]))
    (cidBlock_apply V c t p R hR)
    (fun q => tgtBlock_apply V c t q (CenterMining.col j q) (by show 1024 * j.val + q.val = _; rw [hj]))
    (thrBlock_apply V c t p R hR)

/-- At the first tile of a row of tiles the column restarts: the zero, plus the tile's terms. -/
theorem cnt_first (t : Fin cfg1.N) (hc : cond1_0 (grid1.coords t)) (p : Fin 512) (R : Fin 4096)
    (hR : R.val = 512 * (t.val / 32) + p.val) (j : Fin 32) (hj : j.val = t.val % 32) :
    out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) hc (iblk1 V c 0 t) (iblk1 V c 1 t) (iblk1 V c 2 t) (iblk1 V c 3 t) (iblk1 V c 4 t) (ix2 p (0 : Fin 1))
      = CenterMining.lit 0x00000000#32 + ∑ q : Fin 1024, hardBit V c R (CenterMining.col j q) :=
  (congrFun (out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) hc (iblk1 V c 0 t) (iblk1 V c 1 t) (iblk1 V c 2 t) (iblk1 V c 3 t) (iblk1 V c 4 t)) (ix2 p (0 : Fin 1))).trans
    (cnt_step V c t p R hR j hj (k1_pay5 (F := Ideal)))

/-- At every other tile the column goes on from what the step before left: that, plus the tile's terms. -/
theorem cnt_later (t : Fin cfg1.N) (hc : ¬cond1_0 (grid1.coords t)) (p : Fin 512) (R : Fin 4096)
    (hR : R.val = 512 * (t.val / 32) + p.val) (j : Fin 32) (hj : j.val = t.val % 32) (xo5 xo6 : Vec Ideal S512x1 .f32) :
    out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) hc (iblk1 V c 0 t) (iblk1 V c 1 t) (iblk1 V c 2 t) (iblk1 V c 3 t) (iblk1 V c 4 t) xo5 xo6 (ix2 p (0 : Fin 1))
      = xo6 (ix2 p (0 : Fin 1)) + ∑ q : Fin 1024, hardBit V c R (CenterMining.col j q) :=
  (congrFun (out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) hc (iblk1 V c 0 t) (iblk1 V c 1 t) (iblk1 V c 2 t) (iblk1 V c 3 t) (iblk1 V c 4 t) xo5 xo6) (ix2 p (0 : Fin 1))).trans
    (cnt_step V c t p R hR j hj xo6)

/-- After step `n`, row `p` of the running column holds the tiles `0 … n % 32` of center `512 (n / 32) + p`'s terms, accumulated
    from the zero the row's first tile stores: by induction on the step, the first tile of a row of tiles starting afresh and
    every other tile adding to what the step before left. -/
theorem cnt_invariant : ∀ (n : ℕ) (h : n < cfg1.N) (p : Fin 512) (R : Fin 4096) (_ : R.val = 512 * (n / 32) + p.val)
    (j : ℕ) (hj : j < 32) (_ : j = n % 32),
    (outsAt1 V c n h).2 (ix2 p (0 : Fin 1)) = CenterMining.tileAcc (hardBit V c R) j hj
  | 0, h, p, R, hR, j, hj, hjn => by
    obtain rfl : j = 0 := by omega
    rw [outsAt1_A V c ⟨0, h⟩ rfl, CenterMining.tileAcc]
    dsimp only
    exact cnt_first V c ⟨0, h⟩ ((hcond1_0 ⟨0, h⟩).mpr rfl) p R hR ⟨0, hj⟩ rfl
  | n + 1, h, p, R, hR, j, hj, hjn => by
    by_cases h0 : (n + 1) % 32 = 0
    · obtain rfl : j = 0 := by omega
      rw [outsAt1_A V c ⟨n + 1, h⟩ h0, CenterMining.tileAcc]
      dsimp only
      exact cnt_first V c ⟨n + 1, h⟩ ((hcond1_0 ⟨n + 1, h⟩).mpr h0) p R hR ⟨0, hj⟩ hjn
    · obtain ⟨j', rfl⟩ : ∃ j', j = j' + 1 := ⟨j - 1, by omega⟩
      rw [outsAt1_B V c ⟨n + 1, h⟩ h0, CenterMining.tileAcc]
      dsimp only
      refine (cnt_later V c ⟨n + 1, h⟩ (fun hh => h0 ((hcond1_0 ⟨n + 1, h⟩).mp hh)) p R hR ⟨j' + 1, hj⟩ hjn
        (outsAt1 V c n (Nat.lt_of_succ_lt h)).1 (outsAt1 V c n (Nat.lt_of_succ_lt h)).2).trans ?_
      exact congrArg (fun z => z + ∑ q : Fin 1024, hardBit V c R (CenterMining.col ⟨j' + 1, hj⟩ q))
        (cnt_invariant n (Nat.lt_of_succ_lt h) p R (by omega) j' (Nat.lt_of_succ_lt hj) (by omega))

end Cert.KernelIdeal.PassTwo

end
-- ==== Proof.PassTwoValue.lean ====
/-
  What the second pass's two result arrays hold when the pass ends.

  A row of tiles writes its two running columns back once, after its last tile; by then each row of a column holds the
  tile-by-tile accumulation over all 32 tiles, which is the flat sum over the 32768 samples. The eight write-backs fill
  rows `512 i … 512 i + 511`, `i = 0 … 7`, so together they cover the [4096, 1] arrays: row `R` of the first ends at the sum
  of center `R`'s hard negatives against the threshold array, row `R` of the second at their number.
-/
import proofs.«106767_j16449724745480_1_alg».proof.Proof.Gen.KernelIdeal.Frame
import proofs.«106767_j16449724745480_1_alg».proof.Proof.CenterMining
import proofs.«106767_j16449724745480_1_alg».proof.Proof.Arrays
import proofs.«106767_j16449724745480_1_alg».proof.Proof.PassTwoBlocks
import proofs.«106767_j16449724745480_1_alg».proof.Proof.PassTwoRunning
import Idealize.ShloMosaic.Lib.ValueIdx
import Idealize.ShloMosaic.Lib.Pipeline.Value

noncomputable section

open Idealize.ShloMosaic Idealize.ShloMosaic.TcCoe Idealize.ShloMosaic.ValueIdx
open Idealize.ShloMosaic.Pipeline (Dat)

namespace Cert.KernelIdeal.PassTwo

open Cert.KernelIdeal Cert.KernelIdeal.Gen Cert.KernelIdeal.Arrays

variable (V : (c : Dev nD) → (b : Ref sig .tc) → Buf (Elt Ideal) ((c : Thread nD τ).loc b)) (c : Dev nD)

/-- The flat sum of a center's terms is its sum of hard negatives. -/
theorem sum_hardTerm (R : Fin 4096) : ∑ s, hardTerm V c R s = CenterMining.hardSumAt (cenOf V c) (inpOf V c) (cidOf V c) (tgtOf V c) (thrOf V c) R := rfl

/-- The flat sum of a center's unit terms is its number of hard negatives. -/
theorem sum_hardBit (R : Fin 4096) : ∑ s, hardBit V c R s = CenterMining.hardCntAt (cenOf V c) (inpOf V c) (cidOf V c) (tgtOf V c) (thrOf V c) R := rfl

/-! ## The sums -/

/-- What the last tile of a row of tiles writes back is its block of any array `G` that holds, at row `R`, center `R`'s
    total: the running value after 32 tiles is the sum over all 32768 samples. -/
theorem sum_flushed (G : S4096x1.Idx → EReal)
    (hG : ∀ R : Fin 4096, G (ix2 R (0 : Fin 1)) = CenterMining.hardSumAt (cenOf V c) (inpOf V c) (cidOf V c) (tgtOf V c) (thrOf V c) R)
    (t : Fin cfg1.N) (hf : (cfg1.win 5).flush t = true) :
    (dat1 V c).flushed 5 t = ((cfg1.win 5).blk t).view.read (Elt Ideal) G := by
  have h31 : t.val % 32 = 31 := (flush1_5 t).mp hf
  have hN : t.val < 256 := lt_of_lt_of_eq t.isLt (show cfg1.N = 256 from N_1)
  show (cfg1.win 5).cut (grid1.coords t) ((dat1 V c).after 5 t) = _
  rw [after1_5]
  funext y
  show (outsAt1 V c t.val t.isLt).1 y = G (((cfg1.win 5).blk t).view.emb y)
  obtain ⟨p, u, rfl⟩ : ∃ (p : Fin 512) (u : Fin 1), y = ix2 p u := ⟨y 0, y 1, eq_ix2 (n0 := 512) (n1 := 1) y⟩
  obtain rfl : u = 0 := Subsingleton.elim _ _
  have hR : 512 * (t.val / 32) + p.val < 4096 := by have := p.isLt; omega
  obtain ⟨-, -, -, -, -, -, -, -, -, -, e0, e1, -⟩ := block_positions t
  have hemb : ((cfg1.win 5).blk t).view.emb (ix2 p (0 : Fin 1)) = ix2 (⟨512 * (t.val / 32) + p.val, hR⟩ : Fin 4096) (0 : Fin 1) :=
    funext fun a => Fin.ext (by
      match a with
      | ⟨0, _⟩ => show win1_5.index t (0 : Fin 2) * 512 + 1 * p.val = 512 * (t.val / 32) + p.val; rw [e0]; omega
      | ⟨1, _⟩ => show win1_5.index t (1 : Fin 2) * 1 + 1 * 0 = 0; rw [e1])
  rw [sum_invariant V c t.val t.isLt p ⟨512 * (t.val / 32) + p.val, hR⟩ rfl 31 (by norm_num) h31.symm,
    CenterMining.tileAcc_last, hemb, hG]
  exact sum_hardTerm V c _

/-- Row `r` of the array lies in the block the last tile of its row of tiles writes back. -/
theorem sum_cover (i : S4096x1.Idx) :
    ∃ t : Fin cfg1.N, (cfg1.win 5).flush t = true ∧ i ∈ ((cfg1.win 5).blk t).view.set := by
  have hi0 : (i 0).val < 4096 := (i 0).isLt
  have hi1 : (i 1).val < 1 := (i 1).isLt
  have hN : cfg1.N = 256 := N_1
  have ht : 32 * ((i 0).val / 512) + 31 < cfg1.N := by rw [hN]; omega
  refine ⟨⟨32 * ((i 0).val / 512) + 31, ht⟩, (flush1_5 _).mpr (by show (32 * ((i 0).val / 512) + 31) % 32 = 31; omega), ?_⟩
  show i ∈ ((View.whole main_v27_0).slice (win1_5.rect ⟨32 * ((i 0).val / 512) + 31, ht⟩)).set
  rw [View.set_slice_whole, Rect.mem_set_unit]
  obtain ⟨-, -, -, -, -, -, -, -, -, -, e0, e1, -⟩ := block_positions ⟨32 * ((i 0).val / 512) + 31, ht⟩
  intro a
  match a with
  | ⟨0, _⟩ =>
    show win1_5.index ⟨32 * ((i 0).val / 512) + 31, ht⟩ (0 : Fin 2) * 512 ≤ (i 0).val
      ∧ (i 0).val < win1_5.index ⟨32 * ((i 0).val / 512) + 31, ht⟩ (0 : Fin 2) * 512 + 512
    rw [e0]; show (32 * ((i 0).val / 512) + 31) / 32 * 512 ≤ (i 0).val ∧ (i 0).val < (32 * ((i 0).val / 512) + 31) / 32 * 512 + 512; omega
  | ⟨1, _⟩ =>
    show win1_5.index ⟨32 * ((i 0).val / 512) + 31, ht⟩ (1 : Fin 2) * 1 ≤ (i 1).val
      ∧ (i 1).val < win1_5.index ⟨32 * ((i 0).val / 512) + 31, ht⟩ (1 : Fin 2) * 1 + 1
    rw [e1]; omega

/-- The array the write-backs assemble: at row `r`, center `r`'s total. -/
def sumArray : S4096x1.Idx → EReal := fun i => CenterMining.hardSumAt (cenOf V c) (inpOf V c) (cidOf V c) (tgtOf V c) (thrOf V c) ⟨(i 0).val, idx2_lt0 i⟩

theorem sumArray_apply (R : Fin 4096) : sumArray V c (ix2 R (0 : Fin 1)) = CenterMining.hardSumAt (cenOf V c) (inpOf V c) (cidOf V c) (tgtOf V c) (thrOf V c) R := rfl

theorem hardSum_arr (R : Fin 4096) :
    (dat1 (F := Ideal) V c).arrAt 5 cfg1.N (ix2 R 0) = CenterMining.hardSumAt (cenOf V c) (inpOf V c) (cidOf V c) (tgtOf V c) (thrOf V c) R :=
  (congrFun ((dat1 (F := Ideal) V c).arrAt_eq_of_cover 5 (sumArray V c) (sum_flushed V c (sumArray V c) (sumArray_apply V c)) sum_cover) (ix2 R 0)).trans
    (sumArray_apply V c R)

/-! ## The counts -/

/-- What the last tile of a row of tiles writes back is its block of any array `G` that holds, at row `R`, center `R`'s
    total: the running value after 32 tiles is the sum over all 32768 samples. -/
theorem cnt_flushed (G : S4096x1.Idx → EReal)
    (hG : ∀ R : Fin 4096, G (ix2 R (0 : Fin 1)) = CenterMining.hardCntAt (cenOf V c) (inpOf V c) (cidOf V c) (tgtOf V c) (thrOf V c) R)
    (t : Fin cfg1.N) (hf : (cfg1.win 6).flush t = true) :
    (dat1 V c).flushed 6 t = ((cfg1.win 6).blk t).view.read (Elt Ideal) G := by
  have h31 : t.val % 32 = 31 := (flush1_6 t).mp hf
  have hN : t.val < 256 := lt_of_lt_of_eq t.isLt (show cfg1.N = 256 from N_1)
  show (cfg1.win 6).cut (grid1.coords t) ((dat1 V c).after 6 t) = _
  rw [after1_6]
  funext y
  show (outsAt1 V c t.val t.isLt).2 y = G (((cfg1.win 6).blk t).view.emb y)
  obtain ⟨p, u, rfl⟩ : ∃ (p : Fin 512) (u : Fin 1), y = ix2 p u := ⟨y 0, y 1, eq_ix2 (n0 := 512) (n1 := 1) y⟩
  obtain rfl : u = 0 := Subsingleton.elim _ _
  have hR : 512 * (t.val / 32) + p.val < 4096 := by have := p.isLt; omega
  obtain ⟨-, -, -, -, -, -, -, -, -, -, -, -, e0, e1⟩ := block_positions t
  have hemb : ((cfg1.win 6).blk t).view.emb (ix2 p (0 : Fin 1)) = ix2 (⟨512 * (t.val / 32) + p.val, hR⟩ : Fin 4096) (0 : Fin 1) :=
    funext fun a => Fin.ext (by
      match a with
      | ⟨0, _⟩ => show win1_6.index t (0 : Fin 2) * 512 + 1 * p.val = 512 * (t.val / 32) + p.val; rw [e0]; omega
      | ⟨1, _⟩ => show win1_6.index t (1 : Fin 2) * 1 + 1 * 0 = 0; rw [e1])
  rw [cnt_invariant V c t.val t.isLt p ⟨512 * (t.val / 32) + p.val, hR⟩ rfl 31 (by norm_num) h31.symm,
    CenterMining.tileAcc_last, hemb, hG]
  exact sum_hardBit V c _

/-- Row `r` of the array lies in the block the last tile of its row of tiles writes back. -/
theorem cnt_cover (i : S4096x1.Idx) :
    ∃ t : Fin cfg1.N, (cfg1.win 6).flush t = true ∧ i ∈ ((cfg1.win 6).blk t).view.set := by
  have hi0 : (i 0).val < 4096 := (i 0).isLt
  have hi1 : (i 1).val < 1 := (i 1).isLt
  have hN : cfg1.N = 256 := N_1
  have ht : 32 * ((i 0).val / 512) + 31 < cfg1.N := by rw [hN]; omega
  refine ⟨⟨32 * ((i 0).val / 512) + 31, ht⟩, (flush1_6 _).mpr (by show (32 * ((i 0).val / 512) + 31) % 32 = 31; omega), ?_⟩
  show i ∈ ((View.whole main_v27_1).slice (win1_6.rect ⟨32 * ((i 0).val / 512) + 31, ht⟩)).set
  rw [View.set_slice_whole, Rect.mem_set_unit]
  obtain ⟨-, -, -, -, -, -, -, -, -, -, -, -, e0, e1⟩ := block_positions ⟨32 * ((i 0).val / 512) + 31, ht⟩
  intro a
  match a with
  | ⟨0, _⟩ =>
    show win1_6.index ⟨32 * ((i 0).val / 512) + 31, ht⟩ (0 : Fin 2) * 512 ≤ (i 0).val
      ∧ (i 0).val < win1_6.index ⟨32 * ((i 0).val / 512) + 31, ht⟩ (0 : Fin 2) * 512 + 512
    rw [e0]; show (32 * ((i 0).val / 512) + 31) / 32 * 512 ≤ (i 0).val ∧ (i 0).val < (32 * ((i 0).val / 512) + 31) / 32 * 512 + 512; omega
  | ⟨1, _⟩ =>
    show win1_6.index ⟨32 * ((i 0).val / 512) + 31, ht⟩ (1 : Fin 2) * 1 ≤ (i 1).val
      ∧ (i 1).val < win1_6.index ⟨32 * ((i 0).val / 512) + 31, ht⟩ (1 : Fin 2) * 1 + 1
    rw [e1]; omega

/-- The array the write-backs assemble: at row `r`, center `r`'s total. -/
def cntArray : S4096x1.Idx → EReal := fun i => CenterMining.hardCntAt (cenOf V c) (inpOf V c) (cidOf V c) (tgtOf V c) (thrOf V c) ⟨(i 0).val, idx2_lt0 i⟩

theorem cntArray_apply (R : Fin 4096) : cntArray V c (ix2 R (0 : Fin 1)) = CenterMining.hardCntAt (cenOf V c) (inpOf V c) (cidOf V c) (tgtOf V c) (thrOf V c) R := rfl

theorem hardCnt_arr (R : Fin 4096) :
    (dat1 (F := Ideal) V c).arrAt 6 cfg1.N (ix2 R 0) = CenterMining.hardCntAt (cenOf V c) (inpOf V c) (cidOf V c) (tgtOf V c) (thrOf V c) R :=
  (congrFun ((dat1 (F := Ideal) V c).arrAt_eq_of_cover 6 (cntArray V c) (cnt_flushed V c (cntArray V c) (cntArray_apply V c)) cnt_cover) (ix2 R 0)).trans
    (cntArray_apply V c R)

end Cert.KernelIdeal.PassTwo

end
-- ==== Proof.RefCounts.lean ====
/-
  Counting with 32-bit words.

  The reference counts the entries of a 0/1 mask by widening each bit to a 32-bit word, adding the words with the
  machine's wrapping addition, and reading the total as a signed integer. When every word is 0 or 1 and there are fewer
  than 2^31 of them, no partial sum reaches 2^31: the addition never wraps, the total's sign bit is clear, and its
  signed reading is the plain sum of the words' signed readings. Cast to the extended reals, the count is the sum of
  the 0/1 values, which is the form the specification uses.
-/
import Mathlib.Data.BitVec
import Idealize.ShloMosaic.PureOps.Ideal
import Idealize.ShloMosaic.PureOps.Reduce

noncomputable section

namespace Cert.ReferenceIdeal.RefValue

open Idealize.ShloMosaic

/-- The unsigned reading of a wrapping sum of 0/1 words over fewer than 2^31 positions is the plain sum. -/
theorem toNat_fold_addi {ι : Type*} (S : Finset ι) (g : ι → BitVec 32) :
    (∀ i ∈ S, (g i).toNat ≤ 1) → S.card < 2 ^ 31 →
      (S.fold IntOp.addi 0#32 g).toNat = ∑ i ∈ S, (g i).toNat := by
  classical
  induction S using Finset.induction_on with
  | empty => intro _ _; simp
  | insert a s ha ih =>
    intro hg hc
    rw [Finset.card_insert_of_notMem ha] at hc
    have hs : ∀ i ∈ s, (g i).toNat ≤ 1 := fun i hi => hg i (Finset.mem_insert_of_mem hi)
    have h1 := ih hs (by omega)
    have hle : ∑ i ∈ s, (g i).toNat ≤ s.card := by
      simpa using Finset.sum_le_card_nsmul s (fun i => (g i).toNat) 1 hs
    have ha1 := hg a (Finset.mem_insert_self a s)
    rw [Finset.fold_insert ha, Finset.sum_insert ha]
    show (g a + s.fold IntOp.addi 0#32 g).toNat = _
    rw [BitVec.toNat_add, h1]
    exact Nat.mod_eq_of_lt (by omega)

/-- So its signed reading is the sum of the words' signed readings. -/
theorem toInt_fold_addi {ι : Type*} (S : Finset ι) (g : ι → BitVec 32) (hg : ∀ i ∈ S, (g i).toNat ≤ 1)
    (hc : S.card < 2 ^ 31) : (S.fold IntOp.addi 0#32 g).toInt = ∑ i ∈ S, (g i).toInt := by
  have h1 := toNat_fold_addi S g hg hc
  have hle : ∑ i ∈ S, (g i).toNat ≤ S.card := by
    simpa using Finset.sum_le_card_nsmul S (fun i => (g i).toNat) 1 hg
  rw [BitVec.toInt_eq_toNat_of_lt (by rw [h1]; omega), h1, Nat.cast_sum]
  exact Finset.sum_congr rfl fun i hi =>
    (BitVec.toInt_eq_toNat_of_lt (by have := hg i hi; omega)).symm

/-- An integer sum, cast to the extended reals, is the sum of the casts. -/
theorem coe_int_sum {ι : Type*} (S : Finset ι) (z : ι → ℤ) :
    (((∑ i ∈ S, z i : ℤ) : ℝ) : EReal) = ∑ i ∈ S, ((z i : ℝ) : EReal) := by
  classical
  induction S using Finset.induction_on with
  | empty => simp
  | insert a s ha ih => rw [Finset.sum_insert ha, Finset.sum_insert ha, Int.cast_add, EReal.coe_add, ih]

/-- The count as an extended real: the signed reading of the wrapping total is the sum of the 0/1 values. -/
theorem count_fold {ι : Type*} (S : Finset ι) (g : ι → BitVec 32) (hg : ∀ i ∈ S, (g i).toNat ≤ 1)
    (hc : S.card < 2 ^ 31) :
    (((S.fold IntOp.addi 0#32 g).toInt : ℝ) : EReal) = ∑ i ∈ S, (((g i).toInt : ℝ) : EReal) := by
  rw [toInt_fold_addi S g hg hc, coe_int_sum]

/-- A widened mask bit is 0 or 1. -/
theorem toNat_setWidth_bit_le (b : BitVec 1) : (b.setWidth 32).toNat ≤ 1 := by
  rw [BitVec.toNat_setWidth_of_le (by decide)]; have := b.isLt; omega

/-- A wrapping integer sum along ONE axis of an array of 0/1 words, from a zero, read signed: the sum over that axis's
    coordinates of the words' values. -/
theorem reduce_addi_single {s t u : Shape} {a : Fin s.rank} (x : s.Idx → BitVec 32) (init : u.Idx → BitVec 32)
    (h' : s.ReducesTo [a] t) (h : s.Reduces [a] t) (hu : 0 < u.numel) (h0 : init (Shape.Idx.first hu) = 0#32)
    (hx : ∀ i, (x i).toNat ≤ 1) (hsz : s.size a < 2 ^ 31) (j : t.Idx) :
    (((Host.reduce IntOp.addi x init h' hu j).toInt : ℝ) : EReal)
      = ∑ k : Fin (s.size a), (((x (h.lift j k)).toInt : ℝ) : EReal) := by
  rw [Host.reduce_eq_fold_single IntOp.addi x init h' h hu j, h0]
  exact count_fold Finset.univ (x ∘ h.lift j) (fun i _ => hx _) (by simpa using hsz)

/-- The same over EVERY axis, into a result with one index: the sum over all the array's indices. -/
theorem reduce_addi_total {s t u : Shape} {axes : List (Fin s.rank)} (x : s.Idx → BitVec 32)
    (init : u.Idx → BitVec 32) (h' : s.ReducesTo axes t) (ht : ∀ b, t.size b = 1) (hu : 0 < u.numel)
    (h0 : init (Shape.Idx.first hu) = 0#32) (hx : ∀ i, (x i).toNat ≤ 1)
    (hc : (Finset.univ : Finset s.Idx).card < 2 ^ 31) (j : t.Idx) :
    (((Host.reduce IntOp.addi x init h' hu j).toInt : ℝ) : EReal) = ∑ i : s.Idx, (((x i).toInt : ℝ) : EReal) := by
  rw [Host.reduce_eq_fold IntOp.addi x init h' hu j, h0,
    Finset.filter_true_of_mem fun i _ => funext fun b => Fin.ext (by
      have := (h'.drop i b).isLt; have := (j b).isLt; have := ht b; omega)]
  exact count_fold Finset.univ x (fun i _ => hx i) hc

end Cert.ReferenceIdeal.RefValue

end
-- ==== Proof.RefPairs.lean ====
/-
  The reference, pair by pair.

  For a center `r` and a sample `c` the reference's distance, its negative mask, the masked distances and the
  "counts" masks are the specification's, read one host operation at a time. The one place where the reference groups
  its arithmetic differently is the inner product: it doubles the centers BEFORE contracting with the samples, where
  the specification doubles the inner product; a finite non-negative factor passes through a sum of products on the
  whole of the extended reals, so the two agree. The reference's sums start from an explicit zero, which is neutral.
-/
import proofs.«106767_j16449724745480_1_alg».proof.Proof.Gen.ReferenceIdeal.Read
import proofs.«106767_j16449724745480_1_alg».proof.Proof.CenterMining
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx

/-- The centers as the reference computes them, row by row. -/
abbrev cenOf (x0 : (⟨S32768x256, .f32⟩ : BufTy).Contents (Elt Ideal)) (x1 : (⟨S32768, .i32⟩ : BufTy).Contents (Elt Ideal)) :
    Fin 4096 → Fin 256 → EReal := fun r k => Read.val_main_v9 (F := Ideal) x0 x1 (ix2 r k)
/-- The samples, row by row. -/
abbrev inpOf (x0 : (⟨S32768x256, .f32⟩ : BufTy).Contents (Elt Ideal)) : Fin 32768 → Fin 256 → EReal :=
  fun s k => x0 (ix2 s k)
/-- The centers' class labels. -/
abbrev cidOf (x1 : (⟨S32768, .i32⟩ : BufTy).Contents (Elt Ideal)) : Fin 4096 → BitVec 32 :=
  fun r => Read.val_main_v35 (F := Ideal) x1 (ix1 r)
/-- The samples' labels. -/
abbrev tgtOf (x1 : (⟨S32768, .i32⟩ : BufTy).Contents (Elt Ideal)) : Fin 32768 → BitVec 32 := fun s => x1 (ix1 s)

/-! ## Where each broadcast, transpose and contraction reads -/

theorem idx_cen_sq (r : Fin 4096) (c : Fin 32768) (k : Fin 256) :
    Read.idx_main_v11 (Read.idx_main_v12 (Read.idx_main_v16 (ix2 r c))) k = ix2 r k :=
  funext fun a => Fin.ext (by match a with | ⟨0, _⟩ => rfl | ⟨1, _⟩ => rfl)

theorem idx_inp_sq (r : Fin 4096) (c : Fin 32768) (k : Fin 256) :
    Read.idx_main_v14 (Read.idx_main_v15 (Read.idx_main_v17 (ix2 r c))) k = ix2 c k :=
  funext fun a => Fin.ext (by match a with | ⟨0, _⟩ => rfl | ⟨1, _⟩ => rfl)

theorem idx_dot_cen (r : Fin 4096) (c : Fin 32768) (k : Fin 256) :
    Read.lidx_main_v22 (ix2 r c) k = ix2 r k :=
  funext fun a => Fin.ext (by match a with | ⟨0, _⟩ => rfl | ⟨1, _⟩ => rfl)

theorem idx_dot_inp (r : Fin 4096) (c : Fin 32768) (k : Fin 256) :
    Read.idx_main_v21 (Read.ridx_main_v22 (ix2 r c) k) = ix2 c k :=
  funext fun a => Fin.ext (by match a with | ⟨0, _⟩ => rfl | ⟨1, _⟩ => rfl)

theorem idx_cid (r : Fin 4096) (c : Fin 32768) :
    Read.idx_main_v36 (Read.idx_main_v38 (ix2 r c)) = ix1 r :=
  funext fun a => Fin.ext (by match a with | ⟨0, _⟩ => rfl)

theorem idx_tgt (r : Fin 4096) (c : Fin 32768) :
    Read.idx_main_v37 (Read.idx_main_v39 (ix2 r c)) = ix1 c :=
  funext fun a => Fin.ext (by match a with | ⟨0, _⟩ => rfl)

/-! ## The distance -/

section
variable (x0 : (⟨S32768x256, .f32⟩ : BufTy).Contents (Elt Ideal)) (x1 : (⟨S32768, .i32⟩ : BufTy).Contents (Elt Ideal))

/-- The squared norm of center `r`, as the reference sums it from a zero. -/
theorem cen_sq_eq (r : Fin 4096) (c : Fin 32768) :
    Read.val_main_v16 (F := Ideal) x0 x1 (ix2 r c) = CenterMining.sqn (cenOf x0 x1 r) := by
  rw [Read.val_main_v16_apply, Read.val_main_v12_apply, Read.val_main_v11_apply, Read.val_main_cst_2_apply]
  simp only [Read.val_main_v10_apply, idx_cen_sq, Ideal.mulf_def, Ideal.ofBits_def, Ideal.ofBits_zero_f32, zero_add]
  rfl

/-- The squared norm of sample `c`. -/
theorem inp_sq_eq (r : Fin 4096) (c : Fin 32768) :
    Read.val_main_v17 (F := Ideal) x0 (ix2 r c) = CenterMining.sqn (inpOf x0 c) := by
  rw [Read.val_main_v17_apply, Read.val_main_v15_apply, Read.val_main_v14_apply, Read.val_main_cst_3_apply]
  simp only [Read.val_main_v13_apply, idx_inp_sq, Ideal.mulf_def, Ideal.ofBits_def, Ideal.ofBits_zero_f32, zero_add]
  rfl

/-- The contraction of the doubled centers with the samples is twice the inner product. -/
theorem two_dot_eq (r : Fin 4096) (c : Fin 32768) :
    Read.val_main_v22 (F := Ideal) x0 x1 (ix2 r c)
      = CenterMining.lit 0x40000000#32 * CenterMining.dot (cenOf x0 x1) (inpOf x0) r c := by
  rw [Read.val_main_v22_apply]
  simp only [Read.val_main_v20_apply, Read.val_main_v19_apply, Read.val_main_cst_4_apply, Read.val_main_v21_apply,
    idx_dot_cen, idx_dot_inp, Ideal.mulf_def, Ideal.ofBits_def]
  unfold CenterMining.dot
  rw [CenterMining.two_mul_dot]

/-- The distance from center `r` to sample `c`. -/
theorem dist_eq (r : Fin 4096) (c : Fin 32768) :
    Read.val_main_v25 (F := Ideal) x0 x1 (ix2 r c) = CenterMining.dist (cenOf x0 x1) (inpOf x0) r c := by
  rw [Read.val_main_v25_apply, Read.val_main_v24_apply, Read.val_main_call0_v1_apply, Read.val_main_call0_v0_apply,
    Read.val_main_cst_5_apply, Read.val_main_v23_apply, Read.val_main_v18_apply, cen_sq_eq, inp_sq_eq, two_dot_eq]
  simp only [Ideal.hostUnary_sqrt_def, Ideal.maximumf_def, Ideal.subf_def, Ideal.addf_def, Ideal.ofBits_def]
  unfold CenterMining.dist
  rfl

/-! ## The masks and the masked distances -/

/-- The pair is negative: the labels differ. -/
theorem isNeg_eq (r : Fin 4096) (c : Fin 32768) :
    Read.val_main_v40 (F := Ideal) x1 (ix2 r c) = CenterMining.isNeg (cidOf x1) (tgtOf x1) r c := by
  rw [Read.val_main_v40_apply, Read.val_main_v38_apply, Read.val_main_v36_apply, Read.val_main_v39_apply,
    Read.val_main_v37_apply, idx_cid, idx_tgt]
  rfl

/-- The distance on the negative pairs. -/
theorem an_eq (r : Fin 4096) (c : Fin 32768) :
    Read.val_main_v41 (F := Ideal) x0 x1 (ix2 r c)
      = CenterMining.an (cenOf x0 x1) (inpOf x0) (cidOf x1) (tgtOf x1) r c := by
  rw [Read.val_main_v41_apply, isNeg_eq, dist_eq, Read.val_main_call1_v1_apply, Read.val_main_call1_v0_apply,
    Read.val_main_cst_8_apply]
  rfl

/-- The negative entry counts. -/
theorem countsAn_eq (r : Fin 4096) (c : Fin 32768) :
    Read.val_main_v43 (F := Ideal) x0 x1 (ix2 r c)
      = CenterMining.counts (CenterMining.an (cenOf x0 x1) (inpOf x0) (cidOf x1) (tgtOf x1) r c) := by
  rw [Read.val_main_v43_apply, an_eq, Read.val_main_v42_apply, Read.val_main_cst_9_apply]
  rfl

/-- The counted negative distance, zero elsewhere. -/
theorem keptAn_eq (r : Fin 4096) (c : Fin 32768) :
    Read.val_main_v47 (F := Ideal) x0 x1 (ix2 r c)
      = CenterMining.kept (CenterMining.counts (CenterMining.an (cenOf x0 x1) (inpOf x0) (cidOf x1) (tgtOf x1) r c))
          (CenterMining.an (cenOf x0 x1) (inpOf x0) (cidOf x1) (tgtOf x1) r c) := by
  rw [Read.val_main_v47_apply, countsAn_eq, an_eq, Read.val_main_call2_v1_apply, Read.val_main_call2_v0_apply,
    Read.val_main_cst_11_apply]
  rfl

/-- The distance on the positive pairs. -/
theorem ap_eq (r : Fin 4096) (c : Fin 32768) :
    Read.val_main_v62 (F := Ideal) x0 x1 (ix2 r c)
      = CenterMining.ap (cenOf x0 x1) (inpOf x0) (cidOf x1) (tgtOf x1) r c := by
  rw [Read.val_main_v62_apply, isNeg_eq, dist_eq, Read.val_main_call4_v1_apply, Read.val_main_call4_v0_apply,
    Read.val_main_cst_18_apply]
  rfl

/-- The positive entry counts. -/
theorem countsAp_eq (r : Fin 4096) (c : Fin 32768) :
    Read.val_main_v64 (F := Ideal) x0 x1 (ix2 r c)
      = CenterMining.counts (CenterMining.ap (cenOf x0 x1) (inpOf x0) (cidOf x1) (tgtOf x1) r c) := by
  rw [Read.val_main_v64_apply, ap_eq, Read.val_main_v63_apply, Read.val_main_cst_19_apply]
  rfl

/-- The counted positive distance, zero elsewhere. -/
theorem keptAp_eq (r : Fin 4096) (c : Fin 32768) :
    Read.val_main_v65 (F := Ideal) x0 x1 (ix2 r c)
      = CenterMining.kept (CenterMining.counts (CenterMining.ap (cenOf x0 x1) (inpOf x0) (cidOf x1) (tgtOf x1) r c))
          (CenterMining.ap (cenOf x0 x1) (inpOf x0) (cidOf x1) (tgtOf x1) r c) := by
  rw [Read.val_main_v65_apply, countsAp_eq, ap_eq, Read.val_main_call5_v1_apply, Read.val_main_call5_v0_apply,
    Read.val_main_cst_20_apply]
  rfl

end

end Cert.ReferenceIdeal.RefValue

end
-- ==== Proof.RefValue.lean ====
/-
  The reference, center by center, and its result.

  Each per-center quantity of the reference is a sum along the samples of the pairwise terms: the float sums start from
  an explicit zero; the counts are wrapping 32-bit sums of 0/1 words, which with at most 32768 words in a row and 2^27
  over all pairs never wrap, so that read as numbers they are the sums of the 0/1 values. The sums over all pairs run
  over the pairs' index type, which is the product of the two coordinate ranges. The mean over the centers is the sum
  divided by the literal 4096.
-/
import proofs.«106767_j16449724745480_1_alg».proof.Proof.Gen.ReferenceIdeal.Read
import proofs.«106767_j16449724745480_1_alg».proof.Proof.CenterMining
import proofs.«106767_j16449724745480_1_alg».proof.Proof.RefCounts
import proofs.«106767_j16449724745480_1_alg».proof.Proof.RefPairs
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Index types as coordinate ranges -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- There are 2^27 pairs, fewer than 2^31. -/
theorem card_pairs : (Finset.univ : Finset S4096x32768.Idx).card < 2 ^ 31 := by
  rw [Finset.card_univ, Fintype.card_congr (idxEquiv2 (n0 := 4096) (n1 := 32768)), Fintype.card_prod,
    Fintype.card_fin, Fintype.card_fin]
  norm_num

/-- Summing along the samples: the shape fact that names the inserted coordinate. -/
theorem alongSamples : S4096x32768.Reduces [1] S4096 := by decide

theorem lift_row (r : Fin 4096) (k : Fin 32768) : alongSamples.lift (ix1 r) k = ix2 r k :=
  funext fun a => Fin.ext (by match a with | ⟨0, _⟩ => rfl | ⟨1, _⟩ => rfl)

theorem idx_row_an (r : Fin 4096) (k : Fin 32768) : Read.idx_main_v48 (ix1 r) k = ix2 r k :=
  funext fun a => Fin.ext (by match a with | ⟨0, _⟩ => rfl | ⟨1, _⟩ => rfl)

theorem idx_row_hard (r : Fin 4096) (k : Fin 32768) : Read.idx_main_v58 (ix1 r) k = ix2 r k :=
  funext fun a => Fin.ext (by match a with | ⟨0, _⟩ => rfl | ⟨1, _⟩ => rfl)

theorem idx_dneg (r : Fin 4096) (c : Fin 32768) : Read.idx_main_v50 (Read.idx_main_v51 (ix2 r c)) = ix1 r :=
  funext fun a => Fin.ext (by match a with | ⟨0, _⟩ => rfl)

section
variable (x0 : (⟨S32768x256, .f32⟩ : BufTy).Contents (Elt Ideal)) (x1 : (⟨S32768, .i32⟩ : BufTy).Contents (Elt Ideal))

local notation "cen" => cenOf x0 x1
local notation "inp" => inpOf x0
local notation "cid" => cidOf x1
local notation "tgt" => tgtOf x1

/-! ## The negatives of a center -/

/-- The sum of the counted negative distances of center `r`. -/
theorem sumAn_eq (r : Fin 4096) :
    Read.val_main_v48 (F := Ideal) x0 x1 (ix1 r) = CenterMining.sumAn cen inp cid tgt r := by
  rw [Read.val_main_v48_apply, Read.val_main_cst_12_apply]
  simp only [idx_row_an, keptAn_eq, Ideal.ofBits_def, Ideal.ofBits_zero_f32, zero_add]
  rfl

/-- The number of counted negatives of center `r`. -/
theorem cntNeg_eq (r : Fin 4096) :
    Read.val_main_v46 (F := Ideal) x0 x1 (ix1 r) = CenterMining.cntNeg cen inp cid tgt r := by
  rw [Read.val_main_v46_apply]
  unfold Read.val_main_v45 CenterMining.cntNeg
  refine (reduce_addi_single (Read.val_main_v44 (F := Ideal) x0 x1) (Read.val_main_c_10 (F := Ideal))
    reducesTo_S4096x32768_S4096_d1 alongSamples h_S_ rfl
    (fun i => by rw [Read.val_main_v44_apply]; exact toNat_setWidth_bit_le _)
    (by show (32768 : ℕ) < 2 ^ 31; norm_num) (ix1 r)).trans ?_
  refine Finset.sum_congr rfl fun (k : Fin 32768) _ => ?_
  rw [lift_row, Read.val_main_v44_apply, countsAn_eq]
  rfl

/-- The mean counted negative distance of center `r`. -/
theorem dNeg_eq (r : Fin 4096) :
    Read.val_main_v49 (F := Ideal) x0 x1 (ix1 r) = CenterMining.dNeg cen inp cid tgt r := by
  rw [Read.val_main_v49_apply, sumAn_eq, cntNeg_eq]
  rfl

/-! ## The hard negatives of a center -/

/-- The pair is a hard negative: counted, and closer than the center's mean negative distance. -/
theorem hard_eq (r : Fin 4096) (c : Fin 32768) :
    Read.val_main_v53 (F := Ideal) x0 x1 (ix2 r c)
      = CenterMining.hardAt cen inp cid tgt (CenterMining.dNeg cen inp cid tgt) r c := by
  rw [Read.val_main_v53_apply, countsAn_eq, Read.val_main_v52_apply, an_eq, Read.val_main_v51_apply,
    Read.val_main_v50_apply, idx_dneg, dNeg_eq]
  rfl

/-- The hard negative distance, zero elsewhere. -/
theorem keptHard_eq (r : Fin 4096) (c : Fin 32768) :
    Read.val_main_v57 (F := Ideal) x0 x1 (ix2 r c)
      = CenterMining.kept (CenterMining.hardAt cen inp cid tgt (CenterMining.dNeg cen inp cid tgt) r c)
          (CenterMining.an cen inp cid tgt r c) := by
  rw [Read.val_main_v57_apply, hard_eq, an_eq, Read.val_main_call3_v1_apply, Read.val_main_call3_v0_apply,
    Read.val_main_cst_14_apply]
  rfl

/-- The sum of the hard negative distances of center `r`. -/
theorem hardSum_eq (r : Fin 4096) :
    Read.val_main_v58 (F := Ideal) x0 x1 (ix1 r) = CenterMining.hardSum cen inp cid tgt r := by
  rw [Read.val_main_v58_apply, Read.val_main_cst_15_apply]
  simp only [idx_row_hard, keptHard_eq, Ideal.ofBits_def, Ideal.ofBits_zero_f32, zero_add]
  rfl

/-- The number of hard negatives of center `r`. -/
theorem hardCnt_eq (r : Fin 4096) :
    Read.val_main_v56 (F := Ideal) x0 x1 (ix1 r) = CenterMining.hardCnt cen inp cid tgt r := by
  rw [Read.val_main_v56_apply]
  unfold Read.val_main_v55 CenterMining.hardCnt CenterMining.hardCntAt
  refine (reduce_addi_single (Read.val_main_v54 (F := Ideal) x0 x1) (Read.val_main_c_13 (F := Ideal))
    reducesTo_S4096x32768_S4096_d1 alongSamples h_S_ rfl
    (fun i => by rw [Read.val_main_v54_apply]; exact toNat_setWidth_bit_le _)
    (by show (32768 : ℕ) < 2 ^ 31; norm_num) (ix1 r)).trans ?_
  refine Finset.sum_congr rfl fun (k : Fin 32768) _ => ?_
  rw [lift_row, Read.val_main_v54_apply, hard_eq]
  rfl

/-- The mean hard-negative distance of center `r`. -/
theorem rowMean_eq (r : Fin 4096) :
    Read.val_main_v59 (F := Ideal) x0 x1 (ix1 r)
      = Ideal.div (CenterMining.hardSum cen inp cid tgt r) (CenterMining.hardCnt cen inp cid tgt r) := by
  rw [Read.val_main_v59_apply, hardSum_eq, hardCnt_eq]
  rfl

/-- Its mean over the centers. -/
theorem meanHard_eq (i : S_.Idx) :
    Read.val_main_v61 (F := Ideal) x0 x1 i
      = Ideal.div (∑ r, Ideal.div (CenterMining.hardSum cen inp cid tgt r) (CenterMining.hardCnt cen inp cid tgt r))
          (CenterMining.lit 0x45800000#32) := by
  rw [Read.val_main_v61_apply, Read.val_main_v60_apply, Read.val_main_cst_16_apply, Read.val_main_cst_17_apply,
    sum_idx1]
  simp only [rowMean_eq, Ideal.ofBits_def, Ideal.ofBits_zero_f32, zero_add, Ideal.hostDivf_def]

/-! ## The positives, over all pairs -/

/-- The sum of the counted positive distances. -/
theorem posSum_eq (i : S_.Idx) :
    Read.val_main_v66 (F := Ideal) x0 x1 i = ∑ r, CenterMining.sumAp cen inp cid tgt r := by
  rw [Read.val_main_v66_apply, Read.val_main_cst_21_apply, sum_idx2]
  simp only [keptAp_eq, Ideal.ofBits_def, Ideal.ofBits_zero_f32, zero_add]
  rfl

/-- The number of counted positives. -/
theorem posCnt_eq (i : S_.Idx) :
    Read.val_main_v69 (F := Ideal) x0 x1 i = ∑ r, CenterMining.cntAp cen inp cid tgt r := by
  rw [Read.val_main_v69_apply]
  unfold Read.val_main_v68
  refine (reduce_addi_total (Read.val_main_v67 (F := Ideal) x0 x1) (Read.val_main_c_22 (F := Ideal))
    reducesTo_S4096x32768_S_d0_1 (fun b => b.elim0) h_S_ rfl
    (fun j => by rw [Read.val_main_v67_apply]; exact toNat_setWidth_bit_le _) card_pairs i).trans ?_
  rw [sum_idx2]
  refine Finset.sum_congr rfl fun r _ => Finset.sum_congr rfl fun c _ => ?_
  rw [Read.val_main_v67_apply, countsAp_eq]
  rfl

end

/-! ## The result -/

/-- The reference's result is the specification's, of the centers, the samples and the labels. -/
theorem result_eq (x0 : (⟨S32768x256, .f32⟩ : BufTy).Contents (Elt Ideal)) (x1 : (⟨S32768, .i32⟩ : BufTy).Contents (Elt Ideal)) :
    Cert.ReferenceIdeal.Read.val_main_v71 (F := Ideal) x0 x1 = fun _ => CenterMining.result (fun r k => Cert.ReferenceIdeal.Read.val_main_v9 (F := Ideal) x0 x1 (ix2 r k)) (fun s k => x0 (ix2 s k)) (fun r => Cert.ReferenceIdeal.Read.val_main_v35 (F := Ideal) x1 (ix1 r)) (fun s => x1 (ix1 s)) := by
  funext i
  rw [Read.val_main_v71_apply, Read.val_main_v70_apply, posSum_eq, posCnt_eq, meanHard_eq]
  rfl

end Cert.ReferenceIdeal.RefValue

end
-- ==== Proof.lean ====
/-
  The claim: the two frames of the kernel (as printed, and idealized) and the reference's frame; the idealization
  rewrote nothing; and at the ideal instance the idealized kernel and the idealized reference, run from memories that
  agree on the samples and on their labels, end with one and the same scalar.

  That scalar is `CenterMining.result` of four arrays formed from the two arguments: the class centers (the segment
  means of the samples over their labels), the samples, the centers' labels (the label of every fourth sample) and the
  samples' labels. The kernel reaches it in two passes over (512 centers) × (1024 samples) tiles of the distance matrix,
  accumulating per center over the 32 column tiles: pass 1 the sums and counts of the counted negative and positive
  distances, pass 2 — handed the mean negative distance per center — the sum and count of the hard negatives; the host
  forms the means and the final quotient. The reference forms the whole 4096 × 32768 matrix and sums it flat. On the
  extended reals the two agree entry by entry and sum by sum: a change of float format is the identity, a sum does not
  depend on its grouping, the factor 2 of the cross term may sit inside or outside the inner product, and a count of mask
  bits is the same number whether the bits are summed as integers and converted or converted and summed.
-/
import proofs.«106767_j16449724745480_1_alg».proof.Defs
import proofs.«106767_j16449724745480_1_alg».proof.Proof.Gen.Kernel
import proofs.«106767_j16449724745480_1_alg».proof.Proof.Gen.Kernel.Frame
import proofs.«106767_j16449724745480_1_alg».proof.Proof.Gen.KernelIdeal
import proofs.«106767_j16449724745480_1_alg».proof.Proof.Gen.KernelIdeal.Frame
import proofs.«106767_j16449724745480_1_alg».proof.Proof.Gen.ReferenceIdeal
import proofs.«106767_j16449724745480_1_alg».proof.Proof.Gen.ReferenceIdeal.Run
import proofs.«106767_j16449724745480_1_alg».proof.Proof.Gen.ReferenceIdeal.Read
import proofs.«106767_j16449724745480_1_alg».proof.Proof.Gen.Pre_finite_inputs
import proofs.«106767_j16449724745480_1_alg».proof.Proof.CenterMining
import proofs.«106767_j16449724745480_1_alg».proof.Proof.Arrays
import proofs.«106767_j16449724745480_1_alg».proof.Proof.KernelRun
import proofs.«106767_j16449724745480_1_alg».proof.Proof.KernelFold
import proofs.«106767_j16449724745480_1_alg».proof.Proof.Entry
import proofs.«106767_j16449724745480_1_alg».proof.Proof.PassOneValue
import proofs.«106767_j16449724745480_1_alg».proof.Proof.PassTwoValue
import proofs.«106767_j16449724745480_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

theorem preserves : Cert.preserves_Kernel_KernelIdeal := trivial

/-- Both programs end at the specification's result of the centers, the samples and the two label arrays formed from the
    kernel's launch arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => CenterMining.result
      (fun r k => Cert.ReferenceIdeal.Read.val_main_v9 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (ix2 r k))
      (fun s k => m ((c.tc : Thread Cert.KernelIdeal.nD Cert.KernelIdeal.τ).loc Cert.KernelIdeal.main_arg0) (ix2 s k))
      (fun r => Cert.ReferenceIdeal.Read.val_main_v35 (F := Ideal)
        (m ((c.tc : Thread Cert.KernelIdeal.nD Cert.KernelIdeal.τ).loc Cert.KernelIdeal.main_arg1)) (ix1 r))
      (fun s => m ((c.tc : Thread Cert.KernelIdeal.nD Cert.KernelIdeal.τ).loc Cert.KernelIdeal.main_arg1) (ix1 s)), ?_, ?_⟩
  · refine (θ_run Cert.KernelIdeal.defs _ _).mono (fun _ h c => ⟨(h c).1.trans ?_, (h c).2⟩)
      (Cert.KernelIdeal.Result.run (F := Ideal) m ρ)
    rw [Cert.KernelIdeal.Result.result_eq m ρ c Cert.KernelIdeal.PassOne.sumAn_arr Cert.KernelIdeal.PassOne.cntNeg_arr
      Cert.KernelIdeal.PassOne.sumAp_arr Cert.KernelIdeal.PassOne.cntAp_arr Cert.KernelIdeal.PassTwo.hardSum_arr
      Cert.KernelIdeal.PassTwo.hardCnt_arr]
    have hcen : Cert.KernelIdeal.Arrays.cenOf (Cert.KernelIdeal.Gen.V1 m ρ) c = fun r k => Cert.ReferenceIdeal.Read.val_main_v9 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (ix2 r k) := by
      funext r k
      show Cert.KernelIdeal.Gen.V1 m ρ c Cert.KernelIdeal.main_v9 (ix2 r k) = _
      rw [Cert.KernelIdeal.Entry.centers m ρ c]
    have hinp : Cert.KernelIdeal.Arrays.inpOf (Cert.KernelIdeal.Gen.V1 m ρ) c
        = fun s k => m ((c.tc : Thread Cert.KernelIdeal.nD Cert.KernelIdeal.τ).loc Cert.KernelIdeal.main_arg0) (ix2 s k) := by
      funext s k
      show Cert.KernelIdeal.Gen.V1 m ρ c Cert.KernelIdeal.main_arg0 (ix2 s k) = _
      rw [Cert.KernelIdeal.Entry.samples m ρ c]
    have hcid : Cert.KernelIdeal.Arrays.cidOf (Cert.KernelIdeal.Gen.V1 m ρ) c = fun r => Cert.ReferenceIdeal.Read.val_main_v35 (F := Ideal)
        (m ((c.tc : Thread Cert.KernelIdeal.nD Cert.KernelIdeal.τ).loc Cert.KernelIdeal.main_arg1)) (ix1 r) :=
      funext fun r => Cert.KernelIdeal.Entry.centerLabel m ρ c r
    have htgt : Cert.KernelIdeal.Arrays.tgtOf (Cert.KernelIdeal.Gen.V1 m ρ) c
        = fun s => m ((c.tc : Thread Cert.KernelIdeal.nD Cert.KernelIdeal.τ).loc Cert.KernelIdeal.main_arg1) (ix1 s) :=
      funext fun s => Cert.KernelIdeal.Entry.sampleLabel m ρ c s
    rw [hcen, hinp, hcid, htgt]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v71_eq m' c, Cert.ReferenceIdeal.RefValue.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
